-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x32x7 : Shape := ⟨3, ![40000, 32, 7]⟩
abbrev S40000 : Shape := ⟨1, ![40000]⟩
abbrev S40000x4 : Shape := ⟨2, ![40000, 4]⟩
abbrev S16x64 : Shape := ⟨2, ![16, 64]⟩
abbrev S64 : Shape := ⟨1, ![64]⟩
abbrev S_ : Shape := ⟨0, ![]⟩

class Facts : Prop where
  bcast_S_S40000x32x7 : S_.BroadcastsInDim S40000x32x7 (![] : Fin 0 → Fin S40000x32x7.rank)
  reducesTo_S40000x32x7_S_d0_1_2 : S40000x32x7.ReducesTo [0, 1, 2] S_
  h_S_ : 0 < S_.numel
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S40000x32x7 .f32) (main_arg1 : IVec S40000 32) (main_arg2 : IVec S40000x4 32) (main_arg3 : FVec F S16x64 .f32) (main_arg4 : FVec F S64 .f32) (main_arg5 : FVec F S64 .f32) : IVec S_ 1 :=
  let main_v0 : FVec F S40000x32x7 .f32 := Host.absf main_arg0
  let main_cst : FVec F S_ .f32 := constant S_ .f32 0x7F800000#32
  let main_v1 : FVec F S40000x32x7 .f32 := broadcastInDim S40000x32x7 ![] bcast_S_S40000x32x7 main_cst
  let main_v2 : IVec S40000x32x7 1 := cmpf .olt main_v0 main_v1
  let main_c : IVec S_ 1 := constantI S_ 1 1#1
  let main_v3 : IVec S_ 1 := (fun x v => Host.reduce IntOp.andi x v reducesTo_S40000x32x7_S_d0_1_2 h_S_) main_v2 main_c
  let main_v4 : FVec F S16x64 .f32 := Host.absf main_arg3
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S40000x32x7 : Shape := ⟨3, ![40000, 32, 7]⟩
abbrev S40000 : Shape := ⟨1, ![40000]⟩
abbrev S40000x4 : Shape := ⟨2, ![40000, 4]⟩
abbrev S16x64 : Shape := ⟨2, ![16, 64]⟩
abbrev S64 : Shape := ⟨1, ![64]⟩
abbrev S40000x1 : Shape := ⟨2, ![40000, 1]⟩
abbrev S1x64 : Shape := ⟨2, ![1, 64]⟩
abbrev S200x32x7 : Shape := ⟨3, ![200, 32, 7]⟩
abbrev S200x1 : Shape := ⟨2, ![200, 1]⟩
abbrev S200x4 : Shape := ⟨2, ![200, 4]⟩
abbrev S200x1x1 : Shape := ⟨3, ![200, 1, 1]⟩
abbrev S200x32x3 : Shape := ⟨3, ![200, 32, 3]⟩
abbrev S200x3 : Shape := ⟨2, ![200, 3]⟩
abbrev S200x1x3 : Shape := ⟨3, ![200, 1, 3]⟩
abbrev S200 : Shape := ⟨1, ![200]⟩
abbrev S200x32x1 : Shape := ⟨3, ![200, 32, 1]⟩
abbrev S200x32 : Shape := ⟨2, ![200, 32]⟩
abbrev S200x32x2 : Shape := ⟨3, ![200, 32, 2]⟩
abbrev S200x32x4 : Shape := ⟨3, ![200, 32, 4]⟩
abbrev S200x1x4 : Shape := ⟨3, ![200, 1, 4]⟩
abbrev S200x32x5 : Shape := ⟨3, ![200, 32, 5]⟩
abbrev S200x32x16 : Shape := ⟨3, ![200, 32, 16]⟩
abbrev S6400x16 : Shape := ⟨2, ![6400, 16]⟩
abbrev S6400x64 : Shape := ⟨2, ![6400, 64]⟩
abbrev S_ : Shape := ⟨0, ![]⟩
abbrev S40000x64 : Shape := ⟨2, ![40000, 64]⟩
abbrev S200x64 : Shape := ⟨2, ![200, 64]⟩
abbrev S200x32x64 : Shape := ⟨3, ![200, 32, 64]⟩
abbrev S1x1x64 : Shape := ⟨3, ![1, 1, 64]⟩

abbrev nBuf : Space → Nat
  | .hbm => 33
  | .vmem => 20
  | .smem => 0
  | _ => 0

abbrev bufTy : (tb : Table) → Fin (tcTables nBuf tb) → BufTy
  | .hbm, ⟨0, _⟩ => ⟨S40000x32x7, .f32⟩
  | .hbm, ⟨1, _⟩ => ⟨S40000, .i32⟩
  | .hbm, ⟨2, _⟩ => ⟨S40000x4, .i32⟩
  | .hbm, ⟨3, _⟩ => ⟨S16x64, .f32⟩
  | .hbm, ⟨4, _⟩ => ⟨S64, .f32⟩
  | .hbm, ⟨5, _⟩ => ⟨S64, .f32⟩
  | .hbm, ⟨6, _⟩ => ⟨S40000x1, .i32⟩
  | .hbm, ⟨7, _⟩ => ⟨S1x64, .f32⟩
  | .hbm, ⟨8, _⟩ => ⟨S1x64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S1x64, .f32⟩
  | .hbm, ⟨28, _⟩ => ⟨S64, .f32⟩
  | .hbm, ⟨29, _⟩ => ⟨S64, .f32⟩
  | .hbm, ⟨30, _⟩ => ⟨S64, .f32⟩
  | .hbm, ⟨31, _⟩ => ⟨S1x64, .f32⟩
  | .hbm, ⟨32, _⟩ => ⟨S40000x64, .f32⟩
  | .local _ .vmem, ⟨0, _⟩ => ⟨S200x32x7, .f32⟩
  | .local _ .vmem, ⟨1, _⟩ => ⟨S200x32x7, .f32⟩
  | .local _ .vmem, ⟨2, _⟩ => ⟨S200x1, .i32⟩
  | .local _ .vmem, ⟨3, _⟩ => ⟨S200x1, .i32⟩
  | .local _ .vmem, ⟨4, _⟩ => ⟨S200x4, .i32⟩
  | .local _ .vmem, ⟨5, _⟩ => ⟨S200x4, .i32⟩
  | .local _ .vmem, ⟨6, _⟩ => ⟨S16x64, .f32⟩
  | .local _ .vmem, ⟨7, _⟩ => ⟨S1x64, .f32⟩
  | .local _ .vmem, ⟨8, _⟩ => ⟨S1x64, .f32⟩
  | .local _ .vmem, ⟨9, _⟩ => ⟨S200x32x7, .f32⟩
  | .local _ .vmem, ⟨10, _⟩ => ⟨S200x32x7, .f32⟩
  | .local _ .vmem, ⟨11, _⟩ => ⟨S200x1, .i32⟩
  | .local _ .vmem, ⟨12, _⟩ => ⟨S200x1, .i32⟩
  | .local _ .vmem, ⟨13, _⟩ => ⟨S200x4, .i32⟩
  | .local _ .vmem, ⟨14, _⟩ => ⟨S200x4, .i32⟩
  | .local _ .vmem, ⟨15, _⟩ => ⟨S16x64, .f32⟩
  | .local _ .vmem, ⟨16, _⟩ => ⟨S1x64, .f32⟩
  | .local _ .vmem, ⟨17, _⟩ => ⟨S1x64, .f32⟩
  | .local _ .vmem, ⟨18, _⟩ => ⟨S200x64, .f32⟩
  | .local _ .vmem, ⟨19, _⟩ => ⟨S200x64, .f32⟩
  | _, _ => ⟨S40000x32x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![200], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S200x32x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x4 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![200], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x32x7 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S200x4 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S200x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S40000_S40000x1 : S40000.ShapeCasts S40000x1
  inb_S1x64_S1x64_0_0 : ∀ a, (![0, 0] : Fin 2 → Nat) a + S1x64.size a ≤ S1x64.size a
  h_S1x64 : 0 < S1x64.numel
  inb_S200x32x7_S200x32x7_0_0_0 : ∀ a, (![0, 0, 0] : Fin 3 → Nat) a + S200x32x7.size a ≤ S200x32x7.size a
  h_S200x32x7 : 0 < S200x32x7.numel
  inb_S200x1_S200x1_0_0 : ∀ a, (![0, 0] : Fin 2 → Nat) a + S200x1.size a ≤ S200x1.size a
  h_S200x1 : 0 < S200x1.numel
  shapeCasts_S200x1_S200x1 : S200x1.ShapeCasts S200x1
  inb_S200x4_S200x4_0_0 : ∀ a, (![0, 0] : Fin 2 → Nat) a + S200x4.size a ≤ S200x4.size a
  h_S200x4 : 0 < S200x4.numel
  shapeCasts_S200x1_S200x1x1 : S200x1.ShapeCasts S200x1x1
  slices_S200x32x7_o0_0_0_S200x32x3 : S200x32x7.Slices ![0, 0, 0] S200x32x3
  reduces_S200x32x3_S200x3 : S200x32x3.Reduces [1] S200x3
  shapeCasts_S200x3_S200x1x3 : S200x3.ShapeCasts S200x1x3
  broadcasts_S200x1x1_S200x1x3 : S200x1x1.Broadcasts S200x1x3
  broadcasts_S200x1x3_S200x32x3 : S200x1x3.Broadcasts S200x32x3
  slices_S200x4_o0_3_S200x1 : S200x4.Slices ![0, 3] S200x1
  shapeCasts_S200x1_S200 : S200x1.ShapeCasts S200
  shapeCasts_S200_S200x1 : S200.ShapeCasts S200x1
  slices_S200x4_o0_2_S200x1 : S200x4.Slices ![0, 2] S200x1
  slices_S200x32x7_o0_0_0_S200x32x1 : S200x32x7.Slices ![0, 0, 0] S200x32x1
  shapeCasts_S200x32x1_S200x32 : S200x32x1.ShapeCasts S200x32
  broadcasts_S200x1_S200x32 : S200x1.Broadcasts S200x32
  slices_S200x32x7_o0_0_1_S200x32x1 : S200x32x7.Slices ![0, 0, 1] S200x32x1
  shapeCasts_S200x32_S200x32x1 : S200x32.ShapeCasts S200x32x1
  concatenates_S200x32x1_S200x32x1_S200x32x2_d2 : Shape.Concatenates [S200x32x1, S200x32x1] S200x32x2 2
  slices_S200x32x7_o0_0_3_S200x32x4 : S200x32x7.Slices ![0, 0, 3] S200x32x4
  reduces_S200x32x4_S200x4 : S200x32x4.Reduces [1] S200x4
  shapeCasts_S200x4_S200x1x4 : S200x4.ShapeCasts S200x1x4
  broadcasts_S200x1x1_S200x1x4 : S200x1x1.Broadcasts S200x1x4
  broadcasts_S200x1x4_S200x32x4 : S200x1x4.Broadcasts S200x32x4
  slices_S200x32x7_o0_0_2_S200x32x5 : S200x32x7.Slices ![0, 0, 2] S200x32x5
  concatenates_S200x32x2_S200x32x5_S200x32x7_d2 : Shape.Concatenates [S200x32x2, S200x32x5] S200x32x7 2
  concatenates_S200x32x7_S200x32x3_S200x32x2_S200x32x4_S200x32x16_d2 : Shape.Concatenates [S200x32x7, S200x32x3, S200x32x2, S200x32x4] S200x32x16 2
  iota_S200x32_d1_w32 : S200x32.Iotas .tc 32 [1]
  natLt_1_32 : 1 < 32
  broadcasts_S200x32x1_S200x32x16 : S200x32x1.Broadcasts S200x32x16
  shapeCasts_S200x32x16_S6400x16 : S200x32x16.ShapeCasts S6400x16
  inb_S16x64_S16x64_0_0 : ∀ a, (![0, 0] : Fin 2 → Nat) a + S16x64.size a ≤ S16x64.size a
  h_S16x64 : 0 < S16x64.numel
  bitsLt_bf16_f32 : FTy.bits .bf16 < FTy.bits .f32
  reduces_S6400x64_S64 : S6400x64.Reduces [0] S64
  shapeCasts_S64_S1x64 : S64.ShapeCasts S1x64
  shapeCasts_S1x64_S1x64 : S1x64.ShapeCasts S1x64
  shapeCasts_S1x64_S64 : S1x64.ShapeCasts S64
  bcast_S_S64 : S_.BroadcastsInDim S64 (![] : Fin 0 → Fin S64.rank)
  shapeCasts_S6400x64_S200x32x64 : S6400x64.ShapeCasts S200x32x64
  shapeCasts_S1x64_S1x1x64 : S1x64.ShapeCasts S1x1x64
  broadcasts_S1x1x64_S200x32x64 : S1x1x64.Broadcasts S200x32x64
  reduces_S200x32x64_S200x64 : S200x32x64.Reduces [1] S200x64
  inb_S200x64_S200x64_0_0 : ∀ a, (![0, 0] : Fin 2 → Nat) a + S200x64.size a ≤ S200x64.size a
  h_S200x64 : 0 < S200x64.numel
  dot_S6400x16_S16x64_S6400x64_1_0_0_1_n_n_wf : DotDims.WF S6400x16 S16x64 S6400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x32x7.size a ≤ S40000x32x7.size a
  hwx0_0 : ∀ i : grid0.Coords, EltTy.bits .f32 = 32 ∨ (Rect.block (s := S40000x32x7) S200x32x7.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x1.size a ≤ S40000x1.size a
  hwx0_1 : ∀ i : grid0.Coords, EltTy.bits .i32 = 32 ∨ (Rect.block (s := S40000x1) S200x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x4.size a ≤ S40000x4.size a
  hwx0_2 : ∀ i : grid0.Coords, EltTy.bits .i32 = 32 ∨ (Rect.block (s := S40000x4) S200x4.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x64.size a ≤ S16x64.size a
  hwx0_3 : ∀ i : grid0.Coords, EltTy.bits .f32 = 32 ∨ (Rect.block (s := S16x64) S16x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x32x7.size a ≤ S40000x32x7.size a
  hwx1_0 : ∀ i : grid1.Coords, EltTy.bits .f32 = 32 ∨ (Rect.block (s := S40000x32x7) S200x32x7.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x1.size a ≤ S40000x1.size a
  hwx1_1 : ∀ i : grid1.Coords, EltTy.bits .i32 = 32 ∨ (Rect.block (s := S40000x1) S200x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x4.size a ≤ S40000x4.size a
  hwx1_2 : ∀ i : grid1.Coords, EltTy.bits .i32 = 32 ∨ (Rect.block (s := S40000x4) S200x4.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x64.size a ≤ S16x64.size a
  hwx1_3 : ∀ i : grid1.Coords, EltTy.bits .f32 = 32 ∨ (Rect.block (s := S16x64) S16x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S200x64.size a ≤ S40000x64.size a
  hwx1_6 : ∀ i : grid1.Coords, EltTy.bits .f32 = 32 ∨ (Rect.block (s := S40000x64) S200x64.size (cc1_transform_6 i) (hinb1_6 i)).WholeWords (EltTy.packing .f32)

variable [Facts₀]

def dot_S6400x16_S16x64_S6400x64_1_0_0_1_n_n : DotDims S6400x16 S16x64 S6400x64 where
  lhsContracting := [1]
  rhsContracting := [0]
  lhsNonContracting := [0]
  rhsNonContracting := [1]
  lhsBatch := []
  rhsBatch := []
  wf := dot_S6400x16_S16x64_S6400x64_1_0_0_1_n_n_wf

abbrev win0_0 : Pipeline.Window sig grid0 :=
  Pipeline.Window.ofSpec (Memref.whole main_arg0) S200x32x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S200x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S200x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x64.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x64.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S200x32x7.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S200x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S200x4.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S16x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S200x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S40000x32x7 : Shape := ⟨3, ![40000, 32, 7]⟩
abbrev S40000 : Shape := ⟨1, ![40000]⟩
abbrev S40000x4 : Shape := ⟨2, ![40000, 4]⟩
abbrev S16x64 : Shape := ⟨2, ![16, 64]⟩
abbrev S64 : Shape := ⟨1, ![64]⟩
abbrev S40000x1x1 : Shape := ⟨3, ![40000, 1, 1]⟩
abbrev S40000x32x3 : Shape := ⟨3, ![40000, 32, 3]⟩
abbrev S_ : Shape := ⟨0, ![]⟩
abbrev S40000x3 : Shape := ⟨2, ![40000, 3]⟩
abbrev S40000x1x3 : Shape := ⟨3, ![40000, 1, 3]⟩
abbrev S40000x1 : Shape := ⟨2, ![40000, 1]⟩
abbrev S40000x32x1 : Shape := ⟨3, ![40000, 32, 1]⟩
abbrev S40000x32 : Shape := ⟨2, ![40000, 32]⟩
abbrev S40000x32x2 : Shape := ⟨3, ![40000, 32, 2]⟩
abbrev S40000x32x4 : Shape := ⟨3, ![40000, 32, 4]⟩
abbrev S40000x1x4 : Shape := ⟨3, ![40000, 1, 4]⟩
abbrev S40000x32x5 : Shape := ⟨3, ![40000, 32, 5]⟩
abbrev S40000x32x16 : Shape := ⟨3, ![40000, 32, 16]⟩
abbrev S32 : Shape := ⟨1, ![32]⟩
abbrev S1x32 : Shape := ⟨2, ![1, 32]⟩
abbrev S40000x32x64 : Shape := ⟨3, ![40000, 32, 64]⟩
abbrev S1x1x64 : Shape := ⟨3, ![1, 1, 64]⟩
abbrev S40000x64 : Shape := ⟨2, ![40000, 64]⟩

abbrev nBuf : Space → Nat
  | .hbm => 120
  | .vmem => 0
  | .smem => 0
  | _ => 0

abbrev bufTy : (tb : Table) → Fin (tcTables nBuf tb) → BufTy
  | .hbm, ⟨0, _⟩ => ⟨S40000x32x7, .f32⟩
  | .hbm, ⟨1, _⟩ => ⟨S40000, .i32⟩
  | .hbm, ⟨2, _⟩ => ⟨S40000x4, .i32⟩
  | .hbm, ⟨3, _⟩ => ⟨S16x64, .f32⟩
  | .hbm, ⟨4, _⟩ => ⟨S64, .f32⟩
  | .hbm, ⟨5, _⟩ => ⟨S64, .f32⟩
  | .hbm, ⟨6, _⟩ => ⟨S40000, .f32⟩
  | .hbm, ⟨7, _⟩ => ⟨S40000x1x1, .f32⟩
  | .hbm, ⟨8, _⟩ => ⟨S40000x32x3, .f32⟩
  | .hbm, ⟨9, _⟩ => ⟨S_, .f32⟩
  | .hbm, ⟨10, _⟩ => ⟨S40000x3, .f32⟩
  | .hbm, ⟨11, _⟩ => ⟨S40000x1x3, .f32⟩
  | .hbm, ⟨12, _⟩ => ⟨S40000x1x3, .f32⟩
  | .hbm, ⟨13, _⟩ => ⟨S40000x1x3, .f32⟩
  | .hbm, ⟨14, _⟩ => ⟨S40000x32x3, .f32⟩
  | .hbm, ⟨15, _⟩ => ⟨S40000x32x3, .f32⟩
  | .hbm, ⟨16, _⟩ => ⟨S40000x32x3, .f32⟩
  | .hbm, ⟨17, _⟩ => ⟨S40000x1, .i32⟩
  | .hbm, ⟨18, _⟩ => ⟨S40000, .i32⟩
  | .hbm, ⟨19, _⟩ => ⟨S40000, .f32⟩
  | .hbm, ⟨20, _⟩ => ⟨S40000x1, .f32⟩
  | .hbm, ⟨21, _⟩ => ⟨S_, .f32⟩
  | .hbm, ⟨22, _⟩ => ⟨S40000x1, .f32⟩
  | .hbm, ⟨23, _⟩ => ⟨S40000x1, .f32⟩
  | .hbm, ⟨24, _⟩ => ⟨S_, .f32⟩
  | .hbm, ⟨25, _⟩ => ⟨S40000x1, .f32⟩
  | .hbm, ⟨26, _⟩ => ⟨S40000x1, .f32⟩
  | .hbm, ⟨27, _⟩ => ⟨S40000x1, .i32⟩
  | .hbm, ⟨28, _⟩ => ⟨S40000, .i32⟩
  | .hbm, ⟨29, _⟩ => ⟨S40000, .f32⟩
  | .hbm, ⟨30, _⟩ => ⟨S40000x1, .f32⟩
  | .hbm, ⟨31, _⟩ => ⟨S_, .f32⟩
  | .hbm, ⟨32, _⟩ => ⟨S40000x1, .f32⟩
  | .hbm, ⟨33, _⟩ => ⟨S40000x1, .f32⟩
  | .hbm, ⟨34, _⟩ => ⟨S_, .f32⟩
  | .hbm, ⟨35, _⟩ => ⟨S40000x1, .f32⟩
  | .hbm, ⟨36, _⟩ => ⟨S40000x1, .f32⟩
  | .hbm, ⟨37, _⟩ => ⟨S40000x32x1, .f32⟩
  | .hbm, ⟨38, _⟩ => ⟨S40000x32, .f32⟩
  | .hbm, ⟨39, _⟩ => ⟨S40000x32, .f32⟩
  | .hbm, ⟨40, _⟩ => ⟨S40000x32, .f32⟩
  | .hbm, ⟨41, _⟩ => ⟨S40000x32x1, .f32⟩
  | .hbm, ⟨42, _⟩ => ⟨S40000x32, .f32⟩
  | .hbm, ⟨43, _⟩ => ⟨S40000x32, .f32⟩
  | .hbm, ⟨44, _⟩ => ⟨S40000x32, .f32⟩
  | .hbm, ⟨45, _⟩ => ⟨S40000x32x1, .f32⟩
  | .hbm, ⟨46, _⟩ => ⟨S40000x32x1, .f32⟩
  | .hbm, ⟨47, _⟩ => ⟨S40000x32x2, .f32⟩
  | .hbm, ⟨48, _⟩ => ⟨S40000x32x4, .f32⟩
  | .hbm, ⟨49, _⟩ => ⟨S_, .f32⟩
  | .hbm, ⟨50, _⟩ => ⟨S40000x4, .f32⟩
  | .hbm, ⟨51, _⟩ => ⟨S40000x1x4, .f32⟩
  | .hbm, ⟨52, _⟩ => ⟨S40000x1x4, .f32⟩
  | .hbm, ⟨53, _⟩ => ⟨S40000x1x4, .f32⟩
  | .hbm, ⟨54, _⟩ => ⟨S40000x32x4, .f32⟩
  | .hbm, ⟨55, _⟩ => ⟨S40000x32x4, .f32⟩
  | .hbm, ⟨56, _⟩ => ⟨S40000x32x4, .f32⟩
  | .hbm, ⟨57, _⟩ => ⟨S40000x32x5, .f32⟩
  | .hbm, ⟨58, _⟩ => ⟨S40000x32x7, .f32⟩
  | .hbm, ⟨59, _⟩ => ⟨S40000x32x16, .f32⟩
  | .hbm, ⟨60, _⟩ => ⟨S32, .i32⟩
  | .hbm, ⟨61, _⟩ => ⟨S1x32, .i32⟩
  | .hbm, ⟨62, _⟩ => ⟨S40000x1, .i32⟩
  | .hbm, ⟨63, _⟩ => ⟨S40000x32, .i32⟩
  | .hbm, ⟨64, _⟩ => ⟨S40000x32, .i32⟩
  | .hbm, ⟨65, _⟩ => ⟨S40000x32, .i1⟩
  | .hbm, ⟨66, _⟩ => ⟨S40000x32, .f32⟩
  | .hbm, ⟨67, _⟩ => ⟨S40000x32x1, .f32⟩
  | .hbm, ⟨68, _⟩ => ⟨S40000x32x16, .f32⟩
  | .hbm, ⟨69, _⟩ => ⟨S40000x32x16, .f32⟩
  | .hbm, ⟨70, _⟩ => ⟨S40000x32x64, .f32⟩
  | .hbm, ⟨71, _⟩ => ⟨S_, .f32⟩
  | .hbm, ⟨72, _⟩ => ⟨S64, .f32⟩
  | .hbm, ⟨73, _⟩ => ⟨S_, .f32⟩
  | .hbm, ⟨74, _⟩ => ⟨S64, .f32⟩
  | .hbm, ⟨75, _⟩ => ⟨S64, .f32⟩
  | .hbm, ⟨76, _⟩ => ⟨S_, .i32⟩
  | .hbm, ⟨77, _⟩ => ⟨S_, .f32⟩
  | .hbm, ⟨78, _⟩ => ⟨S64, .f32⟩
  | .hbm, ⟨79, _⟩ => ⟨S1x1x64, .f32⟩
  | .hbm, ⟨80, _⟩ => ⟨S_, .f32⟩
  | .hbm, ⟨81, _⟩ => ⟨S1x1x64, .f32⟩
  | .hbm, ⟨82, _⟩ => ⟨S1x1x64, .f32⟩
  | .hbm, ⟨83, _⟩ => ⟨S40000x32x64, .f32⟩
  | .hbm, ⟨84, _⟩ => ⟨S40000x32x64, .f32⟩
  | .hbm, ⟨85, _⟩ => ⟨S40000x32x64, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S64, .f32⟩
  | .hbm, ⟨91, _⟩ => ⟨S64, .f32⟩
  | .hbm, ⟨92, _⟩ => ⟨S64, .f32⟩
  | .hbm, ⟨93, _⟩ => ⟨S_, .f32⟩
  | .hbm, ⟨94, _⟩ => ⟨S_, .i1⟩
  | .hbm, ⟨95, _⟩ => ⟨S_, .f32⟩
  | .hbm, ⟨96, _⟩ => ⟨S_, .f32⟩
  | .hbm, ⟨97, _⟩ => ⟨S64, .f32⟩
  | .hbm, ⟨98, _⟩ => ⟨S64, .f32⟩
  | .hbm, ⟨99, _⟩ => ⟨S1x1x64, .f32⟩
  | .hbm, ⟨100, _⟩ => ⟨S40000x32x64, .f32⟩
  | .hbm, ⟨101, _⟩ => ⟨S40000x32x64, .f32⟩
  | .hbm, ⟨102, _⟩ => ⟨S_, .f32⟩
  | .hbm, ⟨103, _⟩ => ⟨S64, .f32⟩
  | .hbm, ⟨104, _⟩ => ⟨S64, .f32⟩
  | .hbm, ⟨105, _⟩ => ⟨S64, .f32⟩
  | .hbm, ⟨106, _⟩ => ⟨S1x1x64, .f32⟩
  | .hbm, ⟨107, _⟩ => ⟨S40000x32x64, .f32⟩
  | .hbm, ⟨108, _⟩ => ⟨S40000x32x64, .f32⟩
  | .hbm, ⟨109, _⟩ => ⟨S1x1x64, .f32⟩
  | .hbm, ⟨110, _⟩ => ⟨S40000x32x64, .f32⟩
  | .hbm, ⟨111, _⟩ => ⟨S40000x32x64, .f32⟩
  | .hbm, ⟨112, _⟩ => ⟨S1x1x64, .f32⟩
  | .hbm, ⟨113, _⟩ => ⟨S40000x32x64, .f32⟩
  | .hbm, ⟨114, _⟩ => ⟨S40000x32x64, .f32⟩
  | .hbm, ⟨115, _⟩ => ⟨S_, .f32⟩
  | .hbm, ⟨116, _⟩ => ⟨S40000x32x64, .f32⟩
  | .hbm, ⟨117, _⟩ => ⟨S40000x32x64, .f32⟩
  | .hbm, ⟨118, _⟩ => ⟨S_, .f32⟩
  | .hbm, ⟨119, _⟩ => ⟨S40000x64, .f32⟩
  | _, _ => ⟨S40000x32x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_5 : Ref sig .tc := ⟨.hbm, 71, rfl⟩
abbrev main_v59 : Ref sig .tc := ⟨.hbm, 72, rfl⟩
abbrev main_cst_6 : Ref sig .tc := ⟨.hbm, 73, rfl⟩
abbrev main_v60 : Ref sig .tc := ⟨.hbm, 74, rfl⟩
abbrev main_v61 : Ref sig .tc := ⟨.hbm, 75, rfl⟩
abbrev main_c : Ref sig .tc := ⟨.hbm, 76, rfl⟩
abbrev main_call0_cst : Ref sig .tc := ⟨.hbm, 77, rfl⟩
abbrev main_call0_v0 : Ref sig .tc := ⟨.hbm, 78, rfl⟩
abbrev main_call0_v1 : Ref sig .tc := ⟨.hbm, 79, rfl⟩
abbrev main_call0_cst_0 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_v5 : Ref sig .tc := ⟨.hbm, 84, rfl⟩
abbrev main_call0_v6 : Ref sig .tc := ⟨.hbm, 85, rfl⟩
abbrev main_call0_v7 : Ref sig .tc := ⟨.hbm, 86, rfl⟩
abbrev main_call0_cst_1 : Ref sig .tc := ⟨.hbm, 87, rfl⟩
abbrev main_call0_v8 : Ref sig .tc := ⟨.hbm, 88, rfl⟩
abbrev main_call0_cst_2 : Ref sig .tc := ⟨.hbm, 89, rfl⟩
abbrev main_call0_v9 : Ref sig .tc := ⟨.hbm, 90, rfl⟩
abbrev main_call0_v10 : Ref sig .tc := ⟨.hbm, 91, rfl⟩
abbrev main_call0_v11 : Ref sig .tc := ⟨.hbm, 92, rfl⟩
abbrev main_call0_cst_3 : Ref sig .tc := ⟨.hbm, 93, rfl⟩
abbrev main_call0_v12 : Ref sig .tc := ⟨.hbm, 94, rfl⟩
abbrev main_call0_cst_4 : Ref sig .tc := ⟨.hbm, 95, rfl⟩
abbrev main_call0_call0_v0 : Ref sig .tc := ⟨.hbm, 96, rfl⟩
abbrev main_call0_call0_v1 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_7 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_call1_cst : Ref sig .tc := ⟨.hbm, 115, rfl⟩
abbrev main_call1_v0 : Ref sig .tc := ⟨.hbm, 116, rfl⟩
abbrev main_v78 : Ref sig .tc := ⟨.hbm, 117, rfl⟩
abbrev main_cst_8 : Ref sig .tc := ⟨.hbm, 118, rfl⟩
abbrev main_v79 : Ref sig .tc := ⟨.hbm, 119, rfl⟩

abbrev nD : Nat := 1
abbrev τ : Topo := Topo.v7x

variable {F : FTy → Type} [FloatOps F]

class Facts₀ : Prop where
  bcast_S40000_S40000x1x1_0 : S40000.BroadcastsInDim S40000x1x1 (![0] : Fin 1 → Fin S40000x1x1.rank)
  slices_S40000x32x7_S40000x32x3_0_0_0 : S40000x32x7.Slices ![0, 0, 0] S40000x32x3
  reducesTo_S40000x32x3_S40000x3_d1 : S40000x32x3.ReducesTo [1] S40000x3
  h_S_ : 0 < S_.numel
  bcast_S40000x3_S40000x1x3_0_2 : S40000x3.BroadcastsInDim S40000x1x3 (![0, 2] : Fin 2 → Fin S40000x1x3.rank)
  bcast_S40000x1x1_S40000x1x3_0_1_2 : S40000x1x1.BroadcastsInDim S40000x1x3 (![0, 1, 2] : Fin 3 → Fin S40000x1x3.rank)
  bcast_S40000x1x3_S40000x32x3_0_1_2 : S40000x1x3.BroadcastsInDim S40000x32x3 (![0, 1, 2] : Fin 3 → Fin S40000x32x3.rank)
  slices_S40000x4_S40000x1_0_3 : S40000x4.Slices ![0, 3] S40000x1
  shapeCasts_S40000x1_S40000 : S40000x1.ShapeCasts S40000
  bcast_S40000_S40000x1_0 : S40000.BroadcastsInDim S40000x1 (![0] : Fin 1 → Fin S40000x1.rank)
  bcast_S_S40000x1 : S_.BroadcastsInDim S40000x1 (![] : Fin 0 → Fin S40000x1.rank)
  slices_S40000x4_S40000x1_0_2 : S40000x4.Slices ![0, 2] S40000x1
  slices_S40000x32x7_S40000x32x1_0_0_0 : S40000x32x7.Slices ![0, 0, 0] S40000x32x1
  shapeCasts_S40000x32x1_S40000x32 : S40000x32x1.ShapeCasts S40000x32
  bcast_S40000x1_S40000x32_0_1 : S40000x1.BroadcastsInDim S40000x32 (![0, 1] : Fin 2 → Fin S40000x32.rank)
  slices_S40000x32x7_S40000x32x1_0_0_1 : S40000x32x7.Slices ![0, 0, 1] S40000x32x1
  bcast_S40000x32_S40000x32x1_0_1 : S40000x32.BroadcastsInDim S40000x32x1 (![0, 1] : Fin 2 → Fin S40000x32x1.rank)
  concatenates_S40000x32x1_S40000x32x1_S40000x32x2_d2 : Shape.Concatenates [S40000x32x1, S40000x32x1] S40000x32x2 2
  slices_S40000x32x7_S40000x32x4_0_0_3 : S40000x32x7.Slices ![0, 0, 3] S40000x32x4
  reducesTo_S40000x32x4_S40000x4_d1 : S40000x32x4.ReducesTo [1] S40000x4
  bcast_S40000x4_S40000x1x4_0_2 : S40000x4.BroadcastsInDim S40000x1x4 (![0, 2] : Fin 2 → Fin S40000x1x4.rank)
  bcast_S40000x1x1_S40000x1x4_0_1_2 : S40000x1x1.BroadcastsInDim S40000x1x4 (![0, 1, 2] : Fin 3 → Fin S40000x1x4.rank)
  bcast_S40000x1x4_S40000x32x4_0_1_2 : S40000x1x4.BroadcastsInDim S40000x32x4 (![0, 1, 2] : Fin 3 → Fin S40000x32x4.rank)
  slices_S40000x32x7_S40000x32x5_0_0_2 : S40000x32x7.Slices ![0, 0, 2] S40000x32x5
  concatenates_S40000x32x2_S40000x32x5_S40000x32x7_d2 : Shape.Concatenates [S40000x32x2, S40000x32x5] S40000x32x7 2
  concatenates_S40000x32x7_S40000x32x3_S40000x32x2_S40000x32x4_S40000x32x16_d2 : Shape.Concatenates [S40000x32x7, S40000x32x3, S40000x32x2, S40000x32x4] S40000x32x16 2
  bcast_S32_S1x32_1 : S32.BroadcastsInDim S1x32 (![1] : Fin 1 → Fin S1x32.rank)
  bcast_S1x32_S40000x32_0_1 : S1x32.BroadcastsInDim S40000x32 (![0, 1] : Fin 2 → Fin S40000x32.rank)
  bcast_S40000x32x1_S40000x32x16_0_1_2 : S40000x32x1.BroadcastsInDim S40000x32x16 (![0, 1, 2] : Fin 3 → Fin S40000x32x16.rank)
  reducesTo_S40000x32x64_S64_d0_1 : S40000x32x64.ReducesTo [0, 1] S64
  bcast_S_S64 : S_.BroadcastsInDim S64 (![] : Fin 0 → Fin S64.rank)
  bcast_S64_S1x1x64_2 : S64.BroadcastsInDim S1x1x64 (![2] : Fin 1 → Fin S1x1x64.rank)
  bcast_S_S1x1x64 : S_.BroadcastsInDim S1x1x64 (![] : Fin 0 → Fin S1x1x64.rank)
  bcast_S1x1x64_S40000x32x64_0_1_2 : S1x1x64.BroadcastsInDim S40000x32x64 (![0, 1, 2] : Fin 3 → Fin S40000x32x64.rank)
  bcast_S_S40000x32x64 : S_.BroadcastsInDim S40000x32x64 (![] : Fin 0 → Fin S40000x32x64.rank)
  reducesTo_S40000x32x64_S40000x64_d1 : S40000x32x64.ReducesTo [1] S40000x64
  dot_S40000x32x16_S16x64_S40000x32x64_2_0_01_1_n_n_wf : DotDims.WF S40000x32x16 S16x64 S40000x32x64 [2] [0] [0, 1] [1] [] []

variable [Facts₀]

def dot_S40000x32x16_S16x64_S40000x32x64_2_0_01_1_n_n : DotDims S40000x32x16 S16x64 S40000x32x64 where
  lhsContracting := [2]
  rhsContracting := [0]
  lhsNonContracting := [0, 1]
  rhsNonContracting := [1]
  lhsBatch := []
  rhsBatch := []
  wf := dot_S40000x32x16_S16x64_S40000x32x64_2_0_01_1_n_n_wf

class Facts : Prop extends Facts₀ where

variable [Facts]
-- ==== Proof.KerRun.lean ====
/-
  The idealized kernel program's run with its RESULT named. The program is two kernel regions among stretches of
  host operations; the buffer contents at each boundary are a fold from the launch memory (`Gen.W0` … `Gen.W4`).
  Every weakly fair execution terminates, and in the final state every unscoped buffer holds the last boundary's
  contents: in particular the result array holds `Gen.W4` at its reference, and the six arguments are as launched.
-/
import proofs.«173196_j49855980372233_2_alg».proof.Proof.Gen.KernelIdeal.Frame

set_option maxRecDepth 16384

noncomputable section

namespace Cert.KernelIdeal.KerValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last boundary's contents, the arguments unchanged. -/
theorem run_W4 : θ_run defs (onTc (τ := τ) (main (F := F))) ⟨m, fun _ => 0, ρ⟩ (fun r => ∀ c : Dev nD,
      r.2.mem ((c.tc : Thread nD τ).loc main_v21) = W4 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v21 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.KerValue

end
-- ==== Proof.Spec.lean ====
/-
  The mathematics of the pillar feature network, stated once and free of both programs.

  A pillar is 32 points of 7 channels, a point count and a grid cell. Each point is augmented to 16 channels: the two
  offsets from the cell's centre, the five remaining raw channels, the offsets of the first three channels from the
  pillar's mean of them, the two centre offsets again, and the offsets of the last four channels from their mean.
  A mean is the sum over all 32 points divided by a divisor `d` that the two programs choose differently. Points
  at or beyond the count are multiplied by zero. The augmented points go through a 16 × 64 linear map; the result
  `y n q j` (pillar, point, output channel) is normalised per output channel over all 40000 × 32 points, scaled and
  shifted, clamped below at zero, and the maximum over a pillar's points is taken.

  Two arrangements of the normalisation are stated: the one that folds the statistics into a scale and a shift and
  takes the variance as (mean of squares) − (square of mean), clamped at zero; and the one that centres first and
  takes the variance as the mean of squared deviations. `Cert.Pfn.Algebra` proves them equal on real inputs.
-/
import Idealize.ShloMosaic.PureOps.Ideal
import Idealize.ShloMosaic.PureOps.Ideal.Laws
import Idealize.ShloMosaic.Lib.ValueIdx

noncomputable section

open scoped BigOperators

namespace Cert.Pfn

open Idealize.ShloMosaic Idealize.ShloMosaic.ValueIdx

/-! ## The literals, kept as the words both programs print -/

/-- The cell size, the word of `0.2`. -/
def cVox : EReal := Ideal.ofBits .f32 0x3E4CCCCD#32
/-- The x offset of a cell's centre, the word of `0.1`. -/
def cXoff : EReal := Ideal.ofBits .f32 0x3DCCCCCD#32
/-- The y offset of a cell's centre, the word of `-39.9`. -/
def cYoff : EReal := Ideal.ofBits .f32 0xC21F999A#32
/-- The variance's regulariser, the word of `0.001`. -/
def cEps : EReal := Ideal.ofBits .f32 0x3A83126F#32
/-- The number of points over which the statistics are taken, the word of `1280000`. -/
def cN : EReal := Ideal.ofBits .f32 0x499C4000#32
/-- The lower clamp of the activation and of the variance, the word of `0`. -/
def cZero : EReal := Ideal.ofBits .f32 0x00000000#32
/-- The start of a running maximum, the word of `-∞`. -/
def cNegInf : EReal := Ideal.ofBits .f32 0xFF800000#32

/-! ## One pillar -/

/-- A cell coordinate's centre along x. -/
def cxOf (w : BitVec 32) : EReal := ((w.toInt : ℝ) : EReal) * cVox + cXoff
/-- A cell coordinate's centre along y. -/
def cyOf (w : BitVec 32) : EReal := ((w.toInt : ℝ) : EReal) * cVox + cYoff
/-- The divisor that is the point count itself. -/
def dRaw (w : BitVec 32) : EReal := ((w.toInt : ℝ) : EReal)
/-- The divisor that is the point count raised to at least one. -/
def dClamp (w : BitVec 32) : EReal := if 1 ≤ w.toInt then ((w.toInt : ℝ) : EReal) else ((1 : ℝ) : EReal)
/-- One for a point below the count, zero for one at or beyond it. -/
def maskVal (w : BitVec 32) (q : Fin 32) : EReal := if (q.val : ℤ) < w.toInt then ((1 : ℝ) : EReal) else ((0 : ℝ) : EReal)

/-- A channel's mean over the pillar's 32 points, against the divisor `d`. -/
def colMean (x : Fin 32 → Fin 7 → EReal) (d : EReal) (c : Fin 7) : EReal := Ideal.div (∑ q : Fin 32, x q c) d

/-- The 16 augmented channels of point `q`. -/
def aug (x : Fin 32 → Fin 7 → EReal) (d cx cy : EReal) (q : Fin 32) : Fin 16 → EReal
  | 0 => x q 0 - cx
  | 1 => x q 1 - cy
  | 2 => x q 2
  | 3 => x q 3
  | 4 => x q 4
  | 5 => x q 5
  | 6 => x q 6
  | 7 => x q 0 - colMean x d 0
  | 8 => x q 1 - colMean x d 1
  | 9 => x q 2 - colMean x d 2
  | 10 => x q 0 - cx
  | 11 => x q 1 - cy
  | 12 => x q 3 - colMean x d 3
  | 13 => x q 4 - colMean x d 4
  | 14 => x q 5 - colMean x d 5
  | 15 => x q 6 - colMean x d 6
  | ⟨_ + 16, h⟩ => absurd h (Nat.not_lt.2 (Nat.le_add_left _ _))

/-- The augmented channels with the padding points zeroed. -/
def feat (x : Fin 32 → Fin 7 → EReal) (d cx cy : EReal) (mk : Fin 32 → EReal) (q : Fin 32) (c : Fin 16) : EReal :=
  aug x d cx cy q c * mk q

/-- The linear map's output for point `q` against one column `w` of the weights. -/
def lin (x : Fin 32 → Fin 7 → EReal) (d cx cy : EReal) (mk : Fin 32 → EReal) (w : Fin 16 → EReal) (q : Fin 32) : EReal :=
  ∑ c : Fin 16, feat x d cx cy mk q c * w c

/-! ## The whole arrays -/

abbrev SX : Shape := ⟨3, ![40000, 32, 7]⟩
abbrev SNp : Shape := ⟨1, ![40000]⟩
abbrev SCo : Shape := ⟨2, ![40000, 4]⟩
abbrev SW : Shape := ⟨2, ![16, 64]⟩
abbrev SC : Shape := ⟨1, ![64]⟩
abbrev SOut : Shape := ⟨2, ![40000, 64]⟩

/-- The linear map's output `y n q j` with the divisor chosen by `dd`. -/
def Y (dd : BitVec 32 → EReal) (X : SX.Idx → EReal) (np : SNp.Idx → BitVec 32) (co : SCo.Idx → BitVec 32) (W : SW.Idx → EReal)
    (n : Fin 40000) (q : Fin 32) (j : Fin 64) : EReal :=
  lin (fun q' c' => X (ix3 n q' c')) (dd (np (ix1 n))) (cxOf (co (ix2 n 3))) (cyOf (co (ix2 n 2))) (maskVal (np (ix1 n)))
    (fun c => W (ix2 c j)) q

/-- The sum of `y` over every point of every pillar. -/
def S1 (y : Fin 40000 → Fin 32 → Fin 64 → EReal) (j : Fin 64) : EReal := ∑ n : Fin 40000, ∑ q : Fin 32, y n q j
/-- The sum of its squares. -/
def S2 (y : Fin 40000 → Fin 32 → Fin 64 → EReal) (j : Fin 64) : EReal := ∑ n : Fin 40000, ∑ q : Fin 32, y n q j * y n q j
/-- The mean. -/
def meanOf (y : Fin 40000 → Fin 32 → Fin 64 → EReal) (j : Fin 64) : EReal := Ideal.div (S1 y j) cN

/-- The variance as mean of squares minus square of mean, clamped at zero. -/
def varFold (y : Fin 40000 → Fin 32 → Fin 64 → EReal) (j : Fin 64) : EReal :=
  max (Ideal.div (S2 y j) cN - meanOf y j * meanOf y j) cZero
/-- The folded scale. -/
def scaleFold (y : Fin 40000 → Fin 32 → Fin 64 → EReal) (γ : SC.Idx → EReal) (j : Fin 64) : EReal :=
  γ (ix1 j) * Ideal.rsqrt (varFold y j + cEps)
/-- The folded shift. -/
def shiftFold (y : Fin 40000 → Fin 32 → Fin 64 → EReal) (γ β : SC.Idx → EReal) (j : Fin 64) : EReal :=
  β (ix1 j) - meanOf y j * γ (ix1 j) * Ideal.rsqrt (varFold y j + cEps)
/-- The activation in the folded arrangement. -/
def actFold (y : Fin 40000 → Fin 32 → Fin 64 → EReal) (γ β : SC.Idx → EReal) (n : Fin 40000) (q : Fin 32) (j : Fin 64) : EReal :=
  max (y n q j * scaleFold y γ j + shiftFold y γ β j) cZero

/-- The variance as the mean of squared deviations. -/
def varCentred (y : Fin 40000 → Fin 32 → Fin 64 → EReal) (j : Fin 64) : EReal :=
  Ideal.div (∑ n : Fin 40000, ∑ q : Fin 32, (y n q j - meanOf y j) * (y n q j - meanOf y j)) cN
/-- The activation in the centred arrangement. -/
def actCentred (y : Fin 40000 → Fin 32 → Fin 64 → EReal) (γ β : SC.Idx → EReal) (n : Fin 40000) (q : Fin 32) (j : Fin 64) : EReal :=
  max ((y n q j - meanOf y j) * Ideal.rsqrt (varCentred y j + cEps) * γ (ix1 j) + β (ix1 j)) cZero

/-- The running maximum over a pillar's 32 points, from `-∞`. -/
def rowMax (f : Fin 32 → EReal) : EReal := (Finset.univ : Finset (Fin 32)).fold max cNegInf f

/-- The result in the folded arrangement, with the clamped divisor. -/
def outFold (X : SX.Idx → EReal) (np : SNp.Idx → BitVec 32) (co : SCo.Idx → BitVec 32) (W : SW.Idx → EReal) (γ β : SC.Idx → EReal) :
    SOut.Idx → EReal :=
  fun i => rowMax fun q => actFold (Y dClamp X np co W) γ β (i 0) q (i 1)

/-- The result in the centred arrangement, with the raw divisor. -/
def outCentred (X : SX.Idx → EReal) (np : SNp.Idx → BitVec 32) (co : SCo.Idx → BitVec 32) (W : SW.Idx → EReal) (γ β : SC.Idx → EReal) :
    SOut.Idx → EReal :=
  fun i => rowMax fun q => actCentred (Y dRaw X np co W) γ β (i 0) q (i 1)

end Cert.Pfn

end
-- ==== Proof.KerEntry.lean ====
/-
  What the two kernel regions find in their arrays when they are entered.

  Region 0 is entered after one host operation (the point counts reshaped to a column): its four input arrays are
  the launch contents of the points, the reshaped counts, the cells and the weights. Region 1 is entered after the
  23 host operations that turn region 0's two outputs — the column sums `s1` and the column sums of squares `s2`
  of the linear map's output — into a scale and a shift per output channel: with `μ = s1 / N` and
  `v = max (s2 / N − μ·μ) 0`, the scale is `γ · rsqrt (v + ε)` and the shift `β − μ · γ · rsqrt (v + ε)`. Its first four
  input arrays are the same four as region 0's: no host operation and no region writes them.
-/
import proofs.«173196_j49855980372233_2_alg».proof.Proof.Gen.KernelIdeal.Frame
import proofs.«173196_j49855980372233_2_alg».proof.Proof.Spec
import Idealize.ShloMosaic.Lib.StableHlo.Run
import Idealize.ShloMosaic.Lib.Pipeline.Value
import Idealize.ShloMosaic.Lib.ValueIdx

set_option maxRecDepth 16384

noncomputable section

namespace Cert.Pfn

open Idealize.ShloMosaic

/-- The mean from the column sum. -/
def meanK (s1 : EReal) : EReal := Ideal.div s1 cN
/-- The clamped variance from the two column sums. -/
def varK (s1 s2 : EReal) : EReal := max (Ideal.div s2 cN - meanK s1 * meanK s1) cZero
/-- The scale from the two column sums and `γ`. -/
def scaleK (s1 s2 g : EReal) : EReal := g * Ideal.rsqrt (varK s1 s2 + cEps)
/-- The shift from the two column sums, `γ` and `β`. -/
def shiftK (s1 s2 g b : EReal) : EReal := b - meanK s1 * g * Ideal.rsqrt (varK s1 s2 + cEps)

end Cert.Pfn

namespace Cert.KernelIdeal.KerValue

open Cert.KernelIdeal Cert.KernelIdeal.Gen
open Idealize.ShloMosaic Idealize.ShloMosaic.TcCoe Idealize.ShloMosaic.Tactic Idealize.SL.Sem
open Idealize.ShloMosaic.ValueIdx
open Idealize.ShloMosaic.Pipeline (Dat)

section AnyF
variable {F : FTy → Type} [FloatOps F]
variable (m : (ℓ : Loc nD τ sig) → Buf (Elt F) ℓ) (ρ : Dev nD → PrngReg)

/-! ## Region 0's entry -/

theorem V1_arg0 (c : Dev nD) : V1 m ρ c main_arg0 = m ((c : Thread nD τ).loc main_arg0) := by
  show StableHlo.after hostOps0 (W0 m ρ c) (Proc.devRef .tc main_arg0) = _
  after_results
theorem V1_v0 (c : Dev nD) : V1 m ρ c main_v0 = shapeCast S40000x1 (m ((c : Thread nD τ).loc main_arg1)) shapeCasts_S40000_S40000x1 := by
  show StableHlo.after hostOps0 (W0 m ρ c) (Proc.devRef .tc main_v0) = _
  after_results
  rfl
theorem V1_arg2 (c : Dev nD) : V1 m ρ c main_arg2 = m ((c : Thread nD τ).loc main_arg2) := by
  show StableHlo.after hostOps0 (W0 m ρ c) (Proc.devRef .tc main_arg2) = _
  after_results
theorem V1_arg3 (c : Dev nD) : V1 m ρ c main_arg3 = m ((c : Thread nD τ).loc main_arg3) := by
  show StableHlo.after hostOps0 (W0 m ρ c) (Proc.devRef .tc main_arg3) = _
  after_results
theorem V1_arg4 (c : Dev nD) : V1 m ρ c main_arg4 = m ((c : Thread nD τ).loc main_arg4) := by
  show StableHlo.after hostOps0 (W0 m ρ c) (Proc.devRef .tc main_arg4) = _
  after_results
theorem V1_arg5 (c : Dev nD) : V1 m ρ c main_arg5 = m ((c : Thread nD τ).loc main_arg5) := by
  show StableHlo.after hostOps0 (W0 m ρ c) (Proc.devRef .tc main_arg5) = _
  after_results

/-! ## Region 0's exit: an input array is as entered, an output array what the pipeline leaves -/

theorem W2_in0 (c : Dev nD) : W2 m ρ c (Proc.devRef .tc main_arg0) = V1 m ρ c main_arg0 :=
  (W2_arr m ρ c 0).trans (((dat0 (V1 m ρ) c).arrAt_in 0 rfl _).trans (A_eq0 (V1 m ρ) c 0))
theorem W2_in1 (c : Dev nD) : W2 m ρ c (Proc.devRef .tc main_v0) = V1 m ρ c main_v0 :=
  (W2_arr m ρ c 1).trans (((dat0 (V1 m ρ) c).arrAt_in 1 rfl _).trans (A_eq0 (V1 m ρ) c 1))
theorem W2_in2 (c : Dev nD) : W2 m ρ c (Proc.devRef .tc main_arg2) = V1 m ρ c main_arg2 :=
  (W2_arr m ρ c 2).trans (((dat0 (V1 m ρ) c).arrAt_in 2 rfl _).trans (A_eq0 (V1 m ρ) c 2))
theorem W2_in3 (c : Dev nD) : W2 m ρ c (Proc.devRef .tc main_arg3) = V1 m ρ c main_arg3 :=
  (W2_arr m ρ c 3).trans (((dat0 (V1 m ρ) c).arrAt_in 3 rfl _).trans (A_eq0 (V1 m ρ) c 3))
theorem W2_out4 (c : Dev nD) : W2 m ρ c (Proc.devRef .tc main_v1_0) = (dat0 (V1 m ρ) c).arrAt 4 cfg0.N := W2_arr m ρ c 4
theorem W2_out5 (c : Dev nD) : W2 m ρ c (Proc.devRef .tc main_v1_1) = (dat0 (V1 m ρ) c).arrAt 5 cfg0.N := W2_arr m ρ c 5
theorem W2_arg4 (c : Dev nD) : W2 m ρ c (Proc.devRef .tc main_arg4) = V1 m ρ c main_arg4 :=
  W2_of_ne m ρ c main_arg4 (fun w => by fin_cases w <;> decide)
theorem W2_arg5 (c : Dev nD) : W2 m ρ c (Proc.devRef .tc main_arg5) = V1 m ρ c main_arg5 :=
  W2_of_ne m ρ c main_arg5 (fun w => by fin_cases w <;> decide)

/-! ## Region 1's entry -/

theorem V3_arg0 (c : Dev nD) : V3 m ρ c main_arg0 = m ((c : Thread nD τ).loc main_arg0) := by
  show StableHlo.after hostOps1 (W2 m ρ c) (Proc.devRef .tc main_arg0) = _
  after_results
  exact (W2_in0 m ρ c).trans (V1_arg0 m ρ c)
theorem V3_v0 (c : Dev nD) : V3 m ρ c main_v0 = shapeCast S40000x1 (m ((c : Thread nD τ).loc main_arg1)) shapeCasts_S40000_S40000x1 := by
  show StableHlo.after hostOps1 (W2 m ρ c) (Proc.devRef .tc main_v0) = _
  after_results
  exact (W2_in1 m ρ c).trans (V1_v0 m ρ c)
theorem V3_arg2 (c : Dev nD) : V3 m ρ c main_arg2 = m ((c : Thread nD τ).loc main_arg2) := by
  show StableHlo.after hostOps1 (W2 m ρ c) (Proc.devRef .tc main_arg2) = _
  after_results
  exact (W2_in2 m ρ c).trans (V1_arg2 m ρ c)
theorem V3_arg3 (c : Dev nD) : V3 m ρ c main_arg3 = m ((c : Thread nD τ).loc main_arg3) := by
  show StableHlo.after hostOps1 (W2 m ρ c) (Proc.devRef .tc main_arg3) = _
  after_results
  exact (W2_in3 m ρ c).trans (V1_arg3 m ρ c)

/-- The mean per output channel as the host computes it from region 0's first output. -/
def meanT (s1 : Vec F S1x64 .f32) : FVec F S64 .f32 :=
  Host.divf (shapeCast S64 s1 shapeCasts_S1x64_S64) (broadcastInDim S64 ![] bcast_S_S64 (constant S_ .f32 0x499C4000#32))
/-- The reciprocal standard deviation per output channel as the host computes it from region 0's two outputs. -/
def rstdT (s1 s2 : Vec F S1x64 .f32) : FVec F S64 .f32 :=
  Host.rsqrt (addf (maximumf (subf (Host.divf (shapeCast S64 s2 shapeCasts_S1x64_S64) (broadcastInDim S64 ![] bcast_S_S64 (constant S_ .f32 0x499C4000#32)))
      (mulf (meanT s1) (meanT s1))) (broadcastInDim S64 ![] bcast_S_S64 (constant S_ .f32 0x00000000#32)))
    (broadcastInDim S64 ![] bcast_S_S64 (constant S_ .f32 0x3A83126F#32)))
/-- Region 1's scale row. -/
def scaleT (s1 s2 : Vec F S1x64 .f32) (g : Vec F S64 .f32) : Vec F S1x64 .f32 :=
  shapeCast S1x64 (mulf g (rstdT s1 s2)) shapeCasts_S64_S1x64
/-- Region 1's shift row. -/
def shiftT (s1 s2 : Vec F S1x64 .f32) (g b : Vec F S64 .f32) : Vec F S1x64 .f32 :=
  shapeCast S1x64 (subf b (mulf (mulf (meanT s1) g) (rstdT s1 s2))) shapeCasts_S64_S1x64

theorem V3_v16 (c : Dev nD) : V3 m ρ c main_v16
    = scaleT ((dat0 (V1 m ρ) c).arrAt 4 cfg0.N) ((dat0 (V1 m ρ) c).arrAt 5 cfg0.N) (m ((c : Thread nD τ).loc main_arg4)) := by
  rw [← W2_out4, ← W2_out5, ← V1_arg4 m ρ c, ← W2_arg4]
  show StableHlo.after hostOps1 (W2 m ρ c) (Proc.devRef .tc main_v16) = _
  after_results
  rfl
theorem V3_v20 (c : Dev nD) : V3 m ρ c main_v20
    = shiftT ((dat0 (V1 m ρ) c).arrAt 4 cfg0.N) ((dat0 (V1 m ρ) c).arrAt 5 cfg0.N) (m ((c : Thread nD τ).loc main_arg4)) (m ((c : Thread nD τ).loc main_arg5)) := by
  rw [← W2_out4, ← W2_out5, ← V1_arg4 m ρ c, ← W2_arg4, ← V1_arg5 m ρ c, ← W2_arg5]
  show StableHlo.after hostOps1 (W2 m ρ c) (Proc.devRef .tc main_v20) = _
  after_results_simp
  rfl

end AnyF

/-! ## The scale and the shift at a channel, over the extended reals -/

section AtIdeal
open Cert.Pfn

theorem cast_row (s : Vec Ideal S1x64 .f32) (j : Fin 64) : shapeCast S64 s shapeCasts_S1x64_S64 (ix1 j) = s (ix2 0 j) :=
  shapeCast_apply s shapeCasts_S1x64_S64 (ix1 j) (ix2 0 j) (by
    rw [Shape.rowMajor_val_two, Shape.rowMajor_val_one]; show 0 * 64 + j.val = j.val; omega)
theorem cast_col (s : Vec Ideal S64 .f32) (j : Fin 64) : shapeCast S1x64 s shapeCasts_S64_S1x64 (ix2 0 j) = s (ix1 j) :=
  shapeCast_apply s shapeCasts_S64_S1x64 (ix2 0 j) (ix1 j) (by
    rw [Shape.rowMajor_val_two, Shape.rowMajor_val_one]; show j.val = 0 * 64 + j.val; omega)
theorem splat (w : BitVec 32) (j : Fin 64) : broadcastInDim S64 ![] bcast_S_S64 (constant (F := Ideal) S_ .f32 w) (ix1 j) = Ideal.ofBits .f32 w :=
  broadcastInDim_apply ![] bcast_S_S64 (constant (F := Ideal) S_ .f32 w) (ix1 j) ix0 (fun a => a.elim0)

theorem meanT_apply (s1 : Vec Ideal S1x64 .f32) (j : Fin 64) : meanT (F := Ideal) s1 (ix1 j) = meanK (s1 (ix2 0 j)) := by
  show Ideal.div (shapeCast S64 s1 shapeCasts_S1x64_S64 (ix1 j)) (broadcastInDim S64 ![] bcast_S_S64 (constant (F := Ideal) S_ .f32 0x499C4000#32) (ix1 j)) = _
  rw [cast_row, splat]; rfl
theorem rstdT_apply (s1 s2 : Vec Ideal S1x64 .f32) (j : Fin 64) :
    rstdT (F := Ideal) s1 s2 (ix1 j) = Ideal.rsqrt (varK (s1 (ix2 0 j)) (s2 (ix2 0 j)) + cEps) := by
  show Ideal.rsqrt (max (Ideal.div (shapeCast S64 s2 shapeCasts_S1x64_S64 (ix1 j)) (broadcastInDim S64 ![] bcast_S_S64 (constant (F := Ideal) S_ .f32 0x499C4000#32) (ix1 j))
      - meanT (F := Ideal) s1 (ix1 j) * meanT (F := Ideal) s1 (ix1 j)) (broadcastInDim S64 ![] bcast_S_S64 (constant (F := Ideal) S_ .f32 0x00000000#32) (ix1 j))
    + broadcastInDim S64 ![] bcast_S_S64 (constant (F := Ideal) S_ .f32 0x3A83126F#32) (ix1 j)) = _
  rw [cast_row, splat, splat, splat, meanT_apply]; rfl
theorem scaleT_apply (s1 s2 : Vec Ideal S1x64 .f32) (g : Vec Ideal S64 .f32) (j : Fin 64) :
    scaleT (F := Ideal) s1 s2 g (ix2 0 j) = scaleK (s1 (ix2 0 j)) (s2 (ix2 0 j)) (g (ix1 j)) := by
  unfold scaleT
  rw [cast_col]
  show g (ix1 j) * rstdT (F := Ideal) s1 s2 (ix1 j) = _
  rw [rstdT_apply]; rfl
theorem shiftT_apply (s1 s2 : Vec Ideal S1x64 .f32) (g b : Vec Ideal S64 .f32) (j : Fin 64) :
    shiftT (F := Ideal) s1 s2 g b (ix2 0 j) = shiftK (s1 (ix2 0 j)) (s2 (ix2 0 j)) (g (ix1 j)) (b (ix1 j)) := by
  unfold shiftT
  rw [cast_col]
  show b (ix1 j) - meanT (F := Ideal) s1 (ix1 j) * g (ix1 j) * rstdT (F := Ideal) s1 s2 (ix1 j) = _
  rw [rstdT_apply, meanT_apply]; rfl

end AtIdeal

end Cert.KernelIdeal.KerValue

end
-- ==== Proof.BlockSpec.lean ====
/-
  One block of 200 pillars, as both kernels see it: the linear map's output for pillar `p` of the block, point `q`
  and output channel `j`, from the block's points `x0`, counts `x1`, cells `x2` and the weights `x3`, with the
  divisor clamped to at least one; the block's two column sums; and a pillar's row of the final result from a
  given scale and shift.
-/
import proofs.«173196_j49855980372233_2_alg».proof.Proof.Spec

noncomputable section

open scoped BigOperators

namespace Cert.Pfn

open Idealize.ShloMosaic Idealize.ShloMosaic.ValueIdx

abbrev BX : Shape := ⟨3, ![200, 32, 7]⟩
abbrev BNp : Shape := ⟨2, ![200, 1]⟩
abbrev BCo : Shape := ⟨2, ![200, 4]⟩
abbrev BRow : Shape := ⟨2, ![1, 64]⟩
abbrev BOut : Shape := ⟨2, ![200, 64]⟩

/-- The linear map's output inside one block. -/
def blockLin (x0 : BX.Idx → EReal) (x1 : BNp.Idx → BitVec 32) (x2 : BCo.Idx → BitVec 32) (x3 : SW.Idx → EReal)
    (p : Fin 200) (q : Fin 32) (j : Fin 64) : EReal :=
  lin (fun q' c' => x0 (ix3 p q' c')) (dClamp (x1 (ix2 p 0))) (cxOf (x2 (ix2 p 3))) (cyOf (x2 (ix2 p 2))) (maskVal (x1 (ix2 p 0)))
    (fun c => x3 (ix2 c j)) q

/-- A block's column sum. -/
def blockSum1 (x0 : BX.Idx → EReal) (x1 : BNp.Idx → BitVec 32) (x2 : BCo.Idx → BitVec 32) (x3 : SW.Idx → EReal) (j : Fin 64) : EReal :=
  ∑ p : Fin 200, ∑ q : Fin 32, blockLin x0 x1 x2 x3 p q j

/-- A block's column sum of squares. -/
def blockSum2 (x0 : BX.Idx → EReal) (x1 : BNp.Idx → BitVec 32) (x2 : BCo.Idx → BitVec 32) (x3 : SW.Idx → EReal) (j : Fin 64) : EReal :=
  ∑ p : Fin 200, ∑ q : Fin 32, blockLin x0 x1 x2 x3 p q j * blockLin x0 x1 x2 x3 p q j

/-- A pillar's row of the result from a given scale `x4` and shift `x5`. -/
def blockOut (x0 : BX.Idx → EReal) (x1 : BNp.Idx → BitVec 32) (x2 : BCo.Idx → BitVec 32) (x3 : SW.Idx → EReal)
    (x4 x5 : BRow.Idx → EReal) (p : Fin 200) (j : Fin 64) : EReal :=
  rowMax fun q => max (blockLin x0 x1 x2 x3 p q j * x4 (ix2 0 j) + x5 (ix2 0 j)) cZero

end Cert.Pfn

end
-- ==== Proof.KerStats.lean ====
/-
  Region 0 accumulates. Its two outputs are one block each whose index never moves: the first grid point zeroes
  them and adds its block's column sums, every later point adds its own to what the point before left, and the
  block is written back once, after the last point. So each output array ends holding, at channel `j`, the sum over
  the 200 grid points of that point's block sum (of the linear map's output for the first, of its squares for the
  second): an induction over the points, never an enumeration.
-/
import proofs.«173196_j49855980372233_2_alg».proof.Proof.Gen.KernelIdeal.Frame
import proofs.«173196_j49855980372233_2_alg».proof.Proof.BlockSpec
import Idealize.ShloMosaic.Lib.Pipeline.Value
import Idealize.ShloMosaic.Lib.ValueIdx

set_option maxRecDepth 16384

noncomputable section

open scoped BigOperators

namespace Cert.KernelIdeal.KerValue

open Cert.KernelIdeal Cert.KernelIdeal.Gen Cert.Pfn
open Idealize.ShloMosaic Idealize.ShloMosaic.TcCoe Idealize.ShloMosaic.Tactic Idealize.SL.Sem
open Idealize.ShloMosaic.ValueIdx
open Idealize.ShloMosaic.Pipeline (Dat)

/-- What the two kernel bodies leave in their output buffers, read at an index over the extended reals: region 0's
    first point (the accumulators zeroed, then the block's sums), its other points (the running contents plus the
    block's sums), and region 1's block of the result. -/
structure PayFacts : Prop where
  a4 : ∀ (c : Dev nD) (i : grid0.Coords) (arg1 : Memref sig .tc .vmem S200x32x7 .f32) (harg1 : arg1.IsWhole) (arg2 : Memref sig .tc .vmem S200x1 .i32) (harg2 : arg2.IsWhole) (arg3 : Memref sig .tc .vmem S200x4 .i32) (harg3 : arg3.IsWhole) (arg4 : Memref sig .tc .vmem S16x64 .f32) (harg4 : arg4.IsWhole) (arg5 : Memref sig .tc .vmem S1x64 .f32) (harg5 : arg5.IsWhole) (arg6 : Memref sig .tc .vmem S1x64 .f32) (harg6 : arg6.IsWhole) (hc0 : cond0_0 i) (x0 : Vec Ideal S200x32x7 .f32) (x1 : Vec Ideal S200x1 .i32) (x2 : Vec Ideal S200x4 .i32) (x3 : Vec Ideal S16x64 .f32) (j : Fin 64),
    out0_A_4 (F := Ideal) c i arg1 harg1 arg2 harg2 arg3 harg3 arg4 harg4 arg5 harg5 arg6 harg6 hc0 x0 x1 x2 x3 (ix2 0 j) = blockSum1 x0 x1 x2 x3 j
  a5 : ∀ (c : Dev nD) (i : grid0.Coords) (arg1 : Memref sig .tc .vmem S200x32x7 .f32) (harg1 : arg1.IsWhole) (arg2 : Memref sig .tc .vmem S200x1 .i32) (harg2 : arg2.IsWhole) (arg3 : Memref sig .tc .vmem S200x4 .i32) (harg3 : arg3.IsWhole) (arg4 : Memref sig .tc .vmem S16x64 .f32) (harg4 : arg4.IsWhole) (arg5 : Memref sig .tc .vmem S1x64 .f32) (harg5 : arg5.IsWhole) (arg6 : Memref sig .tc .vmem S1x64 .f32) (harg6 : arg6.IsWhole) (hc0 : cond0_0 i) (x0 : Vec Ideal S200x32x7 .f32) (x1 : Vec Ideal S200x1 .i32) (x2 : Vec Ideal S200x4 .i32) (x3 : Vec Ideal S16x64 .f32) (j : Fin 64),
    out0_A_5 (F := Ideal) c i arg1 harg1 arg2 harg2 arg3 harg3 arg4 harg4 arg5 harg5 arg6 harg6 hc0 x0 x1 x2 x3 (ix2 0 j) = blockSum2 x0 x1 x2 x3 j
  b4 : ∀ (c : Dev nD) (i : grid0.Coords) (arg1 : Memref sig .tc .vmem S200x32x7 .f32) (harg1 : arg1.IsWhole) (arg2 : Memref sig .tc .vmem S200x1 .i32) (harg2 : arg2.IsWhole) (arg3 : Memref sig .tc .vmem S200x4 .i32) (harg3 : arg3.IsWhole) (arg4 : Memref sig .tc .vmem S16x64 .f32) (harg4 : arg4.IsWhole) (arg5 : Memref sig .tc .vmem S1x64 .f32) (harg5 : arg5.IsWhole) (arg6 : Memref sig .tc .vmem S1x64 .f32) (harg6 : arg6.IsWhole) (hc0 : ¬cond0_0 i) (x0 : Vec Ideal S200x32x7 .f32) (x1 : Vec Ideal S200x1 .i32) (x2 : Vec Ideal S200x4 .i32) (x3 : Vec Ideal S16x64 .f32) (xo4 xo5 : Vec Ideal S1x64 .f32) (j : Fin 64),
    out0_B_4 (F := Ideal) c i arg1 harg1 arg2 harg2 arg3 harg3 arg4 harg4 arg5 harg5 arg6 harg6 hc0 x0 x1 x2 x3 xo4 xo5 (ix2 0 j) = xo4 (ix2 0 j) + blockSum1 x0 x1 x2 x3 j
  b5 : ∀ (c : Dev nD) (i : grid0.Coords) (arg1 : Memref sig .tc .vmem S200x32x7 .f32) (harg1 : arg1.IsWhole) (arg2 : Memref sig .tc .vmem S200x1 .i32) (harg2 : arg2.IsWhole) (arg3 : Memref sig .tc .vmem S200x4 .i32) (harg3 : arg3.IsWhole) (arg4 : Memref sig .tc .vmem S16x64 .f32) (harg4 : arg4.IsWhole) (arg5 : Memref sig .tc .vmem S1x64 .f32) (harg5 : arg5.IsWhole) (arg6 : Memref sig .tc .vmem S1x64 .f32) (harg6 : arg6.IsWhole) (hc0 : ¬cond0_0 i) (x0 : Vec Ideal S200x32x7 .f32) (x1 : Vec Ideal S200x1 .i32) (x2 : Vec Ideal S200x4 .i32) (x3 : Vec Ideal S16x64 .f32) (xo4 xo5 : Vec Ideal S1x64 .f32) (j : Fin 64),
    out0_B_5 (F := Ideal) c i arg1 harg1 arg2 harg2 arg3 harg3 arg4 harg4 arg5 harg5 arg6 harg6 hc0 x0 x1 x2 x3 xo4 xo5 (ix2 0 j) = xo5 (ix2 0 j) + blockSum2 x0 x1 x2 x3 j
  o6 : ∀ (x0 : Vec Ideal S200x32x7 .f32) (x1 : Vec Ideal S200x1 .i32) (x2 : Vec Ideal S200x4 .i32) (x3 : Vec Ideal S16x64 .f32) (x4 x5 : Vec Ideal S1x64 .f32) (p : Fin 200) (j : Fin 64),
    out1_6 (F := Ideal) x0 x1 x2 x3 x4 x5 (ix2 p j) = blockOut x0 x1 x2 x3 x4 x5 p j

/-! ## The output arrays are the accumulators after the last point (any float values) -/

section AnyF
variable {F : FTy → Type} [FloatOps F]
variable (V : (c : Dev nD) → (b : Ref sig .tc) → Buf (Elt F) ((c : Thread nD τ).loc b))

theorem h199 : 199 < cfg0.N := by rw [show cfg0.N = 200 from N_0]; decide
/-- The last grid point. -/
abbrev tLast : Fin cfg0.N := ⟨199, h199⟩

/-- The two outputs' block index is (0, 0) at every grid point. -/
theorem idx45 : ∀ t : Fin cfg0.N, win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Block (0, 0) of a [1,64] array read through zero offsets is the array: what a point writes back is its buffer. -/
theorem read_blk4 (t : Fin cfg0.N) (x : Vec F S1x64 .f32) :
    (cfg0.win 4).cut (grid0.coords t) x = ((cfg0.win 4).blk t).view.read (Elt F) x := by
  have hz' : (fun a => win0_4.index t a * main_v1_0.ty.shape.size a) = fun _ => 0 := funext fun a => by
    match a with
    | ⟨0, _⟩ => show win0_4.index t 0 * 1 = 0; rw [(idx45 t).1]
    | ⟨1, _⟩ => show win0_4.index t 1 * 64 = 0; rw [(idx45 t).2.1]
  exact (Memref.read_access_unit_zero (Elt F) main_v1_0 hz' (fun a => by rw [congrFun hz' a]; simp) x).symm
theorem read_blk5 (t : Fin cfg0.N) (x : Vec F S1x64 .f32) :
    (cfg0.win 5).cut (grid0.coords t) x = ((cfg0.win 5).blk t).view.read (Elt F) x := by
  have hz' : (fun a => win0_5.index t a * main_v1_1.ty.shape.size a) = fun _ => 0 := funext fun a => by
    match a with
    | ⟨0, _⟩ => show win0_5.index t 0 * 1 = 0; rw [(idx45 t).2.2.1]
    | ⟨1, _⟩ => show win0_5.index t 1 * 64 = 0; rw [(idx45 t).2.2.2]
  exact (Memref.read_access_unit_zero (Elt F) main_v1_1 hz' (fun a => by rw [congrFun hz' a]; simp) x).symm

/-- The accumulators after the last point, named once so that nothing below looks inside them. -/
def accLast (c : Dev nD) : Vec F S1x64 .f32 × Vec F S1x64 .f32 := outsAt0 V c 199 h199

theorem acc_at_last (c : Dev nD) (t : Fin cfg0.N) (h3 : t.val = 199) : outsAt0 V c t.val t.isLt = accLast V c := by
  obtain ⟨n, hn⟩ := t
  dsimp only at h3
  subst h3
  rfl

theorem flushed4_eq (c : Dev nD) (t : Fin cfg0.N) (hf : (cfg0.win 4).flush t = true) :
    (dat0 V c).flushed 4 t = ((cfg0.win 4).blk t).view.read (Elt F) (accLast V c).1 := by
  have hN : cfg0.N = 200 := N_0
  have h3 : t.val = 199 := by have := (flush0_4 t).mp hf; have := t.isLt; omega
  exact (read_blk4 t ((dat0 V c).after 4 t)).trans
    (congrArg (fun x => ((cfg0.win 4).blk t).view.read (Elt F) x) ((after0_4 V c t).trans (congrArg Prod.fst (acc_at_last V c t h3))))
theorem flushed5_eq (c : Dev nD) (t : Fin cfg0.N) (hf : (cfg0.win 5).flush t = true) :
    (dat0 V c).flushed 5 t = ((cfg0.win 5).blk t).view.read (Elt F) (accLast V c).2 := by
  have hN : cfg0.N = 200 := N_0
  have h3 : t.val = 199 := by have := (flush0_5 t).mp hf; have := t.isLt; omega
  exact (read_blk5 t ((dat0 V c).after 5 t)).trans
    (congrArg (fun x => ((cfg0.win 5).blk t).view.read (Elt F) x) ((after0_5 V c t).trans (congrArg Prod.snd (acc_at_last V c t h3))))

theorem cover4 (i : S1x64.Idx) : ∃ t : Fin cfg0.N, (cfg0.win 4).flush t = true ∧ i ∈ ((cfg0.win 4).blk t).view.set :=
  ⟨tLast, (flush0_4 tLast).mpr rfl, by
    show i ∈ ((View.whole main_v1_0).slice (win0_4.rect tLast)).set
    rw [View.set_slice_whole, Rect.mem_set_unit]
    intro a
    have h0 : (i 0 : Nat) < 1 := (i 0).isLt
    have h1 : (i 1 : Nat) < 64 := (i 1).isLt
    match a with
    | ⟨0, _⟩ => show win0_4.index tLast 0 * 1 ≤ (i 0 : Nat) ∧ (i 0 : Nat) < win0_4.index tLast 0 * 1 + 1
                rw [(idx45 tLast).1]; omega
    | ⟨1, _⟩ => show win0_4.index tLast 1 * 64 ≤ (i 1 : Nat) ∧ (i 1 : Nat) < win0_4.index tLast 1 * 64 + 64
                rw [(idx45 tLast).2.1]; omega⟩
theorem cover5 (i : S1x64.Idx) : ∃ t : Fin cfg0.N, (cfg0.win 5).flush t = true ∧ i ∈ ((cfg0.win 5).blk t).view.set :=
  ⟨tLast, (flush0_5 tLast).mpr rfl, by
    show i ∈ ((View.whole main_v1_1).slice (win0_5.rect tLast)).set
    rw [View.set_slice_whole, Rect.mem_set_unit]
    intro a
    have h0 : (i 0 : Nat) < 1 := (i 0).isLt
    have h1 : (i 1 : Nat) < 64 := (i 1).isLt
    match a with
    | ⟨0, _⟩ => show win0_5.index tLast 0 * 1 ≤ (i 0 : Nat) ∧ (i 0 : Nat) < win0_5.index tLast 0 * 1 + 1
                rw [(idx45 tLast).2.2.1]; omega
    | ⟨1, _⟩ => show win0_5.index tLast 1 * 64 ≤ (i 1 : Nat) ∧ (i 1 : Nat) < win0_5.index tLast 1 * 64 + 64
                rw [(idx45 tLast).2.2.2]; omega⟩

theorem final4 (c : Dev nD) : (dat0 V c).arrAt 4 cfg0.N = (accLast V c).1 :=
  (dat0 V c).arrAt_eq_of_cover 4 (accLast V c).1 (flushed4_eq V c) cover4
theorem final5 (c : Dev nD) : (dat0 V c).arrAt 5 cfg0.N = (accLast V c).2 :=
  (dat0 V c).arrAt_eq_of_cover 5 (accLast V c).2 (flushed5_eq V c) cover5

end AnyF

/-! ## The accumulators are the running sums (over the extended reals) -/

section AtIdeal
variable (V : (c : Dev nD) → (b : Ref sig .tc) → Buf (Elt Ideal) ((c : Thread nD τ).loc b))

/-- Grid point `t`'s block sum. -/
def ptSum1 (c : Dev nD) (t : Fin cfg0.N) (j : Fin 64) : EReal := blockSum1 (iblk0 V c 0 t) (iblk0 V c 1 t) (iblk0 V c 2 t) (iblk0 V c 3 t) j
/-- Grid point `t`'s block sum of squares. -/
def ptSum2 (c : Dev nD) (t : Fin cfg0.N) (j : Fin 64) : EReal := blockSum2 (iblk0 V c 0 t) (iblk0 V c 1 t) (iblk0 V c 2 t) (iblk0 V c 3 t) j

theorem outsA1 (hP : PayFacts) (c : Dev nD) (t : Fin cfg0.N) (h0 : t.val % 200 = 0) (j : Fin 64) :
    (outsAt0 V c t.val t.isLt).1 (ix2 0 j) = ptSum1 V c t j :=
  (congrArg (fun p : Vec Ideal S1x64 .f32 × Vec Ideal S1x64 .f32 => p.1 (ix2 0 j)) (outsAt0_A V c t h0)).trans
    (hP.a4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t) (iblk0 V c 3 t) j)
theorem outsA2 (hP : PayFacts) (c : Dev nD) (t : Fin cfg0.N) (h0 : t.val % 200 = 0) (j : Fin 64) :
    (outsAt0 V c t.val t.isLt).2 (ix2 0 j) = ptSum2 V c t j :=
  (congrArg (fun p : Vec Ideal S1x64 .f32 × Vec Ideal S1x64 .f32 => p.2 (ix2 0 j)) (outsAt0_A V c t h0)).trans
    (hP.a5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t) (iblk0 V c 3 t) j)
theorem outsB1 (hP : PayFacts) (c : Dev nD) (t : Fin cfg0.N) (h0 : ¬t.val % 200 = 0) (j : Fin 64) :
    (outsAt0 V c t.val t.isLt).1 (ix2 0 j)
      = (outsAt0 V c (t.val - 1) (Nat.lt_of_le_of_lt (Nat.sub_le _ _) t.isLt)).1 (ix2 0 j) + ptSum1 V c t j :=
  (congrArg (fun p : Vec Ideal S1x64 .f32 × Vec Ideal S1x64 .f32 => p.1 (ix2 0 j)) (outsAt0_B V c t h0)).trans
    (hP.b4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (iblk0 V c 3 t)
      (outsAt0 V c (t.val - 1) (Nat.lt_of_le_of_lt (Nat.sub_le _ _) t.isLt)).1 (outsAt0 V c (t.val - 1) (Nat.lt_of_le_of_lt (Nat.sub_le _ _) t.isLt)).2 j)
theorem outsB2 (hP : PayFacts) (c : Dev nD) (t : Fin cfg0.N) (h0 : ¬t.val % 200 = 0) (j : Fin 64) :
    (outsAt0 V c t.val t.isLt).2 (ix2 0 j)
      = (outsAt0 V c (t.val - 1) (Nat.lt_of_le_of_lt (Nat.sub_le _ _) t.isLt)).2 (ix2 0 j) + ptSum2 V c t j :=
  (congrArg (fun p : Vec Ideal S1x64 .f32 × Vec Ideal S1x64 .f32 => p.2 (ix2 0 j)) (outsAt0_B V c t h0)).trans
    (hP.b5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (iblk0 V c 3 t)
      (outsAt0 V c (t.val - 1) (Nat.lt_of_le_of_lt (Nat.sub_le _ _) t.isLt)).1 (outsAt0 V c (t.val - 1) (Nat.lt_of_le_of_lt (Nat.sub_le _ _) t.isLt)).2 j)

/-- A point's block sum by its number (zero past the grid). -/
def nSum1 (c : Dev nD) (j : Fin 64) (n : ℕ) : EReal := if h : n < cfg0.N then ptSum1 V c ⟨n, h⟩ j else 0
def nSum2 (c : Dev nD) (j : Fin 64) (n : ℕ) : EReal := if h : n < cfg0.N then ptSum2 V c ⟨n, h⟩ j else 0

theorem outs_sum (hP : PayFacts) (c : Dev nD) (j : Fin 64) : ∀ (n : ℕ) (h : n < cfg0.N),
    (outsAt0 V c n h).1 (ix2 0 j) = ∑ t ∈ Finset.range (n + 1), nSum1 V c j t
    ∧ (outsAt0 V c n h).2 (ix2 0 j) = ∑ t ∈ Finset.range (n + 1), nSum2 V c j t
  | 0, h => by
    rw [Finset.sum_range_one, Finset.sum_range_one]
    unfold nSum1 nSum2
    rw [dif_pos h, dif_pos h]
    exact ⟨outsA1 V hP c ⟨0, h⟩ rfl j, outsA2 V hP c ⟨0, h⟩ rfl j⟩
  | n + 1, h => by
    have hN : cfg0.N = 200 := N_0
    have hB : ¬(⟨n + 1, h⟩ : Fin cfg0.N).val % 200 = 0 := by dsimp only; omega
    obtain ⟨ih1, ih2⟩ := outs_sum hP c j n (Nat.lt_of_succ_lt h)
    rw [Finset.sum_range_succ _ (n + 1), Finset.sum_range_succ _ (n + 1), ← ih1, ← ih2]
    have e1 : nSum1 V c j (n + 1) = ptSum1 V c ⟨n + 1, h⟩ j := dif_pos h
    have e2 : nSum2 V c j (n + 1) = ptSum2 V c ⟨n + 1, h⟩ j := dif_pos h
    rw [e1, e2]
    exact ⟨outsB1 V hP c ⟨n + 1, h⟩ hB j, outsB2 V hP c ⟨n + 1, h⟩ hB j⟩

/-- Region 0's first output array at channel `j`: the sum over the grid of the points' block sums. -/
theorem stats1 (hP : PayFacts) (c : Dev nD) (j : Fin 64) : ((dat0 V c).arrAt 4 cfg0.N : S1x64.Idx → EReal) (ix2 0 j) = (∑ t : Fin cfg0.N, ptSum1 V c t j : EReal) := by
  rw [final4 V c]
  unfold accLast
  rw [(outs_sum V hP c j 199 h199).1]
  rw [show (199 + 1) = cfg0.N from N_0.symm, Finset.sum_range]
  exact Finset.sum_congr (M := EReal) rfl fun (t : Fin cfg0.N) _ => dif_pos t.isLt
/-- Region 0's second output array at channel `j`: the sum over the grid of the points' block sums of squares. -/
theorem stats2 (hP : PayFacts) (c : Dev nD) (j : Fin 64) : ((dat0 V c).arrAt 5 cfg0.N : S1x64.Idx → EReal) (ix2 0 j) = (∑ t : Fin cfg0.N, ptSum2 V c t j : EReal) := by
  rw [final5 V c]
  unfold accLast
  rw [(outs_sum V hP c j 199 h199).2]
  rw [show (199 + 1) = cfg0.N from N_0.symm, Finset.sum_range]
  exact Finset.sum_congr (M := EReal) rfl fun (t : Fin cfg0.N) _ => dif_pos t.isLt

end AtIdeal

end Cert.KernelIdeal.KerValue

end
-- ==== Proof.SumIdx.lean ====
/-
  Two re-indexings of finite sums.

  A sum over 40000 consecutive positions is the double sum over 200 blocks of 200 positions: the pair (t, p) names
  position 200·t + p, and that naming is a bijection. And a sum of a rank-3 array over its first two axes, read at
  a coordinate j of the third, is the double sum over the first two coordinates with the third held at j: an index
  drops to j exactly when its third coordinate is j.
-/
import Idealize.ShloMosaic.PureOps.Ideal
import Idealize.ShloMosaic.PureOps.Ideal.Laws
import Idealize.ShloMosaic.Lib.ValueIdx

noncomputable section

open scoped BigOperators

namespace Cert.Pfn

open Idealize.ShloMosaic Idealize.ShloMosaic.ValueIdx

/-! ## Blocks of 200 -/

/-- The pair (block, position in block) against the position itself. -/
def blockEquiv : Fin 200 × Fin 200 ≃ Fin 40000 := finProdFinEquiv.trans (finCongr (by norm_num))

theorem blockEquiv_val (x : Fin 200 × Fin 200) : (blockEquiv x).val = 200 * x.1.val + x.2.val := by
  simp [blockEquiv, finProdFinEquiv]
  omega

theorem sum_blocks {M : Type*} [AddCommMonoid M] (f : Fin 40000 → M) :
    ∑ t : Fin 200, ∑ p : Fin 200, f ⟨200 * t.val + p.val, by have := t.isLt; have := p.isLt; omega⟩ = ∑ n : Fin 40000, f n := by
  refine (Fintype.sum_prod_type' (fun (t p : Fin 200) =>
    f ⟨200 * t.val + p.val, by have := t.isLt; have := p.isLt; omega⟩)).symm.trans ?_
  exact Fintype.sum_equiv blockEquiv _ _ fun x => congrArg f (Fin.ext (blockEquiv_val x).symm)

/-! ## A rank-3 index set as a triple product -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The sum over the first two axes -/

abbrev SYall : Shape := ⟨3, ![40000, 32, 64]⟩
abbrev SCh : Shape := ⟨1, ![64]⟩

/-- An index drops to `j` exactly when its third coordinate is `j`. -/
theorem drop_ix3_eq_iff (h' : SYall.ReducesTo [0, 1] SCh) (n : Fin 40000) (q : Fin 32) (c j : Fin 64) :
    h'.drop (ix3 n q c) = ix1 j ↔ c = j := by
  have hv : (h'.drop (ix3 n q c) 0 : Nat) = c.val := Shape.ReducesTo.drop_apply_val_of_eq h' (ix3 n q c) 0 2
  constructor
  · intro h
    have := congrArg (fun i : SCh.Idx => (i 0 : Nat)) h
    exact Fin.ext (hv.symm.trans this)
  · intro h
    subst h
    funext b
    match b with
    | ⟨0, _⟩ => exact Fin.ext hv

theorem hostReduceAdd_rows (h' : SYall.ReducesTo [0, 1] SCh) (x : SYall.Idx → EReal) (init : EReal) (j : Fin 64) :
    Ideal.hostReduceAdd h' x init (ix1 j) = init + ∑ n : Fin 40000, ∑ q : Fin 32, x (ix3 n q j) := by
  unfold Ideal.hostReduceAdd
  rw [Finset.sum_filter, sum_idx3]
  refine congrArg (fun s => init + s) (Finset.sum_congr rfl fun n _ => Finset.sum_congr rfl fun q _ => ?_)
  simp only [drop_ix3_eq_iff h' n q _ j, Finset.sum_ite_eq', Finset.mem_univ, if_true]

end Cert.Pfn

end
-- ==== Proof.YArr.lean ====
/-
  The linear output as an array over all pillars, with the point counts held in a column.

  `Yarr` is the linear output of pillar `n`, point `q`, channel `j` read from the whole arrays, the counts being a
  [40000, 1] column and the divisor clamped to at least one. A block's linear output at pillar `p` is `Yarr` at the
  pillar `n` whose data the block holds; with the column a reshape of the flat counts, `Yarr` is the specification's
  `Y` with the clamped divisor; and the sums of `y` and of its squares over all pillars split into 200 blocks of 200.
-/
import proofs.«173196_j49855980372233_2_alg».proof.Proof.Spec
import proofs.«173196_j49855980372233_2_alg».proof.Proof.BlockSpec
import proofs.«173196_j49855980372233_2_alg».proof.Proof.SumIdx
import Idealize.ShloMosaic.Lib.Pipeline.Value

noncomputable section

open scoped BigOperators

namespace Cert.Pfn

open Idealize.ShloMosaic Idealize.ShloMosaic.ValueIdx

/-- The linear output read from the whole arrays, the counts a column. -/
def Yarr (A0 : SX.Idx → EReal) (A1 : (⟨2, ![40000, 1]⟩ : Shape).Idx → BitVec 32) (A2 : SCo.Idx → BitVec 32) (A3 : SW.Idx → EReal)
    (n : Fin 40000) (q : Fin 32) (j : Fin 64) : EReal :=
  lin (fun q' c' => A0 (ix3 n q' c')) (dClamp (A1 (ix2 n 0))) (cxOf (A2 (ix2 n 3))) (cyOf (A2 (ix2 n 2))) (maskVal (A1 (ix2 n 0)))
    (fun c => A3 (ix2 c j)) q

/-- A block that holds pillar `n`'s data at its pillar `p` computes `Yarr` at `n` there. -/
theorem blockLin_eq_Yarr (x0 : BX.Idx → EReal) (x1 : BNp.Idx → BitVec 32) (x2 : BCo.Idx → BitVec 32) (x3 : SW.Idx → EReal)
    (A0 : SX.Idx → EReal) (A1 : (⟨2, ![40000, 1]⟩ : Shape).Idx → BitVec 32) (A2 : SCo.Idx → BitVec 32) (A3 : SW.Idx → EReal)
    (p : Fin 200) (n : Fin 40000)
    (h0 : ∀ q' k, x0 (ix3 p q' k) = A0 (ix3 n q' k)) (h1 : x1 (ix2 p 0) = A1 (ix2 n 0))
    (h2 : ∀ k, x2 (ix2 p k) = A2 (ix2 n k)) (h3 : ∀ c j, x3 (ix2 c j) = A3 (ix2 c j)) (q : Fin 32) (j : Fin 64) :
    blockLin x0 x1 x2 x3 p q j = Yarr A0 A1 A2 A3 n q j := by
  have e0 : (fun (q' : Fin 32) (c' : Fin 7) => x0 (ix3 p q' c')) = (fun q' c' => A0 (ix3 n q' c')) :=
    funext fun q' => funext fun c' => h0 q' c'
  have e3 : (fun c : Fin 16 => x3 (ix2 c j)) = (fun c => A3 (ix2 c j)) := funext fun c => h3 c j
  unfold blockLin Yarr
  rw [e0, e3, h1, h2 3, h2 2]

/-- With the column a reshape of the flat counts, `Yarr` is `Y` with the clamped divisor. -/
theorem Yarr_reshape (X : SX.Idx → EReal) (np : SNp.Idx → BitVec 32) (co : SCo.Idx → BitVec 32) (W : SW.Idx → EReal)
    (h : SNp.ShapeCasts (⟨2, ![40000, 1]⟩ : Shape)) :
    Yarr X (shapeCast (⟨2, ![40000, 1]⟩ : Shape) np h) co W = Y dClamp X np co W := by
  funext n q j
  have e : shapeCast (⟨2, ![40000, 1]⟩ : Shape) np h (ix2 n 0) = np (ix1 n) :=
    shapeCast_apply np h (ix2 n 0) (ix1 n) (by
      rw [Shape.rowMajor_val_two, Shape.rowMajor_val_one]
      show n.val = n.val * 1 + 0
      omega)
  unfold Yarr Y
  rw [e]

/-- The sum of `y` over all pillars and points, block by block. -/
theorem S1_of_blocks (y : Fin 40000 → Fin 32 → Fin 64 → EReal) (j : Fin 64) :
    (∑ t : Fin 200, ∑ p : Fin 200, ∑ q : Fin 32,
      y ⟨200 * t.val + p.val, by have := t.isLt; have := p.isLt; omega⟩ q j) = S1 y j := by
  unfold S1
  exact sum_blocks (fun n => ∑ q : Fin 32, y n q j)

/-- The sum of its squares, block by block. -/
theorem S2_of_blocks (y : Fin 40000 → Fin 32 → Fin 64 → EReal) (j : Fin 64) :
    (∑ t : Fin 200, ∑ p : Fin 200, ∑ q : Fin 32,
      y ⟨200 * t.val + p.val, by have := t.isLt; have := p.isLt; omega⟩ q j
        * y ⟨200 * t.val + p.val, by have := t.isLt; have := p.isLt; omega⟩ q j) = S2 y j := by
  unfold S2
  exact sum_blocks (fun n => ∑ q : Fin 32, y n q j * y n q j)

end Cert.Pfn

end
-- ==== Proof.KerIn0.lean ====
/-
  Region 0 reads. Grid point `t` reads pillars 200·t … 200·t+199 (their points, counts and cells) and the whole
  weight matrix: so a block's linear output at its pillar `p` is the whole arrays' linear output at pillar
  200·t + p, and the 200 points' block sums (of the output, of its squares) add up to the sums over all 40000
  pillars and their 32 points.
-/
import proofs.«173196_j49855980372233_2_alg».proof.Proof.Gen.KernelIdeal.Frame
import proofs.«173196_j49855980372233_2_alg».proof.Proof.KerStats
import proofs.«173196_j49855980372233_2_alg».proof.Proof.YArr
import proofs.«173196_j49855980372233_2_alg».proof.Proof.SumIdx
import Idealize.ShloMosaic.Lib.Pipeline.Value
import Idealize.ShloMosaic.Lib.ValueIdx

set_option maxRecDepth 16384

noncomputable section

open scoped BigOperators

namespace Cert.KernelIdeal.KerValue

open Cert.KernelIdeal Cert.KernelIdeal.Gen Cert.Pfn
open Idealize.ShloMosaic Idealize.ShloMosaic.TcCoe Idealize.ShloMosaic.Tactic Idealize.SL.Sem
open Idealize.ShloMosaic.ValueIdx
open Idealize.ShloMosaic.Pipeline (Dat)

variable (V : (c : Dev nD) → (b : Ref sig .tc) → Buf (Elt Ideal) ((c : Thread nD τ).loc b))

/-- The printed index maps of region 0's inputs, decided once over the grid: the pillar windows move with the point
    along axis 0; the weights stay. -/
theorem idx0 : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0 :=
  (by decide +kernel : ∀ t : Fin grid0.N, _)

/-- Pillar `p` of grid point `t`'s block, as a row of the arrays. -/
def rowOf0 (t : Fin cfg0.N) (p : Fin 200) : Fin 40000 :=
  ⟨200 * t.val + p.val, by
    have h : t.val < 200 := lt_of_lt_of_eq t.isLt (show cfg0.N = 200 from N_0)
    have := p.isLt; omega⟩

/-! ## The blocks, read where the arrays hold them -/

theorem blk0_0 (c : Dev nD) (t : Fin cfg0.N) (p : Fin 200) (q : Fin 32) (k : Fin 7) :
    iblk0 V c 0 t (ix3 p q k) = V c main_arg0 (ix3 (rowOf0 t p) q k) := by
  show V c main_arg0 (((cfg0.win 0).blk t).view.emb (ix3 p q k)) = _
  refine congrArg (V c main_arg0) (funext fun a => Fin.ext ?_)
  match a with
  | ⟨0, _⟩ => show win0_0.index t 0 * 200 + 1 * p.val = 200 * t.val + p.val; rw [(idx0 t).1]; omega
  | ⟨1, _⟩ => show win0_0.index t 1 * 32 + 1 * q.val = q.val; rw [(idx0 t).2.1]; omega
  | ⟨2, _⟩ => show win0_0.index t 2 * 7 + 1 * k.val = k.val; rw [(idx0 t).2.2.1]; omega
theorem blk0_1 (c : Dev nD) (t : Fin cfg0.N) (p : Fin 200) :
    iblk0 V c 1 t (ix2 p 0) = V c main_v0 (ix2 (rowOf0 t p) 0) := by
  show V c main_v0 (((cfg0.win 1).blk t).view.emb (ix2 p 0)) = _
  refine congrArg (V c main_v0) (funext fun a => Fin.ext ?_)
  match a with
  | ⟨0, _⟩ => show win0_1.index t 0 * 200 + 1 * p.val = 200 * t.val + p.val; rw [(idx0 t).2.2.2.1]; omega
  | ⟨1, _⟩ => show win0_1.index t 1 * 1 + 1 * 0 = 0; rw [(idx0 t).2.2.2.2.1]
theorem blk0_2 (c : Dev nD) (t : Fin cfg0.N) (p : Fin 200) (k : Fin 4) :
    iblk0 V c 2 t (ix2 p k) = V c main_arg2 (ix2 (rowOf0 t p) k) := by
  show V c main_arg2 (((cfg0.win 2).blk t).view.emb (ix2 p k)) = _
  refine congrArg (V c main_arg2) (funext fun a => Fin.ext ?_)
  match a with
  | ⟨0, _⟩ => show win0_2.index t 0 * 200 + 1 * p.val = 200 * t.val + p.val; rw [(idx0 t).2.2.2.2.2.1]; omega
  | ⟨1, _⟩ => show win0_2.index t 1 * 4 + 1 * k.val = k.val; rw [(idx0 t).2.2.2.2.2.2.1]; omega
theorem blk0_3 (c : Dev nD) (t : Fin cfg0.N) (k : Fin 16) (j : Fin 64) :
    iblk0 V c 3 t (ix2 k j) = V c main_arg3 (ix2 k j) := by
  show V c main_arg3 (((cfg0.win 3).blk t).view.emb (ix2 k j)) = _
  refine congrArg (V c main_arg3) (funext fun a => Fin.ext ?_)
  match a with
  | ⟨0, _⟩ => show win0_3.index t 0 * 16 + 1 * k.val = k.val; rw [(idx0 t).2.2.2.2.2.2.2.1]; omega
  | ⟨1, _⟩ => show win0_3.index t 1 * 64 + 1 * j.val = j.val; rw [(idx0 t).2.2.2.2.2.2.2.2]; omega

/-! ## A block's linear output is the whole arrays' -/

theorem lin0 (c : Dev nD) (t : Fin cfg0.N) (p : Fin 200) (q : Fin 32) (j : Fin 64) :
    blockLin (iblk0 V c 0 t) (iblk0 V c 1 t) (iblk0 V c 2 t) (iblk0 V c 3 t) p q j
      = Yarr (V c main_arg0) (V c main_v0) (V c main_arg2) (V c main_arg3) (rowOf0 t p) q j :=
  blockLin_eq_Yarr (iblk0 V c 0 t) (iblk0 V c 1 t) (iblk0 V c 2 t) (iblk0 V c 3 t) (V c main_arg0) (V c main_v0) (V c main_arg2) (V c main_arg3) p (rowOf0 t p)
    (fun q' k => blk0_0 V c t p q' k) (blk0_1 V c t p) (fun k => blk0_2 V c t p k) (fun k j' => blk0_3 V c t k j') q j

/-! ## The grid's block sums are the sums over all pillars -/

/-- The 200 points' block sums of the linear output add up to its sum over every point of every pillar. -/
theorem gridSum1 (c : Dev nD) (j : Fin 64) :
    (∑ t : Fin cfg0.N, ptSum1 V c t j) = S1 (Yarr (V c main_arg0) (V c main_v0) (V c main_arg2) (V c main_arg3)) j := by
  have hN : cfg0.N = 200 := N_0
  rw [← S1_of_blocks]
  refine Fintype.sum_equiv (finCongr hN) _ _ fun t => ?_
  unfold ptSum1 blockSum1
  refine Finset.sum_congr rfl fun p _ => Finset.sum_congr rfl fun q _ => ?_
  exact lin0 V c t p q j

/-- The same for the squares. -/
theorem gridSum2 (c : Dev nD) (j : Fin 64) :
    (∑ t : Fin cfg0.N, ptSum2 V c t j) = S2 (Yarr (V c main_arg0) (V c main_v0) (V c main_arg2) (V c main_arg3)) j := by
  have hN : cfg0.N = 200 := N_0
  rw [← S2_of_blocks]
  refine Fintype.sum_equiv (finCongr hN) _ _ fun t => ?_
  unfold ptSum2 blockSum2
  refine Finset.sum_congr rfl fun p _ => Finset.sum_congr rfl fun q _ => ?_
  exact congrArg₂ (· * ·) (lin0 V c t p q j) (lin0 V c t p q j)

end Cert.KernelIdeal.KerValue

end
-- ==== Proof.KerOut.lean ====
/-
  Region 1 writes the result. Grid point `t` reads pillars 200·t … 200·t+199 (their points, counts and cells), the
  whole weight matrix and the whole scale and shift rows, and writes rows 200·t … 200·t+199 of the result: so the
  result array is ONE function of the arrays the region finds — row `n`, channel `j` is the maximum over the pillar's
  points of `max (y n q j · scale j + shift j) 0` — and the 200 blocks cover it.
-/
import proofs.«173196_j49855980372233_2_alg».proof.Proof.Gen.KernelIdeal.Frame
import proofs.«173196_j49855980372233_2_alg».proof.Proof.KerStats
import proofs.«173196_j49855980372233_2_alg».proof.Proof.YArr
import Idealize.ShloMosaic.Lib.Pipeline.Value
import Idealize.ShloMosaic.Lib.ValueIdx

set_option maxRecDepth 16384

noncomputable section

open scoped BigOperators

namespace Cert.KernelIdeal.KerValue

open Cert.KernelIdeal Cert.KernelIdeal.Gen Cert.Pfn
open Idealize.ShloMosaic Idealize.ShloMosaic.TcCoe Idealize.ShloMosaic.Tactic Idealize.SL.Sem
open Idealize.ShloMosaic.ValueIdx
open Idealize.ShloMosaic.Pipeline (Dat)

variable (V : (c : Dev nD) → (b : Ref sig .tc) → Buf (Elt Ideal) ((c : Thread nD τ).loc b))

/-- The printed index maps of region 1, decided once over the grid: the pillar windows and the result move with the
    point along axis 0; the weights, the scale and the shift stay. -/
theorem idx1 : ∀ t : Fin cfg1.N,
    win1_0.index t (0 : Fin 3) = t.val ∧ win1_0.index t (1 : Fin 3) = 0 ∧ win1_0.index t (2 : Fin 3) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Pillar `p` of grid point `t`'s block, as a row of the arrays. -/
def rowOf1 (t : Fin cfg1.N) (p : Fin 200) : Fin 40000 :=
  ⟨200 * t.val + p.val, by have h : t.val < 200 := lt_of_lt_of_eq t.isLt (show cfg1.N = 200 from N_1); have := p.isLt; omega⟩

/-! ## The blocks, read where the arrays hold them -/

theorem blk1_0 (c : Dev nD) (t : Fin cfg1.N) (p : Fin 200) (q : Fin 32) (k : Fin 7) :
    iblk1 V c 0 t (ix3 p q k) = V c main_arg0 (ix3 (rowOf1 t p) q k) := by
  show V c main_arg0 (((cfg1.win 0).blk t).view.emb (ix3 p q k)) = _
  refine congrArg (V c main_arg0) (funext fun a => Fin.ext ?_)
  match a with
  | ⟨0, _⟩ => show win1_0.index t 0 * 200 + 1 * p.val = 200 * t.val + p.val; rw [(idx1 t).1]; omega
  | ⟨1, _⟩ => show win1_0.index t 1 * 32 + 1 * q.val = q.val; rw [(idx1 t).2.1]; omega
  | ⟨2, _⟩ => show win1_0.index t 2 * 7 + 1 * k.val = k.val; rw [(idx1 t).2.2.1]; omega
theorem blk1_1 (c : Dev nD) (t : Fin cfg1.N) (p : Fin 200) :
    iblk1 V c 1 t (ix2 p 0) = V c main_v0 (ix2 (rowOf1 t p) 0) := by
  show V c main_v0 (((cfg1.win 1).blk t).view.emb (ix2 p 0)) = _
  refine congrArg (V c main_v0) (funext fun a => Fin.ext ?_)
  match a with
  | ⟨0, _⟩ => show win1_1.index t 0 * 200 + 1 * p.val = 200 * t.val + p.val; rw [(idx1 t).2.2.2.1]; omega
  | ⟨1, _⟩ => show win1_1.index t 1 * 1 + 1 * 0 = 0; rw [(idx1 t).2.2.2.2.1]
theorem blk1_2 (c : Dev nD) (t : Fin cfg1.N) (p : Fin 200) (k : Fin 4) :
    iblk1 V c 2 t (ix2 p k) = V c main_arg2 (ix2 (rowOf1 t p) k) := by
  show V c main_arg2 (((cfg1.win 2).blk t).view.emb (ix2 p k)) = _
  refine congrArg (V c main_arg2) (funext fun a => Fin.ext ?_)
  match a with
  | ⟨0, _⟩ => show win1_2.index t 0 * 200 + 1 * p.val = 200 * t.val + p.val; rw [(idx1 t).2.2.2.2.2.1]; omega
  | ⟨1, _⟩ => show win1_2.index t 1 * 4 + 1 * k.val = k.val; rw [(idx1 t).2.2.2.2.2.2.1]; omega
theorem blk1_3 (c : Dev nD) (t : Fin cfg1.N) (k : Fin 16) (j : Fin 64) :
    iblk1 V c 3 t (ix2 k j) = V c main_arg3 (ix2 k j) := by
  show V c main_arg3 (((cfg1.win 3).blk t).view.emb (ix2 k j)) = _
  refine congrArg (V c main_arg3) (funext fun a => Fin.ext ?_)
  match a with
  | ⟨0, _⟩ => show win1_3.index t 0 * 16 + 1 * k.val = k.val; rw [(idx1 t).2.2.2.2.2.2.2.1]; omega
  | ⟨1, _⟩ => show win1_3.index t 1 * 64 + 1 * j.val = j.val; rw [(idx1 t).2.2.2.2.2.2.2.2.1]; omega
theorem blk1_4 (c : Dev nD) (t : Fin cfg1.N) (j : Fin 64) :
    iblk1 V c 4 t (ix2 0 j) = V c main_v16 (ix2 0 j) := by
  show V c main_v16 (((cfg1.win 4).blk t).view.emb (ix2 0 j)) = _
  refine congrArg (V c main_v16) (funext fun a => Fin.ext ?_)
  match a with
  | ⟨0, _⟩ => show win1_4.index t 0 * 1 + 1 * 0 = 0; rw [(idx1 t).2.2.2.2.2.2.2.2.2.1]
  | ⟨1, _⟩ => show win1_4.index t 1 * 64 + 1 * j.val = j.val; rw [(idx1 t).2.2.2.2.2.2.2.2.2.2.1]; omega
theorem blk1_5 (c : Dev nD) (t : Fin cfg1.N) (j : Fin 64) :
    iblk1 V c 5 t (ix2 0 j) = V c main_v20 (ix2 0 j) := by
  show V c main_v20 (((cfg1.win 5).blk t).view.emb (ix2 0 j)) = _
  refine congrArg (V c main_v20) (funext fun a => Fin.ext ?_)
  match a with
  | ⟨0, _⟩ => show win1_5.index t 0 * 1 + 1 * 0 = 0; rw [(idx1 t).2.2.2.2.2.2.2.2.2.2.2.1]
  | ⟨1, _⟩ => show win1_5.index t 1 * 64 + 1 * j.val = j.val; rw [(idx1 t).2.2.2.2.2.2.2.2.2.2.2.2.1]; omega
theorem emb1_6 (t : Fin cfg1.N) (p : Fin 200) (j : Fin 64) :
    ((cfg1.win 6).blk t).view.emb (ix2 p j) = ix2 (rowOf1 t p) j := by
  refine funext fun a => Fin.ext ?_
  match a with
  | ⟨0, _⟩ => show win1_6.index t 0 * 200 + 1 * p.val = 200 * t.val + p.val; rw [(idx1 t).2.2.2.2.2.2.2.2.2.2.2.2.2.1]; omega
  | ⟨1, _⟩ => show win1_6.index t 1 * 64 + 1 * j.val = j.val; rw [(idx1 t).2.2.2.2.2.2.2.2.2.2.2.2.2.2]; omega

/-! ## The result array as one function of what the region finds -/

/-- The linear map's output from the arrays region 1 finds. -/
abbrev Y1 (c : Dev nD) : Fin 40000 → Fin 32 → Fin 64 → EReal :=
  Yarr (V c main_arg0) (V c main_v0) (V c main_arg2) (V c main_arg3)

/-- The result array: the row maximum of the scaled, shifted, clamped linear map's output. -/
def G6 (c : Dev nD) : SOut.Idx → EReal :=
  fun i => rowMax fun q => max (Y1 V c (i 0) q (i 1) * V c main_v16 (ix2 0 (i 1)) + V c main_v20 (ix2 0 (i 1))) cZero

theorem lin1 (c : Dev nD) (t : Fin cfg1.N) (p : Fin 200) (q : Fin 32) (j : Fin 64) :
    blockLin (iblk1 V c 0 t) (iblk1 V c 1 t) (iblk1 V c 2 t) (iblk1 V c 3 t) p q j = Y1 V c (rowOf1 t p) q j :=
  blockLin_eq_Yarr (iblk1 V c 0 t) (iblk1 V c 1 t) (iblk1 V c 2 t) (iblk1 V c 3 t) (V c main_arg0) (V c main_v0) (V c main_arg2) (V c main_arg3) p (rowOf1 t p)
    (fun q' k => blk1_0 V c t p q' k) (blk1_1 V c t p) (fun k => blk1_2 V c t p k) (fun k j' => blk1_3 V c t k j') q j

/-- What point `t` writes back is block `t` of that function. -/
theorem flushed6_eq (hP : PayFacts) (c : Dev nD) (t : Fin cfg1.N) :
    (dat1 V c).flushed 6 t = ((cfg1.win 6).blk t).view.read (Elt Ideal) (G6 V c) := by
  show (cfg1.win 6).cut (grid1.coords t) ((dat1 V c).after 6 t) = _
  rw [after1_6]
  funext y
  obtain ⟨p, j, rfl⟩ : ∃ (p : Fin 200) (j : Fin 64), y = ix2 p j := ⟨y 0, y 1, eq_ix2 y⟩
  show out1_6 (F := Ideal) (iblk1 V c 0 t) (iblk1 V c 1 t) (iblk1 V c 2 t) (iblk1 V c 3 t) (iblk1 V c 4 t) (iblk1 V c 5 t) (ix2 p j) = G6 V c (((cfg1.win 6).blk t).view.emb (ix2 p j))
  rw [emb1_6 t p j]
  refine (hP.o6 (iblk1 V c 0 t) (iblk1 V c 1 t) (iblk1 V c 2 t) (iblk1 V c 3 t) (iblk1 V c 4 t) (iblk1 V c 5 t) p j).trans ?_
  show rowMax (fun q => max (blockLin (iblk1 V c 0 t) (iblk1 V c 1 t) (iblk1 V c 2 t) (iblk1 V c 3 t) p q j * iblk1 V c 4 t (ix2 0 j) + iblk1 V c 5 t (ix2 0 j)) cZero)
    = rowMax (fun q => max (Y1 V c (rowOf1 t p) q j * V c main_v16 (ix2 0 j) + V c main_v20 (ix2 0 j)) cZero)
  refine congrArg rowMax (funext fun q => ?_)
  rw [lin1 V c t p q j, blk1_4 V c t j, blk1_5 V c t j]

theorem mem_blk6 (t : Fin cfg1.N) (i : S40000x64.Idx) :
    i ∈ ((cfg1.win 6).blk t).view.set ↔ ∀ a : Fin 2, win1_6.index t a * S200x64.size a ≤ (i a).val ∧ (i a).val < win1_6.index t a * S200x64.size a + S200x64.size a := by
  show i ∈ ((View.whole main_v21).slice (win1_6.rect t)).set ↔ _
  rw [View.set_slice_whole, Rect.mem_set_unit]
  exact Iff.rfl

theorem cover6 (i : S40000x64.Idx) : ∃ t : Fin cfg1.N, (cfg1.win 6).flush t = true ∧ i ∈ ((cfg1.win 6).blk t).view.set := by
  have hi0 : (i 0).val < 40000 := (i 0).isLt
  have hi1 : (i 1).val < 64 := (i 1).isLt
  have hN : cfg1.N = 200 := N_1
  let t : Fin cfg1.N := ⟨(i 0).val / 200, by rw [hN]; omega⟩
  refine ⟨t, flush1_6 t, ?_⟩
  rw [mem_blk6]
  intro a
  have ht : t.val = (i 0).val / 200 := rfl
  match a with
  | ⟨0, _⟩ => show win1_6.index t 0 * 200 ≤ (i 0).val ∧ (i 0).val < win1_6.index t 0 * 200 + 200
              rw [(idx1 t).2.2.2.2.2.2.2.2.2.2.2.2.2.1]; omega
  | ⟨1, _⟩ => show win1_6.index t 1 * 64 ≤ (i 1).val ∧ (i 1).val < win1_6.index t 1 * 64 + 64
              rw [(idx1 t).2.2.2.2.2.2.2.2.2.2.2.2.2.2]; omega

/-- The result array after region 1. -/
theorem final6 (hP : PayFacts) (c : Dev nD) : (dat1 V c).arrAt 6 cfg1.N = G6 V c :=
  (dat1 V c).arrAt_eq_of_cover 6 (G6 V c) (fun t _ => flushed6_eq V hP c t) cover6

end Cert.KernelIdeal.KerValue

end
-- ==== Proof.FeatsDef.lean ====
/-
  The chain both kernel bodies compute from a block's three loads, written once: the clamped point count as a
  float, the offsets of the first three channels from their mean over the 32 points, the offsets of the first two
  channels from the cell centre, the offsets of the last four channels from their mean, the sixteen augmented
  channels, the 0/1 mask of the points below the count, their product, and the product's image under the 16 × 64
  weights as a [6400, 64] matrix. Each kernel's stored values are this chain followed by its own reduction; the
  two statements at the end say so, by unfolding.
-/
import proofs.«173196_j49855980372233_2_alg».proof.Proof.Gen.KernelIdeal.Skeleton

noncomputable section

namespace Cert.KernelIdeal.PayValue

open Cert.KernelIdeal Cert.KernelIdeal.Gen Idealize.ShloMosaic

variable {F : FTy → Type} [FloatOps F]

/-- The point counts of the block's pillars, as loaded. -/
def npI (v4 : Vec F S200x1 .i32) : IVec S200x1 32 := shapeCast S200x1 v4 shapeCasts_S200x1_S200x1

/-- The divisor: the count raised to at least one, as a float, on a [200, 1, 1] vector. -/
def dvec (v4 : Vec F S200x1 .i32) : FVec F S200x1x1 .f32 :=
  shapeCast S200x1x1 (sitofp .f32 (maxsi (npI v4) (broadcast S200x1 1#32))) shapeCasts_S200x1_S200x1x1

/-- Channels 0..2 less their mean over the pillar's 32 points. -/
def cen3 (v3 : Vec F S200x32x7 .f32) (v4 : Vec F S200x1 .i32) : FVec F S200x32x3 .f32 :=
  subf (extractStridedSlice S200x32x3 ![0, 0, 0] v3 slices_S200x32x7_o0_0_0_S200x32x3)
    (broadcastTo S200x32x3
      (divf
        (shapeCast S200x1x3
          (multiReduction .add [1] S200x3 (extractStridedSlice S200x32x3 ![0, 0, 0] v3 slices_S200x32x7_o0_0_0_S200x32x3)
            0x00000000#32 reduces_S200x32x3_S200x3 (.inl rfl) rfl)
          shapeCasts_S200x3_S200x1x3)
        (broadcastTo S200x1x3 (dvec v4) broadcasts_S200x1x1_S200x1x3))
      broadcasts_S200x1x3_S200x32x3)

/-- The cell centre along x of each pillar, as a [200, 1] column. -/
def cxCol (v6 : Vec F S200x4 .i32) : FVec F S200x1 .f32 :=
  shapeCast S200x1
    (addf
      (mulf (sitofp .f32 (shapeCast S200 (extractStridedSlice S200x1 ![0, 3] v6 slices_S200x4_o0_3_S200x1) shapeCasts_S200x1_S200))
        (broadcast S200 (Scalar.ofBits .f32 0x3E4CCCCD#32)))
      (broadcast S200 (Scalar.ofBits .f32 0x3DCCCCCD#32)))
    shapeCasts_S200_S200x1

/-- The cell centre along y of each pillar, as a [200, 1] column. -/
def cyCol (v6 : Vec F S200x4 .i32) : FVec F S200x1 .f32 :=
  shapeCast S200x1
    (addf
      (mulf (sitofp .f32 (shapeCast S200 (extractStridedSlice S200x1 ![0, 2] v6 slices_S200x4_o0_2_S200x1) shapeCasts_S200x1_S200))
        (broadcast S200 (Scalar.ofBits .f32 0x3E4CCCCD#32)))
      (broadcast S200 (Scalar.ofBits .f32 0xC21F999A#32)))
    shapeCasts_S200_S200x1

/-- Channel 0 less the cell centre along x. -/
def offX (v3 : Vec F S200x32x7 .f32) (v6 : Vec F S200x4 .i32) : FVec F S200x32 .f32 :=
  subf (shapeCast S200x32 (extractStridedSlice S200x32x1 ![0, 0, 0] v3 slices_S200x32x7_o0_0_0_S200x32x1) shapeCasts_S200x32x1_S200x32)
    (broadcastTo S200x32 (cxCol v6) broadcasts_S200x1_S200x32)

/-- Channel 1 less the cell centre along y. -/
def offY (v3 : Vec F S200x32x7 .f32) (v6 : Vec F S200x4 .i32) : FVec F S200x32 .f32 :=
  subf (shapeCast S200x32 (extractStridedSlice S200x32x1 ![0, 0, 1] v3 slices_S200x32x7_o0_0_1_S200x32x1) shapeCasts_S200x32x1_S200x32)
    (broadcastTo S200x32 (cyCol v6) broadcasts_S200x1_S200x32)

/-- The two centre offsets side by side. -/
def ctr2 (v3 : Vec F S200x32x7 .f32) (v6 : Vec F S200x4 .i32) : FVec F S200x32x2 .f32 :=
  concatenate S200x32x2 2
    [⟨S200x32x1, shapeCast S200x32x1 (offX v3 v6) shapeCasts_S200x32_S200x32x1⟩,
     ⟨S200x32x1, shapeCast S200x32x1 (offY v3 v6) shapeCasts_S200x32_S200x32x1⟩]
    concatenates_S200x32x1_S200x32x1_S200x32x2_d2

/-- Channels 3..6 less their mean over the pillar's 32 points. -/
def cen4 (v3 : Vec F S200x32x7 .f32) (v4 : Vec F S200x1 .i32) : FVec F S200x32x4 .f32 :=
  subf (extractStridedSlice S200x32x4 ![0, 0, 3] v3 slices_S200x32x7_o0_0_3_S200x32x4)
    (broadcastTo S200x32x4
      (divf
        (shapeCast S200x1x4
          (multiReduction .add [1] S200x4 (extractStridedSlice S200x32x4 ![0, 0, 3] v3 slices_S200x32x7_o0_0_3_S200x32x4)
            0x00000000#32 reduces_S200x32x4_S200x4 (.inl rfl) rfl)
          shapeCasts_S200x4_S200x1x4)
        (broadcastTo S200x1x4 (dvec v4) broadcasts_S200x1x1_S200x1x4))
      broadcasts_S200x1x4_S200x32x4)

/-- The first seven augmented channels: the two centre offsets, then raw channels 2..6. -/
def head7 (v3 : Vec F S200x32x7 .f32) (v6 : Vec F S200x4 .i32) : FVec F S200x32x7 .f32 :=
  concatenate S200x32x7 2
    [⟨S200x32x2, ctr2 v3 v6⟩,
     ⟨S200x32x5, extractStridedSlice S200x32x5 ![0, 0, 2] v3 slices_S200x32x7_o0_0_2_S200x32x5⟩]
    concatenates_S200x32x2_S200x32x5_S200x32x7_d2

/-- The sixteen augmented channels. -/
def aug16 (v3 : Vec F S200x32x7 .f32) (v4 : Vec F S200x1 .i32) (v6 : Vec F S200x4 .i32) : FVec F S200x32x16 .f32 :=
  concatenate S200x32x16 2
    [⟨S200x32x7, head7 v3 v6⟩, ⟨S200x32x3, cen3 v3 v4⟩, ⟨S200x32x2, ctr2 v3 v6⟩, ⟨S200x32x4, cen4 v3 v4⟩]
    concatenates_S200x32x7_S200x32x3_S200x32x2_S200x32x4_S200x32x16_d2

/-- One where the point's index is below the pillar's count, zero elsewhere, over all sixteen channels. -/
def maskBlk (v4 : Vec F S200x1 .i32) : FVec F S200x32x16 .f32 :=
  broadcastTo S200x32x16
    (shapeCast S200x32x1
      (sitofp .f32
        (extui 32 (cmpi .slt (iota .tc S200x32 32 [1] iota_S200x32_d1_w32) (broadcastTo S200x32 (npI v4) broadcasts_S200x1_S200x32))
          natLt_1_32))
      shapeCasts_S200x32_S200x32x1)
    broadcasts_S200x32x1_S200x32x16

/-- The masked augmented channels of the block. -/
def featsBlk (v3 : Vec F S200x32x7 .f32) (v4 : Vec F S200x1 .i32) (v6 : Vec F S200x4 .i32) : FVec F S200x32x16 .f32 :=
  mulf (aug16 v3 v4 v6) (maskBlk v4)

/-- Their image under the weights, one row per point of the block. -/
def linBlk (v3 : Vec F S200x32x7 .f32) (v4 : Vec F S200x1 .i32) (v6 : Vec F S200x4 .i32) (v64 : Vec F S16x64 .f32) :
    FVec F S6400x64 .f32 :=
  matmul dot_S6400x16_S16x64_S6400x64_1_0_0_1_n_n none
    (truncf .bf16 (shapeCast S6400x16 (featsBlk v3 v4 v6) shapeCasts_S200x32x16_S6400x16) bitsLt_bf16_f32)
    (truncf .bf16 v64 bitsLt_bf16_f32) (constant S6400x64 .f32 0x00000000#32)

/-- The first kernel's two stored rows: the running row plus the column sums of the matrix, resp. of its squares. -/
def sumRow (y : FVec F S6400x64 .f32) (acc : Vec F S1x64 .f32) : FVec F S1x64 .f32 :=
  addf (shapeCast S1x64 acc shapeCasts_S1x64_S1x64)
    (shapeCast S1x64 (multiReduction .add [0] S64 y 0x00000000#32 reduces_S6400x64_S64 (.inl rfl) rfl) shapeCasts_S64_S1x64)

/-- The second kernel's stored block: scale, shift, clamp at zero, maximum over each pillar's 32 points. -/
def maxBlk (y : FVec F S6400x64 .f32) (v66 v69 : Vec F S1x64 .f32) : FVec F S200x64 .f32 :=
  multiReduction .maximumf [1] S200x64
    (maximumf
      (addf
        (mulf (shapeCast S200x32x64 y shapeCasts_S6400x64_S200x32x64)
          (broadcastTo S200x32x64 (shapeCast S1x1x64 (shapeCast S1x64 v66 shapeCasts_S1x64_S1x64) shapeCasts_S1x64_S1x1x64)
            broadcasts_S1x1x64_S200x32x64))
        (broadcastTo S200x32x64 (shapeCast S1x1x64 (shapeCast S1x64 v69 shapeCasts_S1x64_S1x64) shapeCasts_S1x64_S1x1x64)
          broadcasts_S1x1x64_S200x32x64))
      (broadcast S200x32x64 (Scalar.ofBits .f32 0x00000000#32)))
    0xFF800000#32 reduces_S200x32x64_S200x64 (.inl rfl) rfl

/-! ## The two kernels' payloads are this chain -/

theorem k0_pay1_eq (v3 : Vec F S200x32x7 .f32) (v4 : Vec F S200x1 .i32) (v6 : Vec F S200x4 .i32) (v64 : Vec F S16x64 .f32) :
    k0_pay1 v3 (k0_pay6 v4) (k0_pay7 v4) (k0_pay8 v3 v4) (k0_pay9 v3 v6) (k0_pay10 v3 v6) v64 = linBlk v3 v4 v6 v64 := rfl

theorem k0_pay2_eq (v3 : Vec F S200x32x7 .f32) (v4 : Vec F S200x1 .i32) (v6 : Vec F S200x4 .i32) (v64 : Vec F S16x64 .f32)
    (v73 : Vec F S1x64 .f32) :
    k0_pay2 v3 (k0_pay6 v4) (k0_pay7 v4) (k0_pay8 v3 v4) (k0_pay9 v3 v6) (k0_pay10 v3 v6) v64 v73
      = sumRow (linBlk v3 v4 v6 v64) v73 := rfl

theorem k0_pay3_eq (v3 : Vec F S200x32x7 .f32) (v4 : Vec F S200x1 .i32) (v6 : Vec F S200x4 .i32) (v64 : Vec F S16x64 .f32)
    (v77 : Vec F S1x64 .f32) :
    k0_pay3 v3 (k0_pay6 v4) (k0_pay7 v4) (k0_pay8 v3 v4) (k0_pay9 v3 v6) (k0_pay10 v3 v6) v64 v77
      = sumRow (mulf (linBlk v3 v4 v6 v64) (linBlk v3 v4 v6 v64)) v77 := rfl

theorem k1_pay1_eq (v0 : Vec F S200x32x7 .f32) (v1 : Vec F S200x1 .i32) (v3 : Vec F S200x4 .i32) (v61 : Vec F S16x64 .f32)
    (v66 v69 : Vec F S1x64 .f32) :
    k1_pay1 v0 (k1_pay2 v1) (k1_pay3 v1) (k1_pay4 v0 v1) (k1_pay5 v0 v3) (k1_pay6 v0) (k1_pay7 v0) v61 v66 v69
      = maxBlk (linBlk v0 v1 v3 v61) v66 v69 := rfl

end Cert.KernelIdeal.PayValue

end
-- ==== Proof.PayPieces.lean ====
/-
  What each kernel body leaves in its outputs' staging buffers, as the common chain of the block's loads: the second
  kernel's one covering store is the scaled, shifted, clamped and row-maximised matrix; the first kernel's two
  accumulators hold, after a point, their earlier contents plus the matrix's column sums (resp. the column sums of its
  squares), the earlier contents being the zero row at the point that clears them first. For any float instance.
-/
import proofs.«173196_j49855980372233_2_alg».proof.Proof.FeatsDef
import proofs.«173196_j49855980372233_2_alg».proof.Proof.Gen.KernelIdeal.Frame
import Idealize.ShloMosaic.Lib.Pipeline.Value
import Idealize.ShloMosaic.Lib.Tactic

noncomputable section

namespace Cert.KernelIdeal.PayValue

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The zero row the first point stores into both accumulators. -/
abbrev zeroRow : FVec F S1x64 .f32 := broadcast S1x64 (Scalar.ofBits .f32 0x00000000#32)

/-- The second kernel's block. -/
theorem out1_6_eq (x0 : Vec F S200x32x7 .f32) (x1 : Vec F S200x1 .i32) (x2 : Vec F S200x4 .i32) (x3 : Vec F S16x64 .f32) (x4 x5 : Vec F S1x64 .f32) :
    out1_6 x0 x1 x2 x3 x4 x5 = maxBlk (linBlk x0 x1 x2 x3) x4 x5 := by
  unfold out1_6
  rw [View.canon_unit_zero hz2]
  simp only [View.ld_unit_zero (S := S200x32x7) hz3, View.ld_unit_zero (S := S200x1) hz2, View.ld_unit_zero (S := S200x4) hz2,
    View.ld_unit_zero (S := S16x64) hz2, View.ld_unit_zero (S := S1x64) hz2]
  exact k1_pay1_eq x0 x1 x2 x3 x4 x5

/-- The first kernel's sum accumulator after a later point. -/
theorem out0_B_4_eq (c : Dev nD) (i : grid0.Coords) (arg1 : Memref sig .tc .vmem S200x32x7 .f32) (harg1 : arg1.IsWhole) (arg2 : Memref sig .tc .vmem S200x1 .i32) (harg2 : arg2.IsWhole) (arg3 : Memref sig .tc .vmem S200x4 .i32) (harg3 : arg3.IsWhole) (arg4 : Memref sig .tc .vmem S16x64 .f32) (harg4 : arg4.IsWhole) (arg5 : Memref sig .tc .vmem S1x64 .f32) (harg5 : arg5.IsWhole) (arg6 : Memref sig .tc .vmem S1x64 .f32) (harg6 : arg6.IsWhole) (hc0 : ¬cond0_0 i) (x0 : Vec F S200x32x7 .f32) (x1 : Vec F S200x1 .i32) (x2 : Vec F S200x4 .i32) (x3 : Vec F S16x64 .f32) (xo4 xo5 : Vec F S1x64 .f32) :
    out0_B_4 c i arg1 harg1 arg2 harg2 arg3 harg3 arg4 harg4 arg5 harg5 arg6 harg6 hc0 x0 x1 x2 x3 xo4 xo5 = sumRow (linBlk x0 x1 x2 x3) xo4 := by
  unfold out0_B_4
  rw [View.read_writes_eq_canon _ _ _ (cover0_B_4 c i arg1 harg1 arg2 harg2 arg3 harg3 arg4 harg4 arg5 harg5 arg6 harg6 hc0 x0 x1 x2 x3 xo4 xo5)]
  unfold kernelRun0_B
  dsimp only
  sl_unfold_words
  rw [View.canon_unit_zero (S := S1x64) hz2]
  simp only [View.readAt_eq_ld, harg1.read_unread, harg2.read_unread, harg3.read_unread, harg4.read_unread, harg5.read_unread, harg6.read_unread,
    View.ld_unit_zero (S := S200x32x7) hz3, View.ld_unit_zero (S := S200x1) hz2, View.ld_unit_zero (S := S200x4) hz2,
    View.ld_unit_zero (S := S16x64) hz2, View.ld_unit_zero (S := S1x64) hz2]
  exact k0_pay2_eq x0 x1 x2 x3 xo4

/-- The first kernel's sum-of-squares accumulator after a later point. -/
theorem out0_B_5_eq (c : Dev nD) (i : grid0.Coords) (arg1 : Memref sig .tc .vmem S200x32x7 .f32) (harg1 : arg1.IsWhole) (arg2 : Memref sig .tc .vmem S200x1 .i32) (harg2 : arg2.IsWhole) (arg3 : Memref sig .tc .vmem S200x4 .i32) (harg3 : arg3.IsWhole) (arg4 : Memref sig .tc .vmem S16x64 .f32) (harg4 : arg4.IsWhole) (arg5 : Memref sig .tc .vmem S1x64 .f32) (harg5 : arg5.IsWhole) (arg6 : Memref sig .tc .vmem S1x64 .f32) (harg6 : arg6.IsWhole) (hc0 : ¬cond0_0 i) (x0 : Vec F S200x32x7 .f32) (x1 : Vec F S200x1 .i32) (x2 : Vec F S200x4 .i32) (x3 : Vec F S16x64 .f32) (xo4 xo5 : Vec F S1x64 .f32) :
    out0_B_5 c i arg1 harg1 arg2 harg2 arg3 harg3 arg4 harg4 arg5 harg5 arg6 harg6 hc0 x0 x1 x2 x3 xo4 xo5 = sumRow (mulf (linBlk x0 x1 x2 x3) (linBlk x0 x1 x2 x3)) xo5 := by
  unfold out0_B_5
  rw [View.read_writes_eq_canon _ _ _ (cover0_B_5 c i arg1 harg1 arg2 harg2 arg3 harg3 arg4 harg4 arg5 harg5 arg6 harg6 hc0 x0 x1 x2 x3 xo4 xo5)]
  unfold kernelRun0_B
  dsimp only
  sl_unfold_words
  rw [View.canon_unit_zero (S := S1x64) hz2]
  simp only [View.readAt_eq_ld, harg1.read_unread, harg2.read_unread, harg3.read_unread, harg4.read_unread, harg5.read_unread, harg6.read_unread,
    View.ld_unit_zero (S := S200x32x7) hz3, View.ld_unit_zero (S := S200x1) hz2, View.ld_unit_zero (S := S200x4) hz2,
    View.ld_unit_zero (S := S16x64) hz2, View.ld_unit_zero (S := S1x64) hz2]
  exact k0_pay3_eq x0 x1 x2 x3 xo5

/-- The first kernel's sum accumulator after the point that clears it. -/
theorem out0_A_4_eq (c : Dev nD) (i : grid0.Coords) (arg1 : Memref sig .tc .vmem S200x32x7 .f32) (harg1 : arg1.IsWhole) (arg2 : Memref sig .tc .vmem S200x1 .i32) (harg2 : arg2.IsWhole) (arg3 : Memref sig .tc .vmem S200x4 .i32) (harg3 : arg3.IsWhole) (arg4 : Memref sig .tc .vmem S16x64 .f32) (harg4 : arg4.IsWhole) (arg5 : Memref sig .tc .vmem S1x64 .f32) (harg5 : arg5.IsWhole) (arg6 : Memref sig .tc .vmem S1x64 .f32) (harg6 : arg6.IsWhole) (hc0 : cond0_0 i) (x0 : Vec F S200x32x7 .f32) (x1 : Vec F S200x1 .i32) (x2 : Vec F S200x4 .i32) (x3 : Vec F S16x64 .f32) :
    out0_A_4 c i arg1 harg1 arg2 harg2 arg3 harg3 arg4 harg4 arg5 harg5 arg6 harg6 hc0 x0 x1 x2 x3 = sumRow (linBlk x0 x1 x2 x3) zeroRow := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_words
  rw [View.canon_cons_unit_zero (S := S1x64) hz2, View.readCov_unit_zero (S := S1x64) _ hz2]
  simp only [View.readAt_eq_ld, harg1.read_unread, harg2.read_unread, harg3.read_unread, harg4.read_unread,
    View.ld_unit_zero (S := S200x32x7) hz3, View.ld_unit_zero (S := S200x1) hz2, View.ld_unit_zero (S := S200x4) hz2,
    View.ld_unit_zero (S := S16x64) hz2]
  exact k0_pay2_eq x0 x1 x2 x3 zeroRow

/-- The first kernel's sum-of-squares accumulator after the point that clears it. -/
theorem out0_A_5_eq (c : Dev nD) (i : grid0.Coords) (arg1 : Memref sig .tc .vmem S200x32x7 .f32) (harg1 : arg1.IsWhole) (arg2 : Memref sig .tc .vmem S200x1 .i32) (harg2 : arg2.IsWhole) (arg3 : Memref sig .tc .vmem S200x4 .i32) (harg3 : arg3.IsWhole) (arg4 : Memref sig .tc .vmem S16x64 .f32) (harg4 : arg4.IsWhole) (arg5 : Memref sig .tc .vmem S1x64 .f32) (harg5 : arg5.IsWhole) (arg6 : Memref sig .tc .vmem S1x64 .f32) (harg6 : arg6.IsWhole) (hc0 : cond0_0 i) (x0 : Vec F S200x32x7 .f32) (x1 : Vec F S200x1 .i32) (x2 : Vec F S200x4 .i32) (x3 : Vec F S16x64 .f32) :
    out0_A_5 c i arg1 harg1 arg2 harg2 arg3 harg3 arg4 harg4 arg5 harg5 arg6 harg6 hc0 x0 x1 x2 x3 = sumRow (mulf (linBlk x0 x1 x2 x3) (linBlk x0 x1 x2 x3)) zeroRow := by
  unfold out0_A_5
  rw [View.read_writes_eq_canon _ _ _ (cover0_A_5 c i arg1 harg1 arg2 harg2 arg3 harg3 arg4 harg4 arg5 harg5 arg6 harg6 hc0 x0 x1 x2 x3)]
  unfold kernelRun0_A
  dsimp only
  sl_unfold_words
  rw [View.canon_cons_unit_zero (S := S1x64) hz2, View.readCov_unit_zero (S := S1x64) _ hz2]
  simp only [View.readAt_eq_ld, harg1.read_unread, harg2.read_unread, harg3.read_unread, harg4.read_unread,
    View.ld_unit_zero (S := S200x32x7) hz3, View.ld_unit_zero (S := S200x1) hz2, View.ld_unit_zero (S := S200x4) hz2,
    View.ld_unit_zero (S := S16x64) hz2]
  exact k0_pay3_eq x0 x1 x2 x3 zeroRow

end Cert.KernelIdeal.PayValue

end
-- ==== Proof.FeatsInt.lean ====
/-
  The two integer facts behind the divisor and the mask. A signed 32-bit count raised to at least one and read as
  a real is the count when it is at least one and one otherwise; and "point index below the count" as a one-bit
  word, widened to 32 bits and read as a real, is one or zero accordingly (a point index is below 32, so its word's
  signed value is the index itself).
-/
import proofs.«173196_j49855980372233_2_alg».proof.Proof.Spec

noncomputable section

namespace Cert.KernelIdeal.PayValue

open Idealize.ShloMosaic Cert.Pfn

theorem toInt_one32 : (1#32 : BitVec 32).toInt = 1 := by decide

/-- The signed maximum with one, as a real: the clamped divisor. -/
theorem sitofp_maxsi_one (a : BitVec 32) :
    (FloatOps.sitofp (F := Ideal) .f32 (IntOp.maxsi a 1#32) : EReal) = dClamp a := by
  show (((IntOp.maxsi a 1#32).toInt : ℝ) : EReal) = _
  unfold IntOp.maxsi dClamp
  by_cases h : 1 < a.toInt
  · have hs : (1#32 : BitVec 32).slt a = true := by
      show decide ((1#32 : BitVec 32).toInt < a.toInt) = true
      rw [toInt_one32]; exact decide_eq_true h
    rw [if_pos hs, if_pos (le_of_lt h)]
  · have hs : ¬ ((1#32 : BitVec 32).slt a = true) := by
      show ¬ (decide ((1#32 : BitVec 32).toInt < a.toInt) = true)
      rw [toInt_one32]; simpa using h
    rw [if_neg hs, toInt_one32]
    by_cases h' : 1 ≤ a.toInt
    · have e : a.toInt = 1 := le_antisymm (not_lt.mp h) h'
      rw [if_pos h', e]
    · rw [if_neg h', Int.cast_one]

theorem toInt_ofNat_lt32 : ∀ q : Fin 32, (BitVec.ofNat 32 q.val).toInt = (q.val : ℤ) := by decide

theorem toInt_bit_true : ((BitVec.ofBool true).setWidth 32).toInt = 1 := by decide
theorem toInt_bit_false : ((BitVec.ofBool false).setWidth 32).toInt = 0 := by decide

/-- "Index below the count", widened and read as a real: the mask. -/
theorem sitofp_mask (np : BitVec 32) (q : Fin 32) :
    (FloatOps.sitofp (F := Ideal) .f32 ((IntOp.cmpi .slt (BitVec.ofNat 32 q.val) np).setWidth 32) : EReal) = maskVal np q := by
  show ((((IntOp.cmpi .slt (BitVec.ofNat 32 q.val) np).setWidth 32).toInt : ℝ) : EReal) = _
  unfold maskVal
  have hs : (BitVec.ofNat 32 q.val).slt np = decide ((q.val : ℤ) < np.toInt) := by
    show decide ((BitVec.ofNat 32 q.val).toInt < np.toInt) = _
    rw [toInt_ofNat_lt32]
  show ((((BitVec.ofBool ((BitVec.ofNat 32 q.val).slt np)).setWidth 32).toInt : ℝ) : EReal) = _
  rw [hs]
  by_cases h : (q.val : ℤ) < np.toInt
  · rw [decide_eq_true h, toInt_bit_true, if_pos h, Int.cast_one]
  · rw [decide_eq_false h, toInt_bit_false, if_neg h, Int.cast_zero]

end Cert.KernelIdeal.PayValue

end
-- ==== Proof.FeatsLayout.lean ====
/-
  Layout operations read at an index given by coordinates, in the forms this kernel meets: a slice along the last
  axis of a rank-3 vector, broadcasts along a unit axis (last axis at rank 2 and 3, middle axis at rank 3, the two
  leading axes at rank 3), and the regrouping of a sum over 32·n rows into n groups of 32.
-/
import Idealize.ShloMosaic.Lib.ValueLayout

noncomputable section

namespace Cert.KernelIdeal.PayValue

open Idealize.ShloMosaic Idealize.ShloMosaic.ValueIdx
open scoped BigOperators

variable {α : Type}

/-- A rank-3 vector cut along its last axis from `o` reads, at `(a, b, j)`, the source at `(a, b, k)` with `k = o + j`. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- A column `[a, 1]` broadcast to `[a, b]` reads its row's one entry. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- `[a, b, 1]` broadcast to `[a, b, n]` reads the one entry of its `(p, q)`. -/
theorem broadcastTo_ab1_abn_apply {a b n : ℕ} (v : (⟨3, ![a, b, 1]⟩ : Shape).Idx → α)
    (h : (⟨3, ![a, b, 1]⟩ : Shape).Broadcasts ⟨3, ![a, b, n]⟩) (p : Fin a) (q : Fin b) (c : Fin n) :
    broadcastTo ⟨3, ![a, b, n]⟩ v h (ix3 p q c) = v (ix3 p q (0 : Fin 1)) := by
  refine broadcastTo_apply v h (ix3 p q c) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- `[a, 1, n]` broadcast to `[a, b, n]` reads `(p, 0, c)`. -/
theorem broadcastTo_a1n_abn_apply {a b n : ℕ} (v : (⟨3, ![a, 1, n]⟩ : Shape).Idx → α)
    (h : (⟨3, ![a, 1, n]⟩ : Shape).Broadcasts ⟨3, ![a, b, n]⟩) (p : Fin a) (q : Fin b) (c : Fin n) :
    broadcastTo ⟨3, ![a, b, n]⟩ v h (ix3 p q c) = v (ix3 p (0 : Fin 1) c) := by
  refine broadcastTo_apply v h (ix3 p q c) (ix3 p (0 : Fin 1) c) fun ax => ?_
  match ax with
  | ⟨0, _⟩ =>
    show p.val = if a = 1 then 0 else p.val
    split
    · have := p.isLt; omega
    · rfl
  | ⟨1, _⟩ => rfl
  | ⟨2, _⟩ =>
    show c.val = if n = 1 then 0 else c.val
    split
    · have := c.isLt; omega
    · rfl

/-- `[1, 1, n]` broadcast to `[a, b, n]` reads `(0, 0, c)`. -/
theorem broadcastTo_11n_abn_apply {a b n : ℕ} (v : (⟨3, ![1, 1, n]⟩ : Shape).Idx → α)
    (h : (⟨3, ![1, 1, n]⟩ : Shape).Broadcasts ⟨3, ![a, b, n]⟩) (p : Fin a) (q : Fin b) (c : Fin n) :
    broadcastTo ⟨3, ![a, b, n]⟩ v h (ix3 p q c) = v (ix3 (0 : Fin 1) (0 : Fin 1) c) := by
  refine broadcastTo_apply v h (ix3 p q c) (ix3 (0 : Fin 1) (0 : Fin 1) c) fun ax => ?_
  match ax with
  | ⟨0, _⟩ => rfl
  | ⟨1, _⟩ => rfl
  | ⟨2, _⟩ =>
    show c.val = if n = 1 then 0 else c.val
    split
    · have := c.isLt; omega
    · rfl

/-- A sum over `n · 32` rows, regrouped: the outer sum over the `n` groups, the inner over a group's 32 rows. -/
theorem sum_rows_regroup {M : Type*} [AddCommMonoid M] (n : ℕ) (g : Fin (n * 32) → M) :
    ∑ k : Fin (n * 32), g k
      = ∑ p : Fin n, ∑ q : Fin 32, g ⟨32 * p.val + q.val, by have := p.isLt; have := q.isLt; omega⟩ := by
  rw [← Equiv.sum_comp (finProdFinEquiv : Fin n × Fin 32 ≃ Fin (n * 32)) g, Fintype.sum_prod_type]
  refine Finset.sum_congr rfl fun p _ => Finset.sum_congr rfl fun q _ => congrArg g (Fin.ext ?_)
  show q.val + 32 * p.val = 32 * p.val + q.val
  omega

end Cert.KernelIdeal.PayValue

end
-- ==== Proof.FeatsAt.lean ====
/-
  The pieces of the augmented point, read at an index over the extended reals: the clamped count, a channel less
  its mean over the pillar's points, a channel less the cell's centre, and the 0/1 mask.
-/
import proofs.«173196_j49855980372233_2_alg».proof.Proof.FeatsDef
import proofs.«173196_j49855980372233_2_alg».proof.Proof.FeatsInt
import proofs.«173196_j49855980372233_2_alg».proof.Proof.FeatsLayout
import Idealize.ShloMosaic.PureOps.Ideal.Laws

noncomputable section

namespace Cert.KernelIdeal.PayValue

open Cert.KernelIdeal Cert.KernelIdeal.Gen Cert.Pfn Idealize.ShloMosaic Idealize.ShloMosaic.ValueIdx
open scoped BigOperators

/-- The counts, as loaded. -/
theorem npI_eq (v4 : Vec Ideal S200x1 .i32) : npI (F := Ideal) v4 = v4 := shapeCast_self v4 _

/-- The divisor at a pillar: its count raised to at least one. -/
theorem dvec_apply (v4 : Vec Ideal S200x1 .i32) (p : Fin 200) (u u' : Fin 1) :
    dvec (F := Ideal) v4 (ix3 p u u') = dClamp (v4 (ix2 p 0)) := by
  unfold dvec
  refine (shapeCast_apply _ shapeCasts_S200x1_S200x1x1 (ix3 p u u') (ix2 p (0 : Fin 1)) ?_).trans ?_
  · rw [Shape.rowMajor_val_two, Shape.rowMajor_val_three]
    show p.val * 1 + 0 = (p.val * 1 + u.val) * 1 + u'.val
    have := u.isLt; have := u'.isLt; omega
  · show FloatOps.sitofp (F := Ideal) .f32 (IntOp.maxsi (npI (F := Ideal) v4 (ix2 p 0)) 1#32) = _
    rw [npI_eq]
    exact sitofp_maxsi_one _

/-- Channels 0..2 less their mean, at a point: the channel less the sum over the pillar's 32 points divided by the clamped count. -/
theorem cen3_apply (v3 : Vec Ideal S200x32x7 .f32) (v4 : Vec Ideal S200x1 .i32) (p : Fin 200) (q : Fin 32) (c : Fin 3)
    (c' : Fin 7) (hc : c'.val = 0 + c.val) :
    cen3 (F := Ideal) v3 v4 (ix3 p q c)
      = v3 (ix3 p q c') - Ideal.div (∑ k : Fin 32, v3 (ix3 p k c')) (dClamp (v4 (ix2 p 0))) := by
  unfold cen3
  have hsl : ∀ k : Fin 32, extractStridedSlice S200x32x3 ![0, 0, 0] v3 slices_S200x32x7_o0_0_0_S200x32x3 (ix3 p k c) = v3 (ix3 p k c') :=
    fun k => slice3_axis2_apply 0 v3 slices_S200x32x7_o0_0_0_S200x32x3 p k c c' hc
  refine congrArg₂ (· - ·) (hsl q) ?_
  refine (broadcastTo_a1n_abn_apply _ broadcasts_S200x1x3_S200x32x3 p q c).trans ?_
  refine congrArg₂ Ideal.div ?_ ?_
  · refine (shapeCast_apply _ shapeCasts_S200x3_S200x1x3 (ix3 p (0 : Fin 1) c) (ix2 p c) ?_).trans ?_
    · rw [Shape.rowMajor_val_two, Shape.rowMajor_val_three]
      show p.val * 3 + c.val = (p.val * 1 + 0) * 3 + c.val
      omega
    · refine (Ideal.multiReduction_add_single (φ := .f32)
        (extractStridedSlice S200x32x3 ![0, 0, 0] v3 slices_S200x32x7_o0_0_0_S200x32x3) 0x00000000#32 reduces_S200x32x3_S200x3 (.inl rfl) rfl (ix2 p c)).trans ?_
      refine Finset.sum_congr rfl fun k _ => ?_
      have hl : reduces_S200x32x3_S200x3.lift (ix2 p c) k = ix3 p k c := by
        funext a; apply Fin.ext
        match a with
        | ⟨0, _⟩ => rfl
        | ⟨1, _⟩ => rfl
        | ⟨2, _⟩ => rfl
      rw [hl]
      exact hsl k
  · refine (broadcastTo_ab1_abn_apply _ broadcasts_S200x1x1_S200x1x3 p (0 : Fin 1) c).trans ?_
    exact dvec_apply v4 p 0 0

/-- Channels 3..6 less their mean, at a point: the channel less the sum over the pillar's 32 points divided by the clamped count. -/
theorem cen4_apply (v3 : Vec Ideal S200x32x7 .f32) (v4 : Vec Ideal S200x1 .i32) (p : Fin 200) (q : Fin 32) (c : Fin 4)
    (c' : Fin 7) (hc : c'.val = 3 + c.val) :
    cen4 (F := Ideal) v3 v4 (ix3 p q c)
      = v3 (ix3 p q c') - Ideal.div (∑ k : Fin 32, v3 (ix3 p k c')) (dClamp (v4 (ix2 p 0))) := by
  unfold cen4
  have hsl : ∀ k : Fin 32, extractStridedSlice S200x32x4 ![0, 0, 3] v3 slices_S200x32x7_o0_0_3_S200x32x4 (ix3 p k c) = v3 (ix3 p k c') :=
    fun k => slice3_axis2_apply 3 v3 slices_S200x32x7_o0_0_3_S200x32x4 p k c c' hc
  refine congrArg₂ (· - ·) (hsl q) ?_
  refine (broadcastTo_a1n_abn_apply _ broadcasts_S200x1x4_S200x32x4 p q c).trans ?_
  refine congrArg₂ Ideal.div ?_ ?_
  · refine (shapeCast_apply _ shapeCasts_S200x4_S200x1x4 (ix3 p (0 : Fin 1) c) (ix2 p c) ?_).trans ?_
    · rw [Shape.rowMajor_val_two, Shape.rowMajor_val_three]
      show p.val * 4 + c.val = (p.val * 1 + 0) * 4 + c.val
      omega
    · refine (Ideal.multiReduction_add_single (φ := .f32)
        (extractStridedSlice S200x32x4 ![0, 0, 3] v3 slices_S200x32x7_o0_0_3_S200x32x4) 0x00000000#32 reduces_S200x32x4_S200x4 (.inl rfl) rfl (ix2 p c)).trans ?_
      refine Finset.sum_congr rfl fun k _ => ?_
      have hl : reduces_S200x32x4_S200x4.lift (ix2 p c) k = ix3 p k c := by
        funext a; apply Fin.ext
        match a with
        | ⟨0, _⟩ => rfl
        | ⟨1, _⟩ => rfl
        | ⟨2, _⟩ => rfl
      rw [hl]
      exact hsl k
  · refine (broadcastTo_ab1_abn_apply _ broadcasts_S200x1x1_S200x1x4 p (0 : Fin 1) c).trans ?_
    exact dvec_apply v4 p 0 0

/-- A cell's centre along x. -/
theorem cxCol_apply (v6 : Vec Ideal S200x4 .i32) (p : Fin 200) (u : Fin 1) :
    cxCol (F := Ideal) v6 (ix2 p u) = cxOf (v6 (ix2 p 3)) := by
  unfold cxCol
  refine (shapeCast_apply _ shapeCasts_S200_S200x1 (ix2 p u) (ix1 p) ?_).trans ?_
  · rw [Shape.rowMajor_val_two, Shape.rowMajor_val_one]
    show p.val = p.val * 1 + u.val
    have := u.isLt; omega
  · have e : shapeCast S200 (extractStridedSlice S200x1 ![0, 3] v6 slices_S200x4_o0_3_S200x1) shapeCasts_S200x1_S200 (ix1 p)
        = v6 (ix2 p 3) := by
      refine (shapeCast_apply _ shapeCasts_S200x1_S200 (ix1 p) (ix2 p (0 : Fin 1)) ?_).trans ?_
      · rw [Shape.rowMajor_val_two, Shape.rowMajor_val_one]
        show p.val * 1 + 0 = p.val
        omega
      · exact slice2_axis1_apply 3 v6 slices_S200x4_o0_3_S200x1 p (0 : Fin 1) 3 rfl
    show ((((shapeCast S200 (extractStridedSlice S200x1 ![0, 3] v6 slices_S200x4_o0_3_S200x1) shapeCasts_S200x1_S200 (ix1 p)).toInt : ℝ) : EReal)
        * Ideal.ofBits .f32 0x3E4CCCCD#32 + Ideal.ofBits .f32 0x3DCCCCCD#32) = _
    rw [e]
    rfl

/-- A cell's centre along y. -/
theorem cyCol_apply (v6 : Vec Ideal S200x4 .i32) (p : Fin 200) (u : Fin 1) :
    cyCol (F := Ideal) v6 (ix2 p u) = cyOf (v6 (ix2 p 2)) := by
  unfold cyCol
  refine (shapeCast_apply _ shapeCasts_S200_S200x1 (ix2 p u) (ix1 p) ?_).trans ?_
  · rw [Shape.rowMajor_val_two, Shape.rowMajor_val_one]
    show p.val = p.val * 1 + u.val
    have := u.isLt; omega
  · have e : shapeCast S200 (extractStridedSlice S200x1 ![0, 2] v6 slices_S200x4_o0_2_S200x1) shapeCasts_S200x1_S200 (ix1 p)
        = v6 (ix2 p 2) := by
      refine (shapeCast_apply _ shapeCasts_S200x1_S200 (ix1 p) (ix2 p (0 : Fin 1)) ?_).trans ?_
      · rw [Shape.rowMajor_val_two, Shape.rowMajor_val_one]
        show p.val * 1 + 0 = p.val
        omega
      · exact slice2_axis1_apply 2 v6 slices_S200x4_o0_2_S200x1 p (0 : Fin 1) 2 rfl
    show ((((shapeCast S200 (extractStridedSlice S200x1 ![0, 2] v6 slices_S200x4_o0_2_S200x1) shapeCasts_S200x1_S200 (ix1 p)).toInt : ℝ) : EReal)
        * Ideal.ofBits .f32 0x3E4CCCCD#32 + Ideal.ofBits .f32 0xC21F999A#32) = _
    rw [e]
    rfl

/-- Channel 0 less the cell's centre along x. -/
theorem offX_apply (v3 : Vec Ideal S200x32x7 .f32) (v6 : Vec Ideal S200x4 .i32) (p : Fin 200) (q : Fin 32) :
    offX (F := Ideal) v3 v6 (ix2 p q) = v3 (ix3 p q 0) - cxOf (v6 (ix2 p 3)) := by
  unfold offX
  refine congrArg₂ (· - ·) ?_ ?_
  · refine (shapeCast_apply _ shapeCasts_S200x32x1_S200x32 (ix2 p q) (ix3 p q (0 : Fin 1)) ?_).trans ?_
    · rw [Shape.rowMajor_val_two, Shape.rowMajor_val_three]
      show (p.val * 32 + q.val) * 1 + 0 = p.val * 32 + q.val
      omega
    · exact slice3_axis2_apply 0 v3 slices_S200x32x7_o0_0_0_S200x32x1 p q (0 : Fin 1) 0 rfl
  · exact (broadcastTo_a1_ab_apply _ broadcasts_S200x1_S200x32 p q).trans (cxCol_apply v6 p 0)

/-- Channel 1 less the cell's centre along y. -/
theorem offY_apply (v3 : Vec Ideal S200x32x7 .f32) (v6 : Vec Ideal S200x4 .i32) (p : Fin 200) (q : Fin 32) :
    offY (F := Ideal) v3 v6 (ix2 p q) = v3 (ix3 p q 1) - cyOf (v6 (ix2 p 2)) := by
  unfold offY
  refine congrArg₂ (· - ·) ?_ ?_
  · refine (shapeCast_apply _ shapeCasts_S200x32x1_S200x32 (ix2 p q) (ix3 p q (0 : Fin 1)) ?_).trans ?_
    · rw [Shape.rowMajor_val_two, Shape.rowMajor_val_three]
      show (p.val * 32 + q.val) * 1 + 0 = p.val * 32 + q.val
      omega
    · exact slice3_axis2_apply 1 v3 slices_S200x32x7_o0_0_1_S200x32x1 p q (0 : Fin 1) 1 rfl
  · exact (broadcastTo_a1_ab_apply _ broadcasts_S200x1_S200x32 p q).trans (cyCol_apply v6 p 0)

/-- The mask at a point: one below the count, zero at or beyond it, whatever the channel. -/
theorem maskBlk_apply (v4 : Vec Ideal S200x1 .i32) (p : Fin 200) (q : Fin 32) (c : Fin 16) :
    maskBlk (F := Ideal) v4 (ix3 p q c) = maskVal (v4 (ix2 p 0)) q := by
  unfold maskBlk
  refine (broadcastTo_ab1_abn_apply _ broadcasts_S200x32x1_S200x32x16 p q c).trans ?_
  refine (shapeCast_apply _ shapeCasts_S200x32_S200x32x1 (ix3 p q (0 : Fin 1)) (ix2 p q) ?_).trans ?_
  · rw [Shape.rowMajor_val_two, Shape.rowMajor_val_three]
    show p.val * 32 + q.val = (p.val * 32 + q.val) * 1 + 0
    omega
  · have e1 : iota .tc S200x32 32 [1] iota_S200x32_d1_w32 (ix2 p q) = BitVec.ofNat 32 q.val :=
      iota_single_apply .tc S200x32 32 1 iota_S200x32_d1_w32 (ix2 p q)
    have e2 : broadcastTo S200x32 (npI (F := Ideal) v4) broadcasts_S200x1_S200x32 (ix2 p q) = v4 (ix2 p 0) := by
      rw [npI_eq]; exact broadcastTo_a1_ab_apply v4 broadcasts_S200x1_S200x32 p q
    show FloatOps.sitofp (F := Ideal) .f32
        ((IntOp.cmpi .slt (iota .tc S200x32 32 [1] iota_S200x32_d1_w32 (ix2 p q))
          (broadcastTo S200x32 (npI (F := Ideal) v4) broadcasts_S200x1_S200x32 (ix2 p q))).setWidth 32) = _
    rw [e1, e2]
    exact sitofp_mask _ q

end Cert.KernelIdeal.PayValue

end
-- ==== Proof.FeatsAug.lean ====
/-
  The sixteen augmented channels of a point and their masked product, read at an index over the extended reals:
  the concatenation's coordinate 0..6 falls in the first piece (the two centre offsets, then raw channels 2..6),
  7..9 in the offsets from the mean of channels 0..2, 10..11 in the centre offsets again, 12..15 in the offsets
  from the mean of channels 3..6 — channel by channel the specification's augmented point.
-/
import proofs.«173196_j49855980372233_2_alg».proof.Proof.FeatsAt

noncomputable section

namespace Cert.KernelIdeal.PayValue

open Cert.KernelIdeal Cert.KernelIdeal.Gen Cert.Pfn Idealize.ShloMosaic Idealize.ShloMosaic.ValueIdx
open scoped BigOperators

/-- The first centre offset. -/
theorem ctr2_apply0 (v3 : Vec Ideal S200x32x7 .f32) (v6 : Vec Ideal S200x4 .i32) (p : Fin 200) (q : Fin 32) :
    ctr2 (F := Ideal) v3 v6 (ix3 p q (0 : Fin 2)) = v3 (ix3 p q 0) - cxOf (v6 (ix2 p 3)) := by
  unfold ctr2
  refine (concatenate_pair_apply_left _ _ _ concatenates_S200x32x1_S200x32x1_S200x32x2_d2 (ix3 p q (0 : Fin 2)) rfl
    (ix3 p q (0 : Fin 1)) (fun b => ?_)).trans ?_
  · match b with
    | ⟨0, _⟩ => rfl
    | ⟨1, _⟩ => rfl
    | ⟨2, _⟩ => rfl
  · refine (shapeCast_apply _ shapeCasts_S200x32_S200x32x1 (ix3 p q (0 : Fin 1)) (ix2 p q) ?_).trans (offX_apply v3 v6 p q)
    rw [Shape.rowMajor_val_two, Shape.rowMajor_val_three]
    show p.val * 32 + q.val = (p.val * 32 + q.val) * 1 + 0
    omega

/-- The second centre offset. -/
theorem ctr2_apply1 (v3 : Vec Ideal S200x32x7 .f32) (v6 : Vec Ideal S200x4 .i32) (p : Fin 200) (q : Fin 32) :
    ctr2 (F := Ideal) v3 v6 (ix3 p q (1 : Fin 2)) = v3 (ix3 p q 1) - cyOf (v6 (ix2 p 2)) := by
  unfold ctr2
  refine (concatenate_pair_apply_right _ _ _ concatenates_S200x32x1_S200x32x1_S200x32x2_d2 (ix3 p q (1 : Fin 2)) rfl rfl
    (ix3 p q (0 : Fin 1)) (fun b hb => ?_) rfl).trans ?_
  · match b with
    | ⟨0, _⟩ => rfl
    | ⟨1, _⟩ => rfl
    | ⟨2, _⟩ => exact absurd rfl hb
  · refine (shapeCast_apply _ shapeCasts_S200x32_S200x32x1 (ix3 p q (0 : Fin 1)) (ix2 p q) ?_).trans (offY_apply v3 v6 p q)
    rw [Shape.rowMajor_val_two, Shape.rowMajor_val_three]
    show p.val * 32 + q.val = (p.val * 32 + q.val) * 1 + 0
    omega

/-- The first two of the first seven channels are the centre offsets. -/
theorem head7_ctr (v3 : Vec Ideal S200x32x7 .f32) (v6 : Vec Ideal S200x4 .i32) (p : Fin 200) (q : Fin 32) (e : Fin 2) (c : Fin 7) (hc : c.val = e.val) :
    head7 (F := Ideal) v3 v6 (ix3 p q c) = ctr2 (F := Ideal) v3 v6 (ix3 p q e) := by
  unfold head7
  refine concatenate_pair_apply_left _ _ _ concatenates_S200x32x2_S200x32x5_S200x32x7_d2 (ix3 p q c) rfl
    (ix3 p q e) (fun b => ?_)
  match b with
  | ⟨0, _⟩ => rfl
  | ⟨1, _⟩ => rfl
  | ⟨2, _⟩ => exact hc.symm

/-- The other five are raw channels 2..6. -/
theorem head7_raw (v3 : Vec Ideal S200x32x7 .f32) (v6 : Vec Ideal S200x4 .i32) (p : Fin 200) (q : Fin 32) (c : Fin 7) (hc : 2 ≤ c.val) :
    head7 (F := Ideal) v3 v6 (ix3 p q c) = v3 (ix3 p q c) := by
  unfold head7
  have hlt : c.val - 2 < 5 := by have := c.isLt; omega
  refine (concatenate_pair_apply_right _ _ _ concatenates_S200x32x2_S200x32x5_S200x32x7_d2 (ix3 p q c) rfl rfl
    (ix3 p q (⟨c.val - 2, hlt⟩ : Fin 5)) (fun b hb => ?_) ?_).trans ?_
  · match b with
    | ⟨0, _⟩ => rfl
    | ⟨1, _⟩ => rfl
    | ⟨2, _⟩ => exact absurd rfl hb
  · show c.val - 2 + 2 = c.val
    omega
  · exact slice3_axis2_apply 2 v3 slices_S200x32x7_o0_0_2_S200x32x5 p q (⟨c.val - 2, hlt⟩ : Fin 5) c (by show c.val = 2 + (c.val - 2); omega)

theorem aug16_piece0 (v3 : Vec Ideal S200x32x7 .f32) (v4 : Vec Ideal S200x1 .i32) (v6 : Vec Ideal S200x4 .i32) (p : Fin 200) (q : Fin 32) (e : Fin 7) (c : Fin 16) (hc : c.val = 0 + e.val) :
    aug16 (F := Ideal) v3 v4 v6 (ix3 p q c) = head7 (F := Ideal) v3 v6 (ix3 p q e) := by
  unfold aug16
  refine concatenate_apply_piece (α := Ideal .f32) (t := S200x32x16) (2 : Fin 3)
    [⟨S200x32x7, head7 (F := Ideal) v3 v6⟩, ⟨S200x32x3, cen3 (F := Ideal) v3 v4⟩, ⟨S200x32x2, ctr2 (F := Ideal) v3 v6⟩, ⟨S200x32x4, cen4 (F := Ideal) v3 v4⟩]
    concatenates_S200x32x7_S200x32x3_S200x32x2_S200x32x4_S200x32x16_d2 (ix3 p q c)
    0 (by show (0 : ℕ) < 4; omega) _ _ rfl rfl 0 rfl (ix3 p q e) (fun b hb => ?_) ?_
  · match b with
    | ⟨0, _⟩ => rfl
    | ⟨1, _⟩ => rfl
    | ⟨2, _⟩ => exact absurd rfl hb
  · show 0 + e.val = c.val
    omega

theorem aug16_piece1 (v3 : Vec Ideal S200x32x7 .f32) (v4 : Vec Ideal S200x1 .i32) (v6 : Vec Ideal S200x4 .i32) (p : Fin 200) (q : Fin 32) (e : Fin 3) (c : Fin 16) (hc : c.val = 7 + e.val) :
    aug16 (F := Ideal) v3 v4 v6 (ix3 p q c) = cen3 (F := Ideal) v3 v4 (ix3 p q e) := by
  unfold aug16
  refine concatenate_apply_piece (α := Ideal .f32) (t := S200x32x16) (2 : Fin 3)
    [⟨S200x32x7, head7 (F := Ideal) v3 v6⟩, ⟨S200x32x3, cen3 (F := Ideal) v3 v4⟩, ⟨S200x32x2, ctr2 (F := Ideal) v3 v6⟩, ⟨S200x32x4, cen4 (F := Ideal) v3 v4⟩]
    concatenates_S200x32x7_S200x32x3_S200x32x2_S200x32x4_S200x32x16_d2 (ix3 p q c)
    1 (by show (1 : ℕ) < 4; omega) _ _ rfl rfl 7 rfl (ix3 p q e) (fun b hb => ?_) ?_
  · match b with
    | ⟨0, _⟩ => rfl
    | ⟨1, _⟩ => rfl
    | ⟨2, _⟩ => exact absurd rfl hb
  · show 7 + e.val = c.val
    omega

theorem aug16_piece2 (v3 : Vec Ideal S200x32x7 .f32) (v4 : Vec Ideal S200x1 .i32) (v6 : Vec Ideal S200x4 .i32) (p : Fin 200) (q : Fin 32) (e : Fin 2) (c : Fin 16) (hc : c.val = 10 + e.val) :
    aug16 (F := Ideal) v3 v4 v6 (ix3 p q c) = ctr2 (F := Ideal) v3 v6 (ix3 p q e) := by
  unfold aug16
  refine concatenate_apply_piece (α := Ideal .f32) (t := S200x32x16) (2 : Fin 3)
    [⟨S200x32x7, head7 (F := Ideal) v3 v6⟩, ⟨S200x32x3, cen3 (F := Ideal) v3 v4⟩, ⟨S200x32x2, ctr2 (F := Ideal) v3 v6⟩, ⟨S200x32x4, cen4 (F := Ideal) v3 v4⟩]
    concatenates_S200x32x7_S200x32x3_S200x32x2_S200x32x4_S200x32x16_d2 (ix3 p q c)
    2 (by show (2 : ℕ) < 4; omega) _ _ rfl rfl 10 rfl (ix3 p q e) (fun b hb => ?_) ?_
  · match b with
    | ⟨0, _⟩ => rfl
    | ⟨1, _⟩ => rfl
    | ⟨2, _⟩ => exact absurd rfl hb
  · show 10 + e.val = c.val
    omega

theorem aug16_piece3 (v3 : Vec Ideal S200x32x7 .f32) (v4 : Vec Ideal S200x1 .i32) (v6 : Vec Ideal S200x4 .i32) (p : Fin 200) (q : Fin 32) (e : Fin 4) (c : Fin 16) (hc : c.val = 12 + e.val) :
    aug16 (F := Ideal) v3 v4 v6 (ix3 p q c) = cen4 (F := Ideal) v3 v4 (ix3 p q e) := by
  unfold aug16
  refine concatenate_apply_piece (α := Ideal .f32) (t := S200x32x16) (2 : Fin 3)
    [⟨S200x32x7, head7 (F := Ideal) v3 v6⟩, ⟨S200x32x3, cen3 (F := Ideal) v3 v4⟩, ⟨S200x32x2, ctr2 (F := Ideal) v3 v6⟩, ⟨S200x32x4, cen4 (F := Ideal) v3 v4⟩]
    concatenates_S200x32x7_S200x32x3_S200x32x2_S200x32x4_S200x32x16_d2 (ix3 p q c)
    3 (by show (3 : ℕ) < 4; omega) _ _ rfl rfl 12 rfl (ix3 p q e) (fun b hb => ?_) ?_
  · match b with
    | ⟨0, _⟩ => rfl
    | ⟨1, _⟩ => rfl
    | ⟨2, _⟩ => exact absurd rfl hb
  · show 12 + e.val = c.val
    omega

/-- The sixteen channels are the specification's augmented point. -/
theorem aug16_apply (v3 : Vec Ideal S200x32x7 .f32) (v4 : Vec Ideal S200x1 .i32) (v6 : Vec Ideal S200x4 .i32) (p : Fin 200) (q : Fin 32) (c : Fin 16) :
    aug16 (F := Ideal) v3 v4 v6 (ix3 p q c)
      = aug (fun q' c' => v3 (ix3 p q' c')) (dClamp (v4 (ix2 p 0))) (cxOf (v6 (ix2 p 3))) (cyOf (v6 (ix2 p 2))) q c := by
  match c with
  | ⟨0, _⟩ => exact (aug16_piece0 v3 v4 v6 p q (0 : Fin 7) _ rfl).trans ((head7_ctr v3 v6 p q (0 : Fin 2) _ rfl).trans (ctr2_apply0 v3 v6 p q))
  | ⟨1, _⟩ => exact (aug16_piece0 v3 v4 v6 p q (1 : Fin 7) _ rfl).trans ((head7_ctr v3 v6 p q (1 : Fin 2) _ rfl).trans (ctr2_apply1 v3 v6 p q))
  | ⟨2, _⟩ => exact (aug16_piece0 v3 v4 v6 p q (2 : Fin 7) _ rfl).trans (head7_raw v3 v6 p q (2 : Fin 7) (by decide))
  | ⟨3, _⟩ => exact (aug16_piece0 v3 v4 v6 p q (3 : Fin 7) _ rfl).trans (head7_raw v3 v6 p q (3 : Fin 7) (by decide))
  | ⟨4, _⟩ => exact (aug16_piece0 v3 v4 v6 p q (4 : Fin 7) _ rfl).trans (head7_raw v3 v6 p q (4 : Fin 7) (by decide))
  | ⟨5, _⟩ => exact (aug16_piece0 v3 v4 v6 p q (5 : Fin 7) _ rfl).trans (head7_raw v3 v6 p q (5 : Fin 7) (by decide))
  | ⟨6, _⟩ => exact (aug16_piece0 v3 v4 v6 p q (6 : Fin 7) _ rfl).trans (head7_raw v3 v6 p q (6 : Fin 7) (by decide))
  | ⟨7, _⟩ => exact (aug16_piece1 v3 v4 v6 p q (0 : Fin 3) _ rfl).trans (cen3_apply v3 v4 p q (0 : Fin 3) (0 : Fin 7) rfl)
  | ⟨8, _⟩ => exact (aug16_piece1 v3 v4 v6 p q (1 : Fin 3) _ rfl).trans (cen3_apply v3 v4 p q (1 : Fin 3) (1 : Fin 7) rfl)
  | ⟨9, _⟩ => exact (aug16_piece1 v3 v4 v6 p q (2 : Fin 3) _ rfl).trans (cen3_apply v3 v4 p q (2 : Fin 3) (2 : Fin 7) rfl)
  | ⟨10, _⟩ => exact (aug16_piece2 v3 v4 v6 p q (0 : Fin 2) _ rfl).trans (ctr2_apply0 v3 v6 p q)
  | ⟨11, _⟩ => exact (aug16_piece2 v3 v4 v6 p q (1 : Fin 2) _ rfl).trans (ctr2_apply1 v3 v6 p q)
  | ⟨12, _⟩ => exact (aug16_piece3 v3 v4 v6 p q (0 : Fin 4) _ rfl).trans (cen4_apply v3 v4 p q (0 : Fin 4) (3 : Fin 7) rfl)
  | ⟨13, _⟩ => exact (aug16_piece3 v3 v4 v6 p q (1 : Fin 4) _ rfl).trans (cen4_apply v3 v4 p q (1 : Fin 4) (4 : Fin 7) rfl)
  | ⟨14, _⟩ => exact (aug16_piece3 v3 v4 v6 p q (2 : Fin 4) _ rfl).trans (cen4_apply v3 v4 p q (2 : Fin 4) (5 : Fin 7) rfl)
  | ⟨15, _⟩ => exact (aug16_piece3 v3 v4 v6 p q (3 : Fin 4) _ rfl).trans (cen4_apply v3 v4 p q (3 : Fin 4) (6 : Fin 7) rfl)
  | ⟨n + 16, h⟩ => exact absurd h (by omega)

/-- The masked channels are the specification's. -/
theorem featsBlk_apply (v3 : Vec Ideal S200x32x7 .f32) (v4 : Vec Ideal S200x1 .i32) (v6 : Vec Ideal S200x4 .i32) (p : Fin 200) (q : Fin 32) (c : Fin 16) :
    featsBlk (F := Ideal) v3 v4 v6 (ix3 p q c)
      = feat (fun q' c' => v3 (ix3 p q' c')) (dClamp (v4 (ix2 p 0))) (cxOf (v6 (ix2 p 3))) (cyOf (v6 (ix2 p 2)))
          (maskVal (v4 (ix2 p 0))) q c := by
  unfold featsBlk feat
  exact congrArg₂ (· * ·) (aug16_apply v3 v4 v6 p q c) (maskBlk_apply v4 p q c)

end Cert.KernelIdeal.PayValue

end
-- ==== Proof.PayLin.lean ====
/-
  The block's matrix at a row and a column, over the extended reals: row 32·p + q of the [6400, 16] regrouping is
  point q of pillar p, a matrix product into the zero accumulator is the plain sum over the sixteen channels, and a
  change of float format is the identity — so the entry is the specification's linear map of that point.
-/
import proofs.«173196_j49855980372233_2_alg».proof.Proof.FeatsAug
import proofs.«173196_j49855980372233_2_alg».proof.Proof.BlockSpec

noncomputable section

namespace Cert.KernelIdeal.PayValue

open Cert.KernelIdeal Cert.KernelIdeal.Gen Cert.Pfn Idealize.ShloMosaic Idealize.ShloMosaic.ValueIdx
open scoped BigOperators

/-- The matrix entry at row `32·p + q`, column `j`. -/
theorem linBlk_apply (v3 : Vec Ideal S200x32x7 .f32) (v4 : Vec Ideal S200x1 .i32) (v6 : Vec Ideal S200x4 .i32)
    (v64 : Vec Ideal S16x64 .f32) (p : Fin 200) (q : Fin 32) (j : Fin 64) (r : Fin 6400) (hr : r.val = 32 * p.val + q.val) :
    linBlk (F := Ideal) v3 v4 v6 v64 (ix2 r j) = blockLin v3 v4 v6 v64 p q j := by
  unfold linBlk blockLin lin
  show FloatOps.matmul dot_S6400x16_S16x64_S6400x64_1_0_0_1_n_n none _ _ (constant (F := Ideal) S6400x64 .f32 0x00000000#32) (ix2 r j) = _
  rw [Ideal.matmul_constant_zero_apply, ← Equiv.sum_comp (contrEquiv1 dot_S6400x16_S16x64_S6400x64_1_0_0_1_n_n 16 rfl rfl).symm]
  refine Finset.sum_congr rfl fun c _ => ?_
  have c2 := contrEquiv1_symm_val dot_S6400x16_S16x64_S6400x64_1_0_0_1_n_n 16 rfl rfl c
  have hl : dot_S6400x16_S16x64_S6400x64_1_0_0_1_n_n.lhsIdx (ix2 r j) ((contrEquiv1 dot_S6400x16_S16x64_S6400x64_1_0_0_1_n_n 16 rfl rfl).symm c) = ix2 r c := by
    funext ax; apply Fin.ext
    match ax with
    | ⟨0, _⟩ => simp [DotDims.lhsIdx, dot_S6400x16_S16x64_S6400x64_1_0_0_1_n_n]; rfl
    | ⟨1, _⟩ => exact (DotDims.lhsIdx_val_of_single dot_S6400x16_S16x64_S6400x64_1_0_0_1_n_n (cl := 1) rfl _ _).trans c2
  have hrr : dot_S6400x16_S16x64_S6400x64_1_0_0_1_n_n.rhsIdx (ix2 r j) ((contrEquiv1 dot_S6400x16_S16x64_S6400x64_1_0_0_1_n_n 16 rfl rfl).symm c) = ix2 c j := by
    funext ax; apply Fin.ext
    match ax with
    | ⟨0, _⟩ => exact (DotDims.rhsIdx_val_of_single dot_S6400x16_S16x64_S6400x64_1_0_0_1_n_n (cr := 0) rfl _ _).trans c2
    | ⟨1, _⟩ => simp [DotDims.rhsIdx, dot_S6400x16_S16x64_S6400x64_1_0_0_1_n_n]; rfl
  rw [hl, hrr]
  refine congrArg₂ (· * ·) ?_ rfl
  refine (shapeCast_apply _ shapeCasts_S200x32x16_S6400x16 (ix2 r c) (ix3 p q c) ?_).trans (featsBlk_apply v3 v4 v6 p q c)
  rw [Shape.rowMajor_val_two, Shape.rowMajor_val_three]
  show (p.val * 32 + q.val) * 16 + c.val = r.val * 16 + c.val
  omega

end Cert.KernelIdeal.PayValue

end
-- ==== Proof.PaySum.lean ====
/-
  The first kernel's row, over the extended reals: the running row plus the sum over the matrix's 6400 rows of one
  column; regrouped by pillar and point, the sum of the block's linear-map outputs (resp. of their squares).
-/
import proofs.«173196_j49855980372233_2_alg».proof.Proof.PayLin

noncomputable section

namespace Cert.KernelIdeal.PayValue

open Cert.KernelIdeal Cert.KernelIdeal.Gen Cert.Pfn Idealize.ShloMosaic Idealize.ShloMosaic.ValueIdx
open scoped BigOperators

/-- A running row plus the column sums of a [6400, 64] matrix, at column `j`. -/
theorem sumRow_apply (y : FVec Ideal S6400x64 .f32) (acc : Vec Ideal S1x64 .f32) (j : Fin 64) :
    sumRow (F := Ideal) y acc (ix2 0 j) = acc (ix2 0 j) + ∑ p : Fin 200, ∑ q : Fin 32,
      y (ix2 (⟨32 * p.val + q.val, by have := p.isLt; have := q.isLt; omega⟩ : Fin 6400) j) := by
  unfold sumRow
  refine congrArg₂ (· + ·) (congrFun (shapeCast_self acc _) _) ?_
  refine (shapeCast_a_1a_apply _ shapeCasts_S64_S1x64 (0 : Fin 1) j).trans ?_
  refine (Ideal.multiReduction_add_single (φ := .f32) y 0x00000000#32 reduces_S6400x64_S64 (.inl rfl) rfl (ix1 j)).trans ?_
  have hl : ∀ k : Fin 6400, reduces_S6400x64_S64.lift (ix1 j) k = ix2 k j := fun k => by
    funext a; apply Fin.ext
    match a with
    | ⟨0, _⟩ => rfl
    | ⟨1, _⟩ => rfl
  show ∑ k : Fin (200 * 32), y (reduces_S6400x64_S64.lift (ix1 j) k) = _
  rw [sum_rows_regroup 200 fun k => y (reduces_S6400x64_S64.lift (ix1 j) k)]
  refine Finset.sum_congr rfl fun p _ => Finset.sum_congr rfl fun q _ => ?_
  exact congrArg y (hl _)

/-- The block's column sum. -/
theorem sumRow_lin (v3 : Vec Ideal S200x32x7 .f32) (v4 : Vec Ideal S200x1 .i32) (v6 : Vec Ideal S200x4 .i32) (v64 : Vec Ideal S16x64 .f32) (acc : Vec Ideal S1x64 .f32) (j : Fin 64) :
    sumRow (F := Ideal) (linBlk (F := Ideal) v3 v4 v6 v64) acc (ix2 0 j) = acc (ix2 0 j) + blockSum1 v3 v4 v6 v64 j := by
  rw [sumRow_apply]
  unfold blockSum1
  refine congrArg (acc (ix2 0 j) + ·) ?_
  refine Finset.sum_congr rfl fun p _ => Finset.sum_congr rfl fun q _ => ?_
  exact linBlk_apply v3 v4 v6 v64 p q j _ rfl

/-- The block's column sum of squares. -/
theorem sumRow_linSq (v3 : Vec Ideal S200x32x7 .f32) (v4 : Vec Ideal S200x1 .i32) (v6 : Vec Ideal S200x4 .i32) (v64 : Vec Ideal S16x64 .f32) (acc : Vec Ideal S1x64 .f32) (j : Fin 64) :
    sumRow (F := Ideal) (mulf (linBlk (F := Ideal) v3 v4 v6 v64) (linBlk (F := Ideal) v3 v4 v6 v64)) acc (ix2 0 j)
      = acc (ix2 0 j) + blockSum2 v3 v4 v6 v64 j := by
  rw [sumRow_apply]
  unfold blockSum2
  refine congrArg (acc (ix2 0 j) + ·) ?_
  refine Finset.sum_congr rfl fun p _ => Finset.sum_congr rfl fun q _ => ?_
  exact congrArg₂ (· * ·) (linBlk_apply v3 v4 v6 v64 p q j _ rfl) (linBlk_apply v3 v4 v6 v64 p q j _ rfl)

end Cert.KernelIdeal.PayValue

end
-- ==== Proof.PayMax.lean ====
/-
  The second kernel's block, over the extended reals: the matrix regrouped by pillar and point, times the scale row
  plus the shift row, clamped below at zero, and the running maximum from −∞ over a pillar's 32 points.
-/
import proofs.«173196_j49855980372233_2_alg».proof.Proof.PayLin

noncomputable section

namespace Cert.KernelIdeal.PayValue

open Cert.KernelIdeal Cert.KernelIdeal.Gen Cert.Pfn Idealize.ShloMosaic Idealize.ShloMosaic.ValueIdx
open scoped BigOperators

/-- A row `[1, 64]` viewed `[1, 1, 64]` and broadcast over `[200, 32, 64]` reads its entry of the column. -/
theorem rowBcast_apply (v : Vec Ideal S1x64 .f32) (p : Fin 200) (q : Fin 32) (j : Fin 64) :
    broadcastTo S200x32x64 (shapeCast S1x1x64 (shapeCast S1x64 v shapeCasts_S1x64_S1x64) shapeCasts_S1x64_S1x1x64)
      broadcasts_S1x1x64_S200x32x64 (ix3 p q j) = v (ix2 0 j) := by
  refine (broadcastTo_11n_abn_apply _ broadcasts_S1x1x64_S200x32x64 p q j).trans ?_
  refine (shapeCast_ab_1ab_apply _ shapeCasts_S1x64_S1x1x64 (0 : Fin 1) (0 : Fin 1) j).trans ?_
  exact congrFun (shapeCast_self v _) _

/-- The scaled, shifted, clamped and row-maximised matrix at pillar `p`, column `j`. -/
theorem maxBlk_apply (y : FVec Ideal S6400x64 .f32) (v66 v69 : Vec Ideal S1x64 .f32) (p : Fin 200) (j : Fin 64) :
    maxBlk (F := Ideal) y v66 v69 (ix2 p j)
      = rowMax fun q => max (y (ix2 (⟨32 * p.val + q.val, by have := p.isLt; have := q.isLt; omega⟩ : Fin 6400) j) * v66 (ix2 0 j)
          + v69 (ix2 0 j)) cZero := by
  unfold maxBlk rowMax
  refine (Ideal.multiReduction_maximumf_single (φ := .f32) _ 0xFF800000#32 reduces_S200x32x64_S200x64 (.inl rfl) rfl (ix2 p j)).trans ?_
  show (Finset.univ : Finset (Fin 32)).fold max cNegInf _ = _
  refine congrArg (fun f => (Finset.univ : Finset (Fin 32)).fold max cNegInf f) (funext fun q => ?_)
  have hl : reduces_S200x32x64_S200x64.lift (ix2 p j) q = ix3 p q j := by
    funext a; apply Fin.ext
    match a with
    | ⟨0, _⟩ => rfl
    | ⟨1, _⟩ => rfl
    | ⟨2, _⟩ => rfl
  show maximumf _ _ (reduces_S200x32x64_S200x64.lift (ix2 p j) q) = _
  rw [hl]
  refine congrArg₂ max ?_ rfl
  refine congrArg₂ (· + ·) (congrArg₂ (· * ·) ?_ (rowBcast_apply v66 p q j)) (rowBcast_apply v69 p q j)
  refine shapeCast_apply _ shapeCasts_S6400x64_S200x32x64 (ix3 p q j) (ix2 _ j) ?_
  rw [Shape.rowMajor_val_two, Shape.rowMajor_val_three]
  show (32 * p.val + q.val) * 64 + j.val = (p.val * 32 + q.val) * 64 + j.val
  omega

/-- A pillar's row of the result. -/
theorem maxBlk_lin (v3 : Vec Ideal S200x32x7 .f32) (v4 : Vec Ideal S200x1 .i32) (v6 : Vec Ideal S200x4 .i32) (v64 : Vec Ideal S16x64 .f32) (v66 v69 : Vec Ideal S1x64 .f32) (p : Fin 200) (j : Fin 64) :
    maxBlk (F := Ideal) (linBlk (F := Ideal) v3 v4 v6 v64) v66 v69 (ix2 p j) = blockOut v3 v4 v6 v64 v66 v69 p j := by
  rw [maxBlk_apply]
  unfold blockOut
  refine congrArg rowMax (funext fun q => ?_)
  refine congrArg₂ max (congrArg₂ (· + ·) (congrArg₂ (· * ·) ?_ rfl) rfl) rfl
  exact linBlk_apply v3 v4 v6 v64 p q j _ rfl

end Cert.KernelIdeal.PayValue

end
-- ==== Proof.PayValue.lean ====
/-
  What the two kernel bodies store, at an index, over the extended reals, against the block specification: the second
  kernel's block is a pillar's row of the result from the given scale and shift; the first kernel's accumulators hold,
  after a point, what they held before plus the block's column sum (resp. column sum of squares) — and at the point
  that first clears them, the sums themselves, the cleared row being the zero word.
-/
import proofs.«173196_j49855980372233_2_alg».proof.Proof.PayPieces
import proofs.«173196_j49855980372233_2_alg».proof.Proof.PaySum
import proofs.«173196_j49855980372233_2_alg».proof.Proof.PayMax

noncomputable section

namespace Cert.KernelIdeal.PayValue

open Cert.KernelIdeal Cert.KernelIdeal.Gen Cert.Pfn Idealize.ShloMosaic Idealize.ShloMosaic.ValueIdx
open scoped BigOperators

/-- The second kernel's block at pillar `p`, column `j`. -/
theorem out1_6_apply (x0 : Vec Ideal S200x32x7 .f32) (x1 : Vec Ideal S200x1 .i32) (x2 : Vec Ideal S200x4 .i32)
    (x3 : Vec Ideal S16x64 .f32) (x4 x5 : Vec Ideal S1x64 .f32) (p : Fin 200) (j : Fin 64) :
    out1_6 (F := Ideal) x0 x1 x2 x3 x4 x5 (ix2 p j) = blockOut x0 x1 x2 x3 x4 x5 p j :=
  (congrFun (out1_6_eq x0 x1 x2 x3 x4 x5) (ix2 p j)).trans (maxBlk_lin x0 x1 x2 x3 x4 x5 p j)

/-- The zero row at a column is the extended real zero. -/
theorem zeroRow_apply (j : Fin 64) : zeroRow (F := Ideal) (ix2 0 j) = 0 := Ideal.ofBits_zero_f32

/-- The sum accumulator after the point that clears it. -/
theorem out0_A_4_apply (c : Dev nD) (i : grid0.Coords) (arg1 : Memref sig .tc .vmem S200x32x7 .f32) (harg1 : arg1.IsWhole) (arg2 : Memref sig .tc .vmem S200x1 .i32) (harg2 : arg2.IsWhole) (arg3 : Memref sig .tc .vmem S200x4 .i32) (harg3 : arg3.IsWhole) (arg4 : Memref sig .tc .vmem S16x64 .f32) (harg4 : arg4.IsWhole) (arg5 : Memref sig .tc .vmem S1x64 .f32) (harg5 : arg5.IsWhole) (arg6 : Memref sig .tc .vmem S1x64 .f32) (harg6 : arg6.IsWhole) (hc0 : cond0_0 i)
    (x0 : Vec Ideal S200x32x7 .f32) (x1 : Vec Ideal S200x1 .i32) (x2 : Vec Ideal S200x4 .i32) (x3 : Vec Ideal S16x64 .f32) (j : Fin 64) :
    out0_A_4 (F := Ideal) c i arg1 harg1 arg2 harg2 arg3 harg3 arg4 harg4 arg5 harg5 arg6 harg6 hc0 x0 x1 x2 x3 (ix2 0 j) = blockSum1 x0 x1 x2 x3 j := by
  refine (congrFun (out0_A_4_eq c i arg1 harg1 arg2 harg2 arg3 harg3 arg4 harg4 arg5 harg5 arg6 harg6 hc0 x0 x1 x2 x3) (ix2 0 j)).trans ?_
  rw [sumRow_lin, zeroRow_apply, zero_add]

/-- The sum-of-squares accumulator after the point that clears it. -/
theorem out0_A_5_apply (c : Dev nD) (i : grid0.Coords) (arg1 : Memref sig .tc .vmem S200x32x7 .f32) (harg1 : arg1.IsWhole) (arg2 : Memref sig .tc .vmem S200x1 .i32) (harg2 : arg2.IsWhole) (arg3 : Memref sig .tc .vmem S200x4 .i32) (harg3 : arg3.IsWhole) (arg4 : Memref sig .tc .vmem S16x64 .f32) (harg4 : arg4.IsWhole) (arg5 : Memref sig .tc .vmem S1x64 .f32) (harg5 : arg5.IsWhole) (arg6 : Memref sig .tc .vmem S1x64 .f32) (harg6 : arg6.IsWhole) (hc0 : cond0_0 i)
    (x0 : Vec Ideal S200x32x7 .f32) (x1 : Vec Ideal S200x1 .i32) (x2 : Vec Ideal S200x4 .i32) (x3 : Vec Ideal S16x64 .f32) (j : Fin 64) :
    out0_A_5 (F := Ideal) c i arg1 harg1 arg2 harg2 arg3 harg3 arg4 harg4 arg5 harg5 arg6 harg6 hc0 x0 x1 x2 x3 (ix2 0 j) = blockSum2 x0 x1 x2 x3 j := by
  refine (congrFun (out0_A_5_eq c i arg1 harg1 arg2 harg2 arg3 harg3 arg4 harg4 arg5 harg5 arg6 harg6 hc0 x0 x1 x2 x3) (ix2 0 j)).trans ?_
  rw [sumRow_linSq, zeroRow_apply, zero_add]

/-- The sum accumulator after any other point. -/
theorem out0_B_4_apply (c : Dev nD) (i : grid0.Coords) (arg1 : Memref sig .tc .vmem S200x32x7 .f32) (harg1 : arg1.IsWhole) (arg2 : Memref sig .tc .vmem S200x1 .i32) (harg2 : arg2.IsWhole) (arg3 : Memref sig .tc .vmem S200x4 .i32) (harg3 : arg3.IsWhole) (arg4 : Memref sig .tc .vmem S16x64 .f32) (harg4 : arg4.IsWhole) (arg5 : Memref sig .tc .vmem S1x64 .f32) (harg5 : arg5.IsWhole) (arg6 : Memref sig .tc .vmem S1x64 .f32) (harg6 : arg6.IsWhole) (hc0 : ¬cond0_0 i)
    (x0 : Vec Ideal S200x32x7 .f32) (x1 : Vec Ideal S200x1 .i32) (x2 : Vec Ideal S200x4 .i32) (x3 : Vec Ideal S16x64 .f32)
    (xo4 xo5 : Vec Ideal S1x64 .f32) (j : Fin 64) :
    out0_B_4 (F := Ideal) c i arg1 harg1 arg2 harg2 arg3 harg3 arg4 harg4 arg5 harg5 arg6 harg6 hc0 x0 x1 x2 x3 xo4 xo5 (ix2 0 j) = xo4 (ix2 0 j) + blockSum1 x0 x1 x2 x3 j :=
  (congrFun (out0_B_4_eq c i arg1 harg1 arg2 harg2 arg3 harg3 arg4 harg4 arg5 harg5 arg6 harg6 hc0 x0 x1 x2 x3 xo4 xo5) (ix2 0 j)).trans (sumRow_lin x0 x1 x2 x3 xo4 j)

/-- The sum-of-squares accumulator after any other point. -/
theorem out0_B_5_apply (c : Dev nD) (i : grid0.Coords) (arg1 : Memref sig .tc .vmem S200x32x7 .f32) (harg1 : arg1.IsWhole) (arg2 : Memref sig .tc .vmem S200x1 .i32) (harg2 : arg2.IsWhole) (arg3 : Memref sig .tc .vmem S200x4 .i32) (harg3 : arg3.IsWhole) (arg4 : Memref sig .tc .vmem S16x64 .f32) (harg4 : arg4.IsWhole) (arg5 : Memref sig .tc .vmem S1x64 .f32) (harg5 : arg5.IsWhole) (arg6 : Memref sig .tc .vmem S1x64 .f32) (harg6 : arg6.IsWhole) (hc0 : ¬cond0_0 i)
    (x0 : Vec Ideal S200x32x7 .f32) (x1 : Vec Ideal S200x1 .i32) (x2 : Vec Ideal S200x4 .i32) (x3 : Vec Ideal S16x64 .f32)
    (xo4 xo5 : Vec Ideal S1x64 .f32) (j : Fin 64) :
    out0_B_5 (F := Ideal) c i arg1 harg1 arg2 harg2 arg3 harg3 arg4 harg4 arg5 harg5 arg6 harg6 hc0 x0 x1 x2 x3 xo4 xo5 (ix2 0 j) = xo5 (ix2 0 j) + blockSum2 x0 x1 x2 x3 j :=
  (congrFun (out0_B_5_eq c i arg1 harg1 arg2 harg2 arg3 harg3 arg4 harg4 arg5 harg5 arg6 harg6 hc0 x0 x1 x2 x3 xo4 xo5) (ix2 0 j)).trans (sumRow_linSq x0 x1 x2 x3 xo5 j)

end Cert.KernelIdeal.PayValue

end
-- ==== Proof.KerValue.lean ====
/-
  The idealized kernel program's result, as one function of its six argument arrays.

  The result array after the run is what region 1 leaves (`final6`) from the arrays it finds: the four input arrays
  are the launch contents (the counts reshaped to a column), and the scale and shift rows are the host's terms of
  region 0's two outputs, which are the sums over all pillars and points of the linear map's output and of its
  squares (`stats1`, `stats2`, the grid sums re-indexed by pillar). Index by index that is the folded arrangement
  `Cert.Pfn.outFold` of the specification, with the divisor clamped to at least one.
-/
import proofs.«173196_j49855980372233_2_alg».proof.Proof.KerRun
import proofs.«173196_j49855980372233_2_alg».proof.Proof.KerEntry
import proofs.«173196_j49855980372233_2_alg».proof.Proof.KerStats
import proofs.«173196_j49855980372233_2_alg».proof.Proof.KerIn0
import proofs.«173196_j49855980372233_2_alg».proof.Proof.KerOut
import proofs.«173196_j49855980372233_2_alg».proof.Proof.PayValue
import proofs.«173196_j49855980372233_2_alg».proof.Proof.YArr

set_option maxRecDepth 16384

noncomputable section

open scoped BigOperators

namespace Cert.KernelIdeal.KerValue

open Cert.KernelIdeal Cert.KernelIdeal.Gen Cert.Pfn
open Idealize.ShloMosaic Idealize.ShloMosaic.TcCoe Idealize.ShloMosaic.Tactic Idealize.SL.Sem
open Idealize.ShloMosaic.ValueIdx
open Idealize.ShloMosaic.Pipeline (Dat)

/-- What the two kernel bodies store, from the payload modules. -/
theorem payFacts : PayFacts :=
  ⟨Cert.KernelIdeal.PayValue.out0_A_4_apply, Cert.KernelIdeal.PayValue.out0_A_5_apply,
   Cert.KernelIdeal.PayValue.out0_B_4_apply, Cert.KernelIdeal.PayValue.out0_B_5_apply,
   Cert.KernelIdeal.PayValue.out1_6_apply⟩

variable (m : (ℓ : Loc nD τ sig) → Buf (Elt Ideal) ℓ) (ρ : Dev nD → PrngReg)

/-- The linear map's output from the launch arrays, with the clamped divisor. -/
abbrev yK (c : Dev nD) : Fin 40000 → Fin 32 → Fin 64 → EReal :=
  Y dClamp (m ((c : Thread nD τ).loc main_arg0)) (m ((c : Thread nD τ).loc main_arg1)) (m ((c : Thread nD τ).loc main_arg2)) (m ((c : Thread nD τ).loc main_arg3))

theorem Y_V1 (c : Dev nD) :
    Yarr (V1 m ρ c main_arg0) (V1 m ρ c main_v0) (V1 m ρ c main_arg2) (V1 m ρ c main_arg3) = yK m c := by
  rw [V1_arg0, V1_v0, V1_arg2, V1_arg3]
  exact Yarr_reshape _ _ _ _ _
theorem Y_V3 (c : Dev nD) : Y1 (V3 m ρ) c = yK m c := by
  show Yarr (V3 m ρ c main_arg0) (V3 m ρ c main_v0) (V3 m ρ c main_arg2) (V3 m ρ c main_arg3) = _
  rw [V3_arg0, V3_v0, V3_arg2, V3_arg3]
  exact Yarr_reshape _ _ _ _ _

theorem s1_eq (c : Dev nD) (j : Fin 64) :
    ((dat0 (V1 m ρ) c).arrAt 4 cfg0.N : S1x64.Idx → EReal) (ix2 0 j) = S1 (yK m c) j := by
  rw [stats1 (V1 m ρ) payFacts c j, gridSum1 (V1 m ρ) c j, Y_V1 m ρ c]
theorem s2_eq (c : Dev nD) (j : Fin 64) :
    ((dat0 (V1 m ρ) c).arrAt 5 cfg0.N : S1x64.Idx → EReal) (ix2 0 j) = S2 (yK m c) j := by
  rw [stats2 (V1 m ρ) payFacts c j, gridSum2 (V1 m ρ) c j, Y_V1 m ρ c]

theorem scale_eq (c : Dev nD) (j : Fin 64) :
    (V3 m ρ c main_v16 : S1x64.Idx → EReal) (ix2 0 j) = scaleFold (yK m c) (m ((c : Thread nD τ).loc main_arg4)) j := by
  rw [V3_v16 m ρ c, scaleT_apply, s1_eq m ρ c j, s2_eq m ρ c j]
  rfl
theorem shift_eq (c : Dev nD) (j : Fin 64) :
    (V3 m ρ c main_v20 : S1x64.Idx → EReal) (ix2 0 j)
      = shiftFold (yK m c) (m ((c : Thread nD τ).loc main_arg4)) (m ((c : Thread nD τ).loc main_arg5)) j := by
  rw [V3_v20 m ρ c, shiftT_apply, s1_eq m ρ c j, s2_eq m ρ c j]
  rfl

/-- The result array after region 1 is the specification's folded arrangement of the launch arrays. -/
theorem G6_V3 (c : Dev nD) : G6 (V3 m ρ) c
    = outFold (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  funext i
  obtain ⟨n, j, rfl⟩ : ∃ (n : Fin 40000) (j : Fin 64), i = ix2 n j := ⟨i 0, i 1, eq_ix2 i⟩
  show rowMax (fun q => max (Y1 (V3 m ρ) c n q j * (V3 m ρ c main_v16 : S1x64.Idx → EReal) (ix2 0 j) + (V3 m ρ c main_v20 : S1x64.Idx → EReal) (ix2 0 j)) cZero)
    = rowMax (fun q => actFold (yK m c) (m ((c : Thread nD τ).loc main_arg4)) (m ((c : Thread nD τ).loc main_arg5)) n q j)
  rw [Y_V3 m ρ c, scale_eq m ρ c j, shift_eq m ρ c j]
  rfl

/-- The run: the result at the folded arrangement, the arguments unchanged. -/
theorem run : θ_run defs (onTc (τ := τ) (main (F := Ideal))) ⟨m, fun _ => 0, ρ⟩ (fun r => ∀ c : Dev nD,
      r.2.mem ((c.tc : Thread nD τ).loc main_v21)
        = outFold (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨(h c).1.trans ((W4_arr m ρ c 6).trans ((final6 (V3 m ρ) payFacts c).trans (G6_V3 m ρ c))), (h c).2⟩)
    (run_W4 m ρ)

end Cert.KernelIdeal.KerValue

end
-- ==== Proof.RefOps.lean ====
/-
  The reference program's @main as a list of its host operations — the three called functions' operations
  listed in place at their call sites, over the calls' buffer records — in two lines, one per printed window,
  and the second line also cut into the four groups whose values are read separately.
-/
import proofs.«173196_j49855980372233_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The first window's 60 operations, in order: up to the augmented channels and the mask's comparison. -/
abbrev opsA : List (HloOp τ sig (Elt F)) :=
  [
    unary main_arg1 main_v0 (sitofp .f32 : (⟨S40000, .i32⟩ : BufTy).Contents (Elt F) → (⟨S40000, .f32⟩ : BufTy).Contents (Elt F)),
    unary main_v0 main_v1 (broadcastInDim S40000x1x1 ![0] bcast_S40000_S40000x1x1_0 : (⟨S40000, .f32⟩ : BufTy).Contents (Elt F) → (⟨S40000x1x1, .f32⟩ : BufTy).Contents (Elt F)),
    unary main_arg0 main_v2 ((extractStridedSlice S40000x32x3 ![0, 0, 0] · slices_S40000x32x7_S40000x32x3_0_0_0) : (⟨S40000x32x7, .f32⟩ : BufTy).Contents (Elt F) → (⟨S40000x32x3, .f32⟩ : BufTy).Contents (Elt F)),
    nullary main_cst (constant S_ .f32 0x00000000#32),
    binary main_v2 main_cst main_v3 ((fun x v => Host.reduceAdd x v reducesTo_S40000x32x3_S40000x3_d1 h_S_) : (⟨S40000x32x3, .f32⟩ : BufTy).Contents (Elt F) → (⟨S_, .f32⟩ : BufTy).Contents (Elt F) → (⟨S40000x3, .f32⟩ : BufTy).Contents (Elt F)),
    unary main_v3 main_v4 (broadcastInDim S40000x1x3 ![0, 2] bcast_S40000x3_S40000x1x3_0_2 : (⟨S40000x3, .f32⟩ : BufTy).Contents (Elt F) → (⟨S40000x1x3, .f32⟩ : BufTy).Contents (Elt F)),
    unary main_v1 main_v5 (broadcastInDim S40000x1x3 ![0, 1, 2] bcast_S40000x1x1_S40000x1x3_0_1_2 : (⟨S40000x1x1, .f32⟩ : BufTy).Contents (Elt F) → (⟨S40000x1x3, .f32⟩ : BufTy).Contents (Elt F)),
    binary main_v4 main_v5 main_v6 (Host.divf : (⟨S40000x1x3, .f32⟩ : BufTy).Contents (Elt F) → (⟨S40000x1x3, .f32⟩ : BufTy).Contents (Elt F) → (⟨S40000x1x3, .f32⟩ : BufTy).Contents (Elt F)),
    unary main_arg0 main_v7 ((extractStridedSlice S40000x32x3 ![0, 0, 0] · slices_S40000x32x7_S40000x32x3_0_0_0) : (⟨S40000x32x7, .f32⟩ : BufTy).Contents (Elt F) → (⟨S40000x32x3, .f32⟩ : BufTy).Contents (Elt F)),
    unary main_v6 main_v8 (broadcastInDim S40000x32x3 ![0, 1, 2] bcast_S40000x1x3_S40000x32x3_0_1_2 : (⟨S40000x1x3, .f32⟩ : BufTy).Contents (Elt F) → (⟨S40000x32x3, .f32⟩ : BufTy).Contents (Elt F)),
    binary main_v7 main_v8 main_v9 (subf : (⟨S40000x32x3, .f32⟩ : BufTy).Contents (Elt F) → (⟨S40000x32x3, .f32⟩ : BufTy).Contents (Elt F) → (⟨S40000x32x3, .f32⟩ : BufTy).Contents (Elt F)),
    unary main_arg2 main_v10 ((extractStridedSlice S40000x1 ![0, 3] · slices_S40000x4_S40000x1_0_3) : (⟨S40000x4, .i32⟩ : BufTy).Contents (Elt F) → (⟨S40000x1, .i32⟩ : BufTy).Contents (Elt F)),
    reshape main_v10 main_v11 rfl shapeCasts_S40000x1_S40000,
    unary main_v11 main_v12 (sitofp .f32 : (⟨S40000, .i32⟩ : BufTy).Contents (Elt F) → (⟨S40000, .f32⟩ : BufTy).Contents (Elt F)),
    unary main_v12 main_v13 (broadcastInDim S40000x1 ![0] bcast_S40000_S40000x1_0 : (⟨S40000, .f32⟩ : BufTy).Contents (Elt F) → (⟨S40000x1, .f32⟩ : BufTy).Contents (Elt F)),
    nullary main_cst_0 (constant S_ .f32 0x3E4CCCCD#32),
    unary main_cst_0 main_v14 (broadcastInDim S40000x1 ![] bcast_S_S40000x1 : (⟨S_, .f32⟩ : BufTy).Contents (Elt F) → (⟨S40000x1, .f32⟩ : BufTy).Contents (Elt F)),
    binary main_v13 main_v14 main_v15 (mulf : (⟨S40000x1, .f32⟩ : BufTy).Contents (Elt F) → (⟨S40000x1, .f32⟩ : BufTy).Contents (Elt F) → (⟨S40000x1, .f32⟩ : BufTy).Contents (Elt F)),
    nullary main_cst_1 (constant S_ .f32 0x3DCCCCCD#32),
    unary main_cst_1 main_v16 (broadcastInDim S40000x1 ![] bcast_S_S40000x1 : (⟨S_, .f32⟩ : BufTy).Contents (Elt F) → (⟨S40000x1, .f32⟩ : BufTy).Contents (Elt F)),
    binary main_v15 main_v16 main_v17 (addf : (⟨S40000x1, .f32⟩ : BufTy).Contents (Elt F) → (⟨S40000x1, .f32⟩ : BufTy).Contents (Elt F) → (⟨S40000x1, .f32⟩ : BufTy).Contents (Elt F)),
    unary main_arg2 main_v18 ((extractStridedSlice S40000x1 ![0, 2] · slices_S40000x4_S40000x1_0_2) : (⟨S40000x4, .i32⟩ : BufTy).Contents (Elt F) → (⟨S40000x1, .i32⟩ : BufTy).Contents (Elt F)),
    reshape main_v18 main_v19 rfl shapeCasts_S40000x1_S40000,
    unary main_v19 main_v20 (sitofp .f32 : (⟨S40000, .i32⟩ : BufTy).Contents (Elt F) → (⟨S40000, .f32⟩ : BufTy).Contents (Elt F)),
    unary main_v20 main_v21 (broadcastInDim S40000x1 ![0] bcast_S40000_S40000x1_0 : (⟨S40000, .f32⟩ : BufTy).Contents (Elt F) → (⟨S40000x1, .f32⟩ : BufTy).Contents (Elt F)),
    nullary main_cst_2 (constant S_ .f32 0x3E4CCCCD#32),
    unary main_cst_2 main_v22 (broadcastInDim S40000x1 ![] bcast_S_S40000x1 : (⟨S_, .f32⟩ : BufTy).Contents (Elt F) → (⟨S40000x1, .f32⟩ : BufTy).Contents (Elt F)),
    binary main_v21 main_v22 main_v23 (mulf : (⟨S40000x1, .f32⟩ : BufTy).Contents (Elt F) → (⟨S40000x1, .f32⟩ : BufTy).Contents (Elt F) → (⟨S40000x1, .f32⟩ : BufTy).Contents (Elt F)),
    nullary main_cst_3 (constant S_ .f32 0xC21F999A#32),
    unary main_cst_3 main_v24 (broadcastInDim S40000x1 ![] bcast_S_S40000x1 : (⟨S_, .f32⟩ : BufTy).Contents (Elt F) → (⟨S40000x1, .f32⟩ : BufTy).Contents (Elt F)),
    binary main_v23 main_v24 main_v25 (addf : (⟨S40000x1, .f32⟩ : BufTy).Contents (Elt F) → (⟨S40000x1, .f32⟩ : BufTy).Contents (Elt F) → (⟨S40000x1, .f32⟩ : BufTy).Contents (Elt F)),
    unary main_arg0 main_v26 ((extractStridedSlice S40000x32x1 ![0, 0, 0] · slices_S40000x32x7_S40000x32x1_0_0_0) : (⟨S40000x32x7, .f32⟩ : BufTy).Contents (Elt F) → (⟨S40000x32x1, .f32⟩ : BufTy).Contents (Elt F)),
    reshape main_v26 main_v27 rfl shapeCasts_S40000x32x1_S40000x32,
    unary main_v17 main_v28 (broadcastInDim S40000x32 ![0, 1] bcast_S40000x1_S40000x32_0_1 : (⟨S40000x1, .f32⟩ : BufTy).Contents (Elt F) → (⟨S40000x32, .f32⟩ : BufTy).Contents (Elt F)),
    binary main_v27 main_v28 main_v29 (subf : (⟨S40000x32, .f32⟩ : BufTy).Contents (Elt F) → (⟨S40000x32, .f32⟩ : BufTy).Contents (Elt F) → (⟨S40000x32, .f32⟩ : BufTy).Contents (Elt F)),
    unary main_arg0 main_v30 ((extractStridedSlice S40000x32x1 ![0, 0, 1] · slices_S40000x32x7_S40000x32x1_0_0_1) : (⟨S40000x32x7, .f32⟩ : BufTy).Contents (Elt F) → (⟨S40000x32x1, .f32⟩ : BufTy).Contents (Elt F)),
    reshape main_v30 main_v31 rfl shapeCasts_S40000x32x1_S40000x32,
    unary main_v25 main_v32 (broadcastInDim S40000x32 ![0, 1] bcast_S40000x1_S40000x32_0_1 : (⟨S40000x1, .f32⟩ : BufTy).Contents (Elt F) → (⟨S40000x32, .f32⟩ : BufTy).Contents (Elt F)),
    binary main_v31 main_v32 main_v33 (subf : (⟨S40000x32, .f32⟩ : BufTy).Contents (Elt F) → (⟨S40000x32, .f32⟩ : BufTy).Contents (Elt F) → (⟨S40000x32, .f32⟩ : BufTy).Contents (Elt F)),
    unary main_v29 main_v34 (broadcastInDim S40000x32x1 ![0, 1] bcast_S40000x32_S40000x32x1_0_1 : (⟨S40000x32, .f32⟩ : BufTy).Contents (Elt F) → (⟨S40000x32x1, .f32⟩ : BufTy).Contents (Elt F)),
    unary main_v33 main_v35 (broadcastInDim S40000x32x1 ![0, 1] bcast_S40000x32_S40000x32x1_0_1 : (⟨S40000x32, .f32⟩ : BufTy).Contents (Elt F) → (⟨S40000x32x1, .f32⟩ : BufTy).Contents (Elt F)),
    binary main_v34 main_v35 main_v36 ((fun a b => concatenate S40000x32x2 2 [⟨S40000x32x1, a⟩, ⟨S40000x32x1, b⟩] concatenates_S40000x32x1_S40000x32x1_S40000x32x2_d2) : (⟨S40000x32x1, .f32⟩ : BufTy).Contents (Elt F) → (⟨S40000x32x1, .f32⟩ : BufTy).Contents (Elt F) → (⟨S40000x32x2, .f32⟩ : BufTy).Contents (Elt F)),
    unary main_arg0 main_v37 ((extractStridedSlice S40000x32x4 ![0, 0, 3] · slices_S40000x32x7_S40000x32x4_0_0_3) : (⟨S40000x32x7, .f32⟩ : BufTy).Contents (Elt F) → (⟨S40000x32x4, .f32⟩ : BufTy).Contents (Elt F)),
    nullary main_cst_4 (constant S_ .f32 0x00000000#32),
    binary main_v37 main_cst_4 main_v38 ((fun x v => Host.reduceAdd x v reducesTo_S40000x32x4_S40000x4_d1 h_S_) : (⟨S40000x32x4, .f32⟩ : BufTy).Contents (Elt F) → (⟨S_, .f32⟩ : BufTy).Contents (Elt F) → (⟨S40000x4, .f32⟩ : BufTy).Contents (Elt F)),
    unary main_v38 main_v39 (broadcastInDim S40000x1x4 ![0, 2] bcast_S40000x4_S40000x1x4_0_2 : (⟨S40000x4, .f32⟩ : BufTy).Contents (Elt F) → (⟨S40000x1x4, .f32⟩ : BufTy).Contents (Elt F)),
    unary main_v1 main_v40 (broadcastInDim S40000x1x4 ![0, 1, 2] bcast_S40000x1x1_S40000x1x4_0_1_2 : (⟨S40000x1x1, .f32⟩ : BufTy).Contents (Elt F) → (⟨S40000x1x4, .f32⟩ : BufTy).Contents (Elt F)),
    binary main_v39 main_v40 main_v41 (Host.divf : (⟨S40000x1x4, .f32⟩ : BufTy).Contents (Elt F) → (⟨S40000x1x4, .f32⟩ : BufTy).Contents (Elt F) → (⟨S40000x1x4, .f32⟩ : BufTy).Contents (Elt F)),
    unary main_arg0 main_v42 ((extractStridedSlice S40000x32x4 ![0, 0, 3] · slices_S40000x32x7_S40000x32x4_0_0_3) : (⟨S40000x32x7, .f32⟩ : BufTy).Contents (Elt F) → (⟨S40000x32x4, .f32⟩ : BufTy).Contents (Elt F)),
    unary main_v41 main_v43 (broadcastInDim S40000x32x4 ![0, 1, 2] bcast_S40000x1x4_S40000x32x4_0_1_2 : (⟨S40000x1x4, .f32⟩ : BufTy).Contents (Elt F) → (⟨S40000x32x4, .f32⟩ : BufTy).Contents (Elt F)),
    binary main_v42 main_v43 main_v44 (subf : (⟨S40000x32x4, .f32⟩ : BufTy).Contents (Elt F) → (⟨S40000x32x4, .f32⟩ : BufTy).Contents (Elt F) → (⟨S40000x32x4, .f32⟩ : BufTy).Contents (Elt F)),
    unary main_arg0 main_v45 ((extractStridedSlice S40000x32x5 ![0, 0, 2] · slices_S40000x32x7_S40000x32x5_0_0_2) : (⟨S40000x32x7, .f32⟩ : BufTy).Contents (Elt F) → (⟨S40000x32x5, .f32⟩ : BufTy).Contents (Elt F)),
    binary main_v36 main_v45 main_v46 ((fun a b => concatenate S40000x32x7 2 [⟨S40000x32x2, a⟩, ⟨S40000x32x5, b⟩] concatenates_S40000x32x2_S40000x32x5_S40000x32x7_d2) : (⟨S40000x32x2, .f32⟩ : BufTy).Contents (Elt F) → (⟨S40000x32x5, .f32⟩ : BufTy).Contents (Elt F) → (⟨S40000x32x7, .f32⟩ : BufTy).Contents (Elt F)),
    nary ![main_v46, main_v9, main_v36, main_v44] main_v47 (fun u => concatenate S40000x32x16 2 [⟨S40000x32x7, u 0⟩, ⟨S40000x32x3, u 1⟩, ⟨S40000x32x2, u 2⟩, ⟨S40000x32x4, u 3⟩] concatenates_S40000x32x7_S40000x32x3_S40000x32x2_S40000x32x4_S40000x32x16_d2),
    nullary main_v48 (iotaInDim S32 32 0),
    unary main_v48 main_v49 (broadcastInDim S1x32 ![1] bcast_S32_S1x32_1 : (⟨S32, .i32⟩ : BufTy).Contents (Elt F) → (⟨S1x32, .i32⟩ : BufTy).Contents (Elt F)),
    unary main_arg1 main_v50 (broadcastInDim S40000x1 ![0] bcast_S40000_S40000x1_0 : (⟨S40000, .i32⟩ : BufTy).Contents (Elt F) → (⟨S40000x1, .i32⟩ : BufTy).Contents (Elt F)),
    unary main_v49 main_v51 (broadcastInDim S40000x32 ![0, 1] bcast_S1x32_S40000x32_0_1 : (⟨S1x32, .i32⟩ : BufTy).Contents (Elt F) → (⟨S40000x32, .i32⟩ : BufTy).Contents (Elt F)),
    unary main_v50 main_v52 (broadcastInDim S40000x32 ![0, 1] bcast_S40000x1_S40000x32_0_1 : (⟨S40000x1, .i32⟩ : BufTy).Contents (Elt F) → (⟨S40000x32, .i32⟩ : BufTy).Contents (Elt F)),
    binary main_v51 main_v52 main_v53 (cmpi .slt : (⟨S40000x32, .i32⟩ : BufTy).Contents (Elt F) → (⟨S40000x32, .i32⟩ : BufTy).Contents (Elt F) → (⟨S40000x32, .i1⟩ : BufTy).Contents (Elt F)) ]

/-- The masked channels and the linear map. -/
abbrev opsB : List (HloOp τ sig (Elt F)) :=
  [
    unary main_v53 main_v54 (uitofp .f32 : (⟨S40000x32, .i1⟩ : BufTy).Contents (Elt F) → (⟨S40000x32, .f32⟩ : BufTy).Contents (Elt F)),
    unary main_v54 main_v55 (broadcastInDim S40000x32x1 ![0, 1] bcast_S40000x32_S40000x32x1_0_1 : (⟨S40000x32, .f32⟩ : BufTy).Contents (Elt F) → (⟨S40000x32x1, .f32⟩ : BufTy).Contents (Elt F)),
    unary main_v55 main_v56 (broadcastInDim S40000x32x16 ![0, 1, 2] bcast_S40000x32x1_S40000x32x16_0_1_2 : (⟨S40000x32x1, .f32⟩ : BufTy).Contents (Elt F) → (⟨S40000x32x16, .f32⟩ : BufTy).Contents (Elt F)),
    binary main_v47 main_v56 main_v57 (mulf : (⟨S40000x32x16, .f32⟩ : BufTy).Contents (Elt F) → (⟨S40000x32x16, .f32⟩ : BufTy).Contents (Elt F) → (⟨S40000x32x16, .f32⟩ : BufTy).Contents (Elt F)),
    binary main_v57 main_arg3 main_v58 ((fun l r => Host.dotGeneral dot_S40000x32x16_S16x64_S40000x32x64_2_0_01_1_n_n none l r) : (⟨S40000x32x16, .f32⟩ : BufTy).Contents (Elt F) → (⟨S16x64, .f32⟩ : BufTy).Contents (Elt F) → (⟨S40000x32x64, .f32⟩ : BufTy).Contents (Elt F)) ]

/-- The per-channel mean. -/
abbrev opsC : List (HloOp τ sig (Elt F)) :=
  [
    nullary main_cst_5 (constant S_ .f32 0x00000000#32),
    binary main_v58 main_cst_5 main_v59 ((fun x v => Host.reduceAdd x v reducesTo_S40000x32x64_S64_d0_1 h_S_) : (⟨S40000x32x64, .f32⟩ : BufTy).Contents (Elt F) → (⟨S_, .f32⟩ : BufTy).Contents (Elt F) → (⟨S64, .f32⟩ : BufTy).Contents (Elt F)),
    nullary main_cst_6 (constant S_ .f32 0x499C4000#32),
    unary main_cst_6 main_v60 (broadcastInDim S64 ![] bcast_S_S64 : (⟨S_, .f32⟩ : BufTy).Contents (Elt F) → (⟨S64, .f32⟩ : BufTy).Contents (Elt F)),
    binary main_v59 main_v60 main_v61 (Host.divf : (⟨S64, .f32⟩ : BufTy).Contents (Elt F) → (⟨S64, .f32⟩ : BufTy).Contents (Elt F) → (⟨S64, .f32⟩ : BufTy).Contents (Elt F)) ]

/-- The per-channel variance: the outlined function's operations and, inside it, the select's. -/
abbrev opsD : List (HloOp τ sig (Elt F)) :=
  [
    nullary main_c (constantI S_ 32 0#32),
    TRef.nullary main_call0.cst (constant S_ .f32 0x00000000#32),
    TRef.binary (.of main_v58) main_call0.cst main_call0.v0 (fun x v => Host.reduceAdd x v reducesTo_S40000x32x64_S64_d0_1 h_S_),
    TRef.unary main_call0.v0 main_call0.v1 (broadcastInDim S1x1x64 ![2] bcast_S64_S1x1x64_2),
    TRef.nullary main_call0.cst_0 (constant S_ .f32 0x499C4000#32),
    TRef.unary main_call0.cst_0 main_call0.v2 (broadcastInDim S1x1x64 ![] bcast_S_S1x1x64),
    TRef.binary main_call0.v1 main_call0.v2 main_call0.v3 Host.divf,
    TRef.unary main_call0.v3 main_call0.v4 (broadcastInDim S40000x32x64 ![0, 1, 2] bcast_S1x1x64_S40000x32x64_0_1_2),
    TRef.binary (.of main_v58) main_call0.v4 main_call0.v5 subf,
    TRef.binary main_call0.v5 main_call0.v5 main_call0.v6 mulf,
    TRef.unary (.of main_c) main_call0.v7 (sitofp .f32),
    TRef.nullary main_call0.cst_1 (constant S_ .f32 0x499C4000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S40000x32x64_S64_d0_1 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b) ]

/-- The normalisation, the clamp and the maximum over a pillar's points. -/
abbrev opsE : List (HloOp τ sig (Elt F)) :=
  [
    unary main_v61 main_v63 (broadcastInDim S1x1x64 ![2] bcast_S64_S1x1x64_2 : (⟨S64, .f32⟩ : BufTy).Contents (Elt F) → (⟨S1x1x64, .f32⟩ : BufTy).Contents (Elt F)),
    unary main_v63 main_v64 (broadcastInDim S40000x32x64 ![0, 1, 2] bcast_S1x1x64_S40000x32x64_0_1_2 : (⟨S1x1x64, .f32⟩ : BufTy).Contents (Elt F) → (⟨S40000x32x64, .f32⟩ : BufTy).Contents (Elt F)),
    binary main_v58 main_v64 main_v65 (subf : (⟨S40000x32x64, .f32⟩ : BufTy).Contents (Elt F) → (⟨S40000x32x64, .f32⟩ : BufTy).Contents (Elt F) → (⟨S40000x32x64, .f32⟩ : BufTy).Contents (Elt F)),
    nullary main_cst_7 (constant S_ .f32 0x3A83126F#32),
    unary main_cst_7 main_v66 (broadcastInDim S64 ![] bcast_S_S64 : (⟨S_, .f32⟩ : BufTy).Contents (Elt F) → (⟨S64, .f32⟩ : BufTy).Contents (Elt F)),
    binary main_v62 main_v66 main_v67 (addf : (⟨S64, .f32⟩ : BufTy).Contents (Elt F) → (⟨S64, .f32⟩ : BufTy).Contents (Elt F) → (⟨S64, .f32⟩ : BufTy).Contents (Elt F)),
    unary main_v67 main_v68 (Host.rsqrt : (⟨S64, .f32⟩ : BufTy).Contents (Elt F) → (⟨S64, .f32⟩ : BufTy).Contents (Elt F)),
    unary main_v68 main_v69 (broadcastInDim S1x1x64 ![2] bcast_S64_S1x1x64_2 : (⟨S64, .f32⟩ : BufTy).Contents (Elt F) → (⟨S1x1x64, .f32⟩ : BufTy).Contents (Elt F)),
    unary main_v69 main_v70 (broadcastInDim S40000x32x64 ![0, 1, 2] bcast_S1x1x64_S40000x32x64_0_1_2 : (⟨S1x1x64, .f32⟩ : BufTy).Contents (Elt F) → (⟨S40000x32x64, .f32⟩ : BufTy).Contents (Elt F)),
    binary main_v65 main_v70 main_v71 (mulf : (⟨S40000x32x64, .f32⟩ : BufTy).Contents (Elt F) → (⟨S40000x32x64, .f32⟩ : BufTy).Contents (Elt F) → (⟨S40000x32x64, .f32⟩ : BufTy).Contents (Elt F)),
    unary main_arg4 main_v72 (broadcastInDim S1x1x64 ![2] bcast_S64_S1x1x64_2 : (⟨S64, .f32⟩ : BufTy).Contents (Elt F) → (⟨S1x1x64, .f32⟩ : BufTy).Contents (Elt F)),
    unary main_v72 main_v73 (broadcastInDim S40000x32x64 ![0, 1, 2] bcast_S1x1x64_S40000x32x64_0_1_2 : (⟨S1x1x64, .f32⟩ : BufTy).Contents (Elt F) → (⟨S40000x32x64, .f32⟩ : BufTy).Contents (Elt F)),
    binary main_v71 main_v73 main_v74 (mulf : (⟨S40000x32x64, .f32⟩ : BufTy).Contents (Elt F) → (⟨S40000x32x64, .f32⟩ : BufTy).Contents (Elt F) → (⟨S40000x32x64, .f32⟩ : BufTy).Contents (Elt F)),
    unary main_arg5 main_v75 (broadcastInDim S1x1x64 ![2] bcast_S64_S1x1x64_2 : (⟨S64, .f32⟩ : BufTy).Contents (Elt F) → (⟨S1x1x64, .f32⟩ : BufTy).Contents (Elt F)),
    unary main_v75 main_v76 (broadcastInDim S40000x32x64 ![0, 1, 2] bcast_S1x1x64_S40000x32x64_0_1_2 : (⟨S1x1x64, .f32⟩ : BufTy).Contents (Elt F) → (⟨S40000x32x64, .f32⟩ : BufTy).Contents (Elt F)),
    binary main_v74 main_v76 main_v77 (addf : (⟨S40000x32x64, .f32⟩ : BufTy).Contents (Elt F) → (⟨S40000x32x64, .f32⟩ : BufTy).Contents (Elt F) → (⟨S40000x32x64, .f32⟩ : BufTy).Contents (Elt F)),
    TRef.nullary main_call1.cst (constant S_ .f32 0x00000000#32),
    TRef.unary main_call1.cst main_call1.v0 (broadcastInDim S40000x32x64 ![] bcast_S_S40000x32x64),
    TRef.binary (.of main_v77) main_call1.v0 main_call1.v1 maximumf,
    nullary main_cst_8 (constant S_ .f32 0xFF800000#32),
    binary main_v78 main_cst_8 main_v79 ((fun x v => Host.reduce FloatOps.maximumf x v reducesTo_S40000x32x64_S40000x64_d1 h_S_) : (⟨S40000x32x64, .f32⟩ : BufTy).Contents (Elt F) → (⟨S_, .f32⟩ : BufTy).Contents (Elt F) → (⟨S40000x64, .f32⟩ : BufTy).Contents (Elt F)) ]

/-- The second window's operations, in order. -/
abbrev ops1 : List (HloOp τ sig (Elt F)) :=
  [
    unary main_v53 main_v54 (uitofp .f32 : (⟨S40000x32, .i1⟩ : BufTy).Contents (Elt F) → (⟨S40000x32, .f32⟩ : BufTy).Contents (Elt F)),
    unary main_v54 main_v55 (broadcastInDim S40000x32x1 ![0, 1] bcast_S40000x32_S40000x32x1_0_1 : (⟨S40000x32, .f32⟩ : BufTy).Contents (Elt F) → (⟨S40000x32x1, .f32⟩ : BufTy).Contents (Elt F)),
    unary main_v55 main_v56 (broadcastInDim S40000x32x16 ![0, 1, 2] bcast_S40000x32x1_S40000x32x16_0_1_2 : (⟨S40000x32x1, .f32⟩ : BufTy).Contents (Elt F) → (⟨S40000x32x16, .f32⟩ : BufTy).Contents (Elt F)),
    binary main_v47 main_v56 main_v57 (mulf : (⟨S40000x32x16, .f32⟩ : BufTy).Contents (Elt F) → (⟨S40000x32x16, .f32⟩ : BufTy).Contents (Elt F) → (⟨S40000x32x16, .f32⟩ : BufTy).Contents (Elt F)),
    binary main_v57 main_arg3 main_v58 ((fun l r => Host.dotGeneral dot_S40000x32x16_S16x64_S40000x32x64_2_0_01_1_n_n none l r) : (⟨S40000x32x16, .f32⟩ : BufTy).Contents (Elt F) → (⟨S16x64, .f32⟩ : BufTy).Contents (Elt F) → (⟨S40000x32x64, .f32⟩ : BufTy).Contents (Elt F)),
    nullary main_cst_5 (constant S_ .f32 0x00000000#32),
    binary main_v58 main_cst_5 main_v59 ((fun x v => Host.reduceAdd x v reducesTo_S40000x32x64_S64_d0_1 h_S_) : (⟨S40000x32x64, .f32⟩ : BufTy).Contents (Elt F) → (⟨S_, .f32⟩ : BufTy).Contents (Elt F) → (⟨S64, .f32⟩ : BufTy).Contents (Elt F)),
    nullary main_cst_6 (constant S_ .f32 0x499C4000#32),
    unary main_cst_6 main_v60 (broadcastInDim S64 ![] bcast_S_S64 : (⟨S_, .f32⟩ : BufTy).Contents (Elt F) → (⟨S64, .f32⟩ : BufTy).Contents (Elt F)),
    binary main_v59 main_v60 main_v61 (Host.divf : (⟨S64, .f32⟩ : BufTy).Contents (Elt F) → (⟨S64, .f32⟩ : BufTy).Contents (Elt F) → (⟨S64, .f32⟩ : BufTy).Contents (Elt F)),
    nullary main_c (constantI S_ 32 0#32),
    TRef.nullary main_call0.cst (constant S_ .f32 0x00000000#32),
    TRef.binary (.of main_v58) main_call0.cst main_call0.v0 (fun x v => Host.reduceAdd x v reducesTo_S40000x32x64_S64_d0_1 h_S_),
    TRef.unary main_call0.v0 main_call0.v1 (broadcastInDim S1x1x64 ![2] bcast_S64_S1x1x64_2),
    TRef.nullary main_call0.cst_0 (constant S_ .f32 0x499C4000#32),
    TRef.unary main_call0.cst_0 main_call0.v2 (broadcastInDim S1x1x64 ![] bcast_S_S1x1x64),
    TRef.binary main_call0.v1 main_call0.v2 main_call0.v3 Host.divf,
    TRef.unary main_call0.v3 main_call0.v4 (broadcastInDim S40000x32x64 ![0, 1, 2] bcast_S1x1x64_S40000x32x64_0_1_2),
    TRef.binary (.of main_v58) main_call0.v4 main_call0.v5 subf,
    TRef.binary main_call0.v5 main_call0.v5 main_call0.v6 mulf,
    TRef.unary (.of main_c) main_call0.v7 (sitofp .f32),
    TRef.nullary main_call0.cst_1 (constant S_ .f32 0x499C4000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S40000x32x64_S64_d0_1 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b),
    unary main_v61 main_v63 (broadcastInDim S1x1x64 ![2] bcast_S64_S1x1x64_2 : (⟨S64, .f32⟩ : BufTy).Contents (Elt F) → (⟨S1x1x64, .f32⟩ : BufTy).Contents (Elt F)),
    unary main_v63 main_v64 (broadcastInDim S40000x32x64 ![0, 1, 2] bcast_S1x1x64_S40000x32x64_0_1_2 : (⟨S1x1x64, .f32⟩ : BufTy).Contents (Elt F) → (⟨S40000x32x64, .f32⟩ : BufTy).Contents (Elt F)),
    binary main_v58 main_v64 main_v65 (subf : (⟨S40000x32x64, .f32⟩ : BufTy).Contents (Elt F) → (⟨S40000x32x64, .f32⟩ : BufTy).Contents (Elt F) → (⟨S40000x32x64, .f32⟩ : BufTy).Contents (Elt F)),
    nullary main_cst_7 (constant S_ .f32 0x3A83126F#32),
    unary main_cst_7 main_v66 (broadcastInDim S64 ![] bcast_S_S64 : (⟨S_, .f32⟩ : BufTy).Contents (Elt F) → (⟨S64, .f32⟩ : BufTy).Contents (Elt F)),
    binary main_v62 main_v66 main_v67 (addf : (⟨S64, .f32⟩ : BufTy).Contents (Elt F) → (⟨S64, .f32⟩ : BufTy).Contents (Elt F) → (⟨S64, .f32⟩ : BufTy).Contents (Elt F)),
    unary main_v67 main_v68 (Host.rsqrt : (⟨S64, .f32⟩ : BufTy).Contents (Elt F) → (⟨S64, .f32⟩ : BufTy).Contents (Elt F)),
    unary main_v68 main_v69 (broadcastInDim S1x1x64 ![2] bcast_S64_S1x1x64_2 : (⟨S64, .f32⟩ : BufTy).Contents (Elt F) → (⟨S1x1x64, .f32⟩ : BufTy).Contents (Elt F)),
    unary main_v69 main_v70 (broadcastInDim S40000x32x64 ![0, 1, 2] bcast_S1x1x64_S40000x32x64_0_1_2 : (⟨S1x1x64, .f32⟩ : BufTy).Contents (Elt F) → (⟨S40000x32x64, .f32⟩ : BufTy).Contents (Elt F)),
    binary main_v65 main_v70 main_v71 (mulf : (⟨S40000x32x64, .f32⟩ : BufTy).Contents (Elt F) → (⟨S40000x32x64, .f32⟩ : BufTy).Contents (Elt F) → (⟨S40000x32x64, .f32⟩ : BufTy).Contents (Elt F)),
    unary main_arg4 main_v72 (broadcastInDim S1x1x64 ![2] bcast_S64_S1x1x64_2 : (⟨S64, .f32⟩ : BufTy).Contents (Elt F) → (⟨S1x1x64, .f32⟩ : BufTy).Contents (Elt F)),
    unary main_v72 main_v73 (broadcastInDim S40000x32x64 ![0, 1, 2] bcast_S1x1x64_S40000x32x64_0_1_2 : (⟨S1x1x64, .f32⟩ : BufTy).Contents (Elt F) → (⟨S40000x32x64, .f32⟩ : BufTy).Contents (Elt F)),
    binary main_v71 main_v73 main_v74 (mulf : (⟨S40000x32x64, .f32⟩ : BufTy).Contents (Elt F) → (⟨S40000x32x64, .f32⟩ : BufTy).Contents (Elt F) → (⟨S40000x32x64, .f32⟩ : BufTy).Contents (Elt F)),
    unary main_arg5 main_v75 (broadcastInDim S1x1x64 ![2] bcast_S64_S1x1x64_2 : (⟨S64, .f32⟩ : BufTy).Contents (Elt F) → (⟨S1x1x64, .f32⟩ : BufTy).Contents (Elt F)),
    unary main_v75 main_v76 (broadcastInDim S40000x32x64 ![0, 1, 2] bcast_S1x1x64_S40000x32x64_0_1_2 : (⟨S1x1x64, .f32⟩ : BufTy).Contents (Elt F) → (⟨S40000x32x64, .f32⟩ : BufTy).Contents (Elt F)),
    binary main_v74 main_v76 main_v77 (addf : (⟨S40000x32x64, .f32⟩ : BufTy).Contents (Elt F) → (⟨S40000x32x64, .f32⟩ : BufTy).Contents (Elt F) → (⟨S40000x32x64, .f32⟩ : BufTy).Contents (Elt F)),
    TRef.nullary main_call1.cst (constant S_ .f32 0x00000000#32),
    TRef.unary main_call1.cst main_call1.v0 (broadcastInDim S40000x32x64 ![] bcast_S_S40000x32x64),
    TRef.binary (.of main_v77) main_call1.v0 main_call1.v1 maximumf,
    nullary main_cst_8 (constant S_ .f32 0xFF800000#32),
    binary main_v78 main_cst_8 main_v79 ((fun x v => Host.reduce FloatOps.maximumf x v reducesTo_S40000x32x64_S40000x64_d1 h_S_) : (⟨S40000x32x64, .f32⟩ : BufTy).Contents (Elt F) → (⟨S_, .f32⟩ : BufTy).Contents (Elt F) → (⟨S40000x64, .f32⟩ : BufTy).Contents (Elt F)) ]

theorem ops1_eq : (ops1 : List (HloOp τ sig (Elt F))) = opsB ++ (opsC ++ (opsD ++ opsE)) := rfl

theorem main_part0_eq (c : Dev nD) : main_part0 (F := F) c = seq opsA := rfl

set_option maxHeartbeats 8000000 in
set_option maxRecDepth 4096 in
/-- The second window is its straight line: the called functions unfolded at their calls, sequencing reassociated. -/
theorem main_part1_eq (c : Dev nD) : main_part1 (F := F) c = seq ops1 := by
  simp only [main_part1, fn_var.body, fn_where.body, fn_relu.body, seq, bind_assoc, pure_bind]

theorem main_eq (c : Dev nD) : main (F := F) c = seq (opsA ++ ops1) := by
  rw [seq_append, ← main_part0_eq c, ← main_part1_eq c]; rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨unary_bufs_sub .., unary_bufs_sub .., unary_bufs_sub .., nullary_bufs_sub .., binary_bufs_sub .., unary_bufs_sub .., unary_bufs_sub .., binary_bufs_sub .., unary_bufs_sub .., unary_bufs_sub .., binary_bufs_sub .., unary_bufs_sub .., reshape_bufs_sub .., unary_bufs_sub .., unary_bufs_sub .., nullary_bufs_sub .., unary_bufs_sub .., binary_bufs_sub .., nullary_bufs_sub .., unary_bufs_sub .., binary_bufs_sub .., unary_bufs_sub .., reshape_bufs_sub .., unary_bufs_sub .., unary_bufs_sub .., nullary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., unary_bufs_sub .., binary_bufs_sub .., unary_bufs_sub .., binary_bufs_sub .., nary_bufs_sub .., nullary_bufs_sub .., unary_bufs_sub .., unary_bufs_sub .., unary_bufs_sub .., unary_bufs_sub .., binary_bufs_sub ..⟩

theorem ops1_sub : (ops1 : List (HloOp τ sig (Elt F))).Forall fun op => op.bufs ⊆ tcRefs τ sig :=
  ⟨unary_bufs_sub .., unary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., binary_bufs_sub ..⟩

theorem ops_sub : (opsA ++ ops1 : List (HloOp τ sig (Elt F))).Forall fun op => op.bufs ⊆ tcRefs τ sig :=
  List.forall_iff_forall_mem.2 fun op h => (List.mem_append.1 h).elim
    (List.forall_iff_forall_mem.1 opsA_sub op) (List.forall_iff_forall_mem.1 ops1_sub op)

theorem opsA_fresh : ∀ op ∈ (opsA : List (HloOp τ sig (Elt F))), op.fresh = ∅ := by
  intro _ h; (repeat (cases h with | head => rfl | tail _ h => ?_)); exact nomatch h

theorem ops1_fresh : ∀ op ∈ (ops1 : List (HloOp τ sig (Elt F))), op.fresh = ∅ := by
  intro _ h; (repeat (cases h with | head => rfl | tail _ h => ?_)); exact nomatch h

/-- Two lines in a row leave what the second leaves of what the first left. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- On every device, from any memory with zero counters: every weakly fair execution of @main terminates with
    each buffer at what the two lines leave of the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after opsE (after opsD (after opsC (after opsB (after opsA (launchContents m c))))) (Proc.devRef .tc b) := by
  have h := run_seq scopedRefs_eq scopedSems_eq defs main (fun _ => opsA ++ ops1) main_eq (fun _ => ops_sub) m ρ
    (fun _ op h => (List.mem_append.1 h).elim (opsA_fresh op) (ops1_fresh op))
  refine (θ_run defs _ _).mono (fun _ h c b => (h c b).trans ?_) h
  rw [after_app, ops1_eq, after_app, after_app, after_app]

end Cert.ReferenceIdeal.RefValue

end
-- ==== Proof.RefStages.lean ====
/-
  The reference program's values, stage by stage, as pure functions of the arrays they are computed from:
  each definition is the composition of the host operations that produce one intermediate array
  (the per-pillar means, the augmented channels, the mask, the linear map's output, the per-channel
  statistics, the normalised and clamped activation and its maximum over a pillar's points).
-/
import proofs.«173196_j49855980372233_2_alg».proof.Proof.Gen.ReferenceIdeal
import Idealize.ShloMosaic.Lib.StableHlo

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The value of `main_v1`. -/
def npf (np : (⟨S40000, .i32⟩ : BufTy).Contents (Elt F)) : (⟨S40000x1x1, .f32⟩ : BufTy).Contents (Elt F) :=
  (broadcastInDim S40000x1x1 ![0] bcast_S40000_S40000x1x1_0 (sitofp .f32 np))

/-- The value of `main_v6`. -/
def mean3 (X : (⟨S40000x32x7, .f32⟩ : BufTy).Contents (Elt F)) (np : (⟨S40000, .i32⟩ : BufTy).Contents (Elt F)) : (⟨S40000x1x3, .f32⟩ : BufTy).Contents (Elt F) :=
  (Host.divf (broadcastInDim S40000x1x3 ![0, 2] bcast_S40000x3_S40000x1x3_0_2 (Host.reduceAdd (extractStridedSlice S40000x32x3 ![0, 0, 0] X slices_S40000x32x7_S40000x32x3_0_0_0) (constant S_ .f32 0x00000000#32) reducesTo_S40000x32x3_S40000x3_d1 h_S_)) (broadcastInDim S40000x1x3 ![0, 1, 2] bcast_S40000x1x1_S40000x1x3_0_1_2 (npf np)))

/-- The value of `main_v9`. -/
def clus (X : (⟨S40000x32x7, .f32⟩ : BufTy).Contents (Elt F)) (np : (⟨S40000, .i32⟩ : BufTy).Contents (Elt F)) : (⟨S40000x32x3, .f32⟩ : BufTy).Contents (Elt F) :=
  (subf (extractStridedSlice S40000x32x3 ![0, 0, 0] X slices_S40000x32x7_S40000x32x3_0_0_0) (broadcastInDim S40000x32x3 ![0, 1, 2] bcast_S40000x1x3_S40000x32x3_0_1_2 (mean3 X np)))

/-- The value of `main_v17`. -/
def cxArr (co : (⟨S40000x4, .i32⟩ : BufTy).Contents (Elt F)) : (⟨S40000x1, .f32⟩ : BufTy).Contents (Elt F) :=
  (addf (mulf (broadcastInDim S40000x1 ![0] bcast_S40000_S40000x1_0 (sitofp .f32 (shapeCast S40000 (extractStridedSlice S40000x1 ![0, 3] co slices_S40000x4_S40000x1_0_3) shapeCasts_S40000x1_S40000))) (broadcastInDim S40000x1 ![] bcast_S_S40000x1 (constant S_ .f32 0x3E4CCCCD#32))) (broadcastInDim S40000x1 ![] bcast_S_S40000x1 (constant S_ .f32 0x3DCCCCCD#32)))

/-- The value of `main_v25`. -/
def cyArr (co : (⟨S40000x4, .i32⟩ : BufTy).Contents (Elt F)) : (⟨S40000x1, .f32⟩ : BufTy).Contents (Elt F) :=
  (addf (mulf (broadcastInDim S40000x1 ![0] bcast_S40000_S40000x1_0 (sitofp .f32 (shapeCast S40000 (extractStridedSlice S40000x1 ![0, 2] co slices_S40000x4_S40000x1_0_2) shapeCasts_S40000x1_S40000))) (broadcastInDim S40000x1 ![] bcast_S_S40000x1 (constant S_ .f32 0x3E4CCCCD#32))) (broadcastInDim S40000x1 ![] bcast_S_S40000x1 (constant S_ .f32 0xC21F999A#32)))

/-- The value of `main_v36`. -/
def ctr (X : (⟨S40000x32x7, .f32⟩ : BufTy).Contents (Elt F)) (co : (⟨S40000x4, .i32⟩ : BufTy).Contents (Elt F)) : (⟨S40000x32x2, .f32⟩ : BufTy).Contents (Elt F) :=
  (concatenate S40000x32x2 2 [⟨S40000x32x1, (broadcastInDim S40000x32x1 ![0, 1] bcast_S40000x32_S40000x32x1_0_1 (subf (shapeCast S40000x32 (extractStridedSlice S40000x32x1 ![0, 0, 0] X slices_S40000x32x7_S40000x32x1_0_0_0) shapeCasts_S40000x32x1_S40000x32) (broadcastInDim S40000x32 ![0, 1] bcast_S40000x1_S40000x32_0_1 (cxArr co))))⟩, ⟨S40000x32x1, (broadcastInDim S40000x32x1 ![0, 1] bcast_S40000x32_S40000x32x1_0_1 (subf (shapeCast S40000x32 (extractStridedSlice S40000x32x1 ![0, 0, 1] X slices_S40000x32x7_S40000x32x1_0_0_1) shapeCasts_S40000x32x1_S40000x32) (broadcastInDim S40000x32 ![0, 1] bcast_S40000x1_S40000x32_0_1 (cyArr co))))⟩] concatenates_S40000x32x1_S40000x32x1_S40000x32x2_d2)

/-- The value of `main_v41`. -/
def mean4 (X : (⟨S40000x32x7, .f32⟩ : BufTy).Contents (Elt F)) (np : (⟨S40000, .i32⟩ : BufTy).Contents (Elt F)) : (⟨S40000x1x4, .f32⟩ : BufTy).Contents (Elt F) :=
  (Host.divf (broadcastInDim S40000x1x4 ![0, 2] bcast_S40000x4_S40000x1x4_0_2 (Host.reduceAdd (extractStridedSlice S40000x32x4 ![0, 0, 3] X slices_S40000x32x7_S40000x32x4_0_0_3) (constant S_ .f32 0x00000000#32) reducesTo_S40000x32x4_S40000x4_d1 h_S_)) (broadcastInDim S40000x1x4 ![0, 1, 2] bcast_S40000x1x1_S40000x1x4_0_1_2 (npf np)))

/-- The value of `main_v44`. -/
def vel (X : (⟨S40000x32x7, .f32⟩ : BufTy).Contents (Elt F)) (np : (⟨S40000, .i32⟩ : BufTy).Contents (Elt F)) : (⟨S40000x32x4, .f32⟩ : BufTy).Contents (Elt F) :=
  (subf (extractStridedSlice S40000x32x4 ![0, 0, 3] X slices_S40000x32x7_S40000x32x4_0_0_3) (broadcastInDim S40000x32x4 ![0, 1, 2] bcast_S40000x1x4_S40000x32x4_0_1_2 (mean4 X np)))

/-- The value of `main_v46`. -/
def raw7 (X : (⟨S40000x32x7, .f32⟩ : BufTy).Contents (Elt F)) (co : (⟨S40000x4, .i32⟩ : BufTy).Contents (Elt F)) : (⟨S40000x32x7, .f32⟩ : BufTy).Contents (Elt F) :=
  (concatenate S40000x32x7 2 [⟨S40000x32x2, (ctr X co)⟩, ⟨S40000x32x5, (extractStridedSlice S40000x32x5 ![0, 0, 2] X slices_S40000x32x7_S40000x32x5_0_0_2)⟩] concatenates_S40000x32x2_S40000x32x5_S40000x32x7_d2)

/-- The value of `main_v47`. -/
def aug16 (X : (⟨S40000x32x7, .f32⟩ : BufTy).Contents (Elt F)) (np : (⟨S40000, .i32⟩ : BufTy).Contents (Elt F)) (co : (⟨S40000x4, .i32⟩ : BufTy).Contents (Elt F)) : (⟨S40000x32x16, .f32⟩ : BufTy).Contents (Elt F) :=
  (concatenate S40000x32x16 2 [⟨S40000x32x7, (raw7 X co)⟩, ⟨S40000x32x3, (clus X np)⟩, ⟨S40000x32x2, (ctr X co)⟩, ⟨S40000x32x4, (vel X np)⟩] concatenates_S40000x32x7_S40000x32x3_S40000x32x2_S40000x32x4_S40000x32x16_d2)

/-- The value of `main_v53`. -/
def maskB (np : (⟨S40000, .i32⟩ : BufTy).Contents (Elt F)) : (⟨S40000x32, .i1⟩ : BufTy).Contents (Elt F) :=
  (cmpi .slt (broadcastInDim S40000x32 ![0, 1] bcast_S1x32_S40000x32_0_1 (broadcastInDim S1x32 ![1] bcast_S32_S1x32_1 (iotaInDim S32 32 0))) (broadcastInDim S40000x32 ![0, 1] bcast_S40000x1_S40000x32_0_1 (broadcastInDim S40000x1 ![0] bcast_S40000_S40000x1_0 np)))

/-- The value of `main_v54`. -/
def maskF (mk : (⟨S40000x32, .i1⟩ : BufTy).Contents (Elt F)) : (⟨S40000x32, .f32⟩ : BufTy).Contents (Elt F) :=
  (uitofp .f32 mk)

/-- The value of `main_v57`. -/
def feat16 (a : (⟨S40000x32x16, .f32⟩ : BufTy).Contents (Elt F)) (mk : (⟨S40000x32, .i1⟩ : BufTy).Contents (Elt F)) : (⟨S40000x32x16, .f32⟩ : BufTy).Contents (Elt F) :=
  (mulf a (broadcastInDim S40000x32x16 ![0, 1, 2] bcast_S40000x32x1_S40000x32x16_0_1_2 (broadcastInDim S40000x32x1 ![0, 1] bcast_S40000x32_S40000x32x1_0_1 (maskF mk))))

/-- The value of `main_v58`. -/
def lin64 (f : (⟨S40000x32x16, .f32⟩ : BufTy).Contents (Elt F)) (W : (⟨S16x64, .f32⟩ : BufTy).Contents (Elt F)) : (⟨S40000x32x64, .f32⟩ : BufTy).Contents (Elt F) :=
  (Host.dotGeneral dot_S40000x32x16_S16x64_S40000x32x64_2_0_01_1_n_n none f W)

/-- The value of `main_v59`. -/
def sum64 (y : (⟨S40000x32x64, .f32⟩ : BufTy).Contents (Elt F)) : (⟨S64, .f32⟩ : BufTy).Contents (Elt F) :=
  (Host.reduceAdd y (constant S_ .f32 0x00000000#32) reducesTo_S40000x32x64_S64_d0_1 h_S_)

/-- The value of `main_v61`. -/
def mean64 (y : (⟨S40000x32x64, .f32⟩ : BufTy).Contents (Elt F)) : (⟨S64, .f32⟩ : BufTy).Contents (Elt F) :=
  (Host.divf (sum64 y) (broadcastInDim S64 ![] bcast_S_S64 (constant S_ .f32 0x499C4000#32)))

/-- The value of `main_call0_v5`. -/
def dev64 (y : (⟨S40000x32x64, .f32⟩ : BufTy).Contents (Elt F)) : (⟨S40000x32x64, .f32⟩ : BufTy).Contents (Elt F) :=
  (subf y (broadcastInDim S40000x32x64 ![0, 1, 2] bcast_S1x1x64_S40000x32x64_0_1_2 (Host.divf (broadcastInDim S1x1x64 ![2] bcast_S64_S1x1x64_2 (sum64 y)) (broadcastInDim S1x1x64 ![] bcast_S_S1x1x64 (constant S_ .f32 0x499C4000#32)))))

/-- The value of `main_call0_v8`. -/
def cnt  : (⟨S_, .f32⟩ : BufTy).Contents (Elt F) :=
  (subf (constant S_ .f32 0x499C4000#32) (sitofp .f32 (constantI S_ 32 0#32)))

/-- The value of `main_v62`. -/
def var64 (y : (⟨S40000x32x64, .f32⟩ : BufTy).Contents (Elt F)) : (⟨S64, .f32⟩ : BufTy).Contents (Elt F) :=
  (select (broadcastInDim S64 ![] bcast_S_S64 (cmpf .ogt (cnt (F := F)) (constant S_ .f32 0x00000000#32))) (Host.divf (sum64 (mulf (dev64 y) (dev64 y))) (broadcastInDim S64 ![] bcast_S_S64 (cnt (F := F)))) (broadcastInDim S64 ![] bcast_S_S64 (id (constant S_ .f32 0x7FC00000#32))))

/-- The value of `main_v79`. -/
def outMax (y : (⟨S40000x32x64, .f32⟩ : BufTy).Contents (Elt F)) (μ : (⟨S64, .f32⟩ : BufTy).Contents (Elt F)) (v : (⟨S64, .f32⟩ : BufTy).Contents (Elt F)) (γ : (⟨S64, .f32⟩ : BufTy).Contents (Elt F)) (β : (⟨S64, .f32⟩ : BufTy).Contents (Elt F)) : (⟨S40000x64, .f32⟩ : BufTy).Contents (Elt F) :=
  (Host.reduce FloatOps.maximumf (maximumf (addf (mulf (mulf (subf y (broadcastInDim S40000x32x64 ![0, 1, 2] bcast_S1x1x64_S40000x32x64_0_1_2 (broadcastInDim S1x1x64 ![2] bcast_S64_S1x1x64_2 μ))) (broadcastInDim S40000x32x64 ![0, 1, 2] bcast_S1x1x64_S40000x32x64_0_1_2 (broadcastInDim S1x1x64 ![2] bcast_S64_S1x1x64_2 (Host.rsqrt (addf v (broadcastInDim S64 ![] bcast_S_S64 (constant S_ .f32 0x3A83126F#32))))))) (broadcastInDim S40000x32x64 ![0, 1, 2] bcast_S1x1x64_S40000x32x64_0_1_2 (broadcastInDim S1x1x64 ![2] bcast_S64_S1x1x64_2 γ))) (broadcastInDim S40000x32x64 ![0, 1, 2] bcast_S1x1x64_S40000x32x64_0_1_2 (broadcastInDim S1x1x64 ![2] bcast_S64_S1x1x64_2 β))) (broadcastInDim S40000x32x64 ![] bcast_S_S40000x32x64 (constant S_ .f32 0x00000000#32))) (constant S_ .f32 0xFF800000#32) reducesTo_S40000x32x64_S40000x64_d1 h_S_)

/-- The linear map's output from the six arguments. -/
def linOut (X : (⟨S40000x32x7, .f32⟩ : BufTy).Contents (Elt F)) (np : (⟨S40000, .i32⟩ : BufTy).Contents (Elt F)) (co : (⟨S40000x4, .i32⟩ : BufTy).Contents (Elt F)) (W : (⟨S16x64, .f32⟩ : BufTy).Contents (Elt F)) : (⟨S40000x32x64, .f32⟩ : BufTy).Contents (Elt F) :=
  lin64 (feat16 (aug16 X np co) (maskB np)) W

/-- The result from the six arguments. -/
def refOut (X : (⟨S40000x32x7, .f32⟩ : BufTy).Contents (Elt F)) (np : (⟨S40000, .i32⟩ : BufTy).Contents (Elt F)) (co : (⟨S40000x4, .i32⟩ : BufTy).Contents (Elt F)) (W : (⟨S16x64, .f32⟩ : BufTy).Contents (Elt F)) (γ : (⟨S64, .f32⟩ : BufTy).Contents (Elt F)) (β : (⟨S64, .f32⟩ : BufTy).Contents (Elt F)) : (⟨S40000x64, .f32⟩ : BufTy).Contents (Elt F) :=
  outMax (linOut X np co W) (mean64 (linOut X np co W)) (var64 (linOut X np co W)) γ β

end Cert.ReferenceIdeal.RefValue

end
-- ==== Proof.RefAfterA.lean ====
/-
  What the first window's operations leave: the augmented channels and the mask's comparison as the named functions of the arguments, the arguments as they were.
-/
import proofs.«173196_j49855980372233_2_alg».proof.Proof.RefOps
import proofs.«173196_j49855980372233_2_alg».proof.Proof.RefStages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem afterA_v47 (V : Valuation τ sig (Elt F)) :
    after opsA V (Proc.devRef .tc main_v47) = aug16 (V (Proc.devRef .tc main_arg0)) (V (Proc.devRef .tc main_arg1)) (V (Proc.devRef .tc main_arg2)) := by
  after_results_simp
  rfl

set_option maxRecDepth 8192 in
set_option maxHeartbeats 4000000 in
theorem afterA_v53 (V : Valuation τ sig (Elt F)) :
    after opsA V (Proc.devRef .tc main_v53) = maskB (V (Proc.devRef .tc main_arg1)) := by
  after_results_simp
  rfl

set_option maxRecDepth 8192 in
set_option maxHeartbeats 4000000 in
theorem afterA_arg0 (V : Valuation τ sig (Elt F)) :
    after opsA V (Proc.devRef .tc main_arg0) = V (Proc.devRef .tc main_arg0) := by
  after_results_simp

set_option maxRecDepth 8192 in
set_option maxHeartbeats 4000000 in
theorem afterA_arg1 (V : Valuation τ sig (Elt F)) :
    after opsA V (Proc.devRef .tc main_arg1) = V (Proc.devRef .tc main_arg1) := by
  after_results_simp

set_option maxRecDepth 8192 in
set_option maxHeartbeats 4000000 in
theorem afterA_arg2 (V : Valuation τ sig (Elt F)) :
    after opsA V (Proc.devRef .tc main_arg2) = V (Proc.devRef .tc main_arg2) := by
  after_results_simp

set_option maxRecDepth 8192 in
set_option maxHeartbeats 4000000 in
theorem afterA_arg3 (V : Valuation τ sig (Elt F)) :
    after opsA V (Proc.devRef .tc main_arg3) = V (Proc.devRef .tc main_arg3) := by
  after_results_simp

set_option maxRecDepth 8192 in
set_option maxHeartbeats 4000000 in
theorem afterA_arg4 (V : Valuation τ sig (Elt F)) :
    after opsA V (Proc.devRef .tc main_arg4) = V (Proc.devRef .tc main_arg4) := by
  after_results_simp

set_option maxRecDepth 8192 in
set_option maxHeartbeats 4000000 in
theorem afterA_arg5 (V : Valuation τ sig (Elt F)) :
    after opsA V (Proc.devRef .tc main_arg5) = V (Proc.devRef .tc main_arg5) := by
  after_results_simp

end Cert.ReferenceIdeal.RefValue

end
-- ==== Proof.RefAfterB.lean ====
/-
  What the second window's four groups of operations leave: each group's result as the named function of the buffers it reads, and the buffers a later group reads as they were.
-/
import proofs.«173196_j49855980372233_2_alg».proof.Proof.RefOps
import proofs.«173196_j49855980372233_2_alg».proof.Proof.RefStages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem afterB_v58 (V : Valuation τ sig (Elt F)) :
    after opsB V (Proc.devRef .tc main_v58) = lin64 (feat16 (V (Proc.devRef .tc main_v47)) (V (Proc.devRef .tc main_v53))) (V (Proc.devRef .tc main_arg3)) := by
  after_results_simp
  rfl

theorem afterB_arg0 (V : Valuation τ sig (Elt F)) :
    after opsB V (Proc.devRef .tc main_arg0) = V (Proc.devRef .tc main_arg0) := by
  after_results_simp

theorem afterB_arg1 (V : Valuation τ sig (Elt F)) :
    after opsB V (Proc.devRef .tc main_arg1) = V (Proc.devRef .tc main_arg1) := by
  after_results_simp

theorem afterB_arg2 (V : Valuation τ sig (Elt F)) :
    after opsB V (Proc.devRef .tc main_arg2) = V (Proc.devRef .tc main_arg2) := by
  after_results_simp

theorem afterB_arg3 (V : Valuation τ sig (Elt F)) :
    after opsB V (Proc.devRef .tc main_arg3) = V (Proc.devRef .tc main_arg3) := by
  after_results_simp

theorem afterB_arg4 (V : Valuation τ sig (Elt F)) :
    after opsB V (Proc.devRef .tc main_arg4) = V (Proc.devRef .tc main_arg4) := by
  after_results_simp

theorem afterB_arg5 (V : Valuation τ sig (Elt F)) :
    after opsB V (Proc.devRef .tc main_arg5) = V (Proc.devRef .tc main_arg5) := by
  after_results_simp

set_option maxRecDepth 8192 in
set_option maxHeartbeats 4000000 in
theorem afterC_v61 (V : Valuation τ sig (Elt F)) :
    after opsC V (Proc.devRef .tc main_v61) = mean64 (V (Proc.devRef .tc main_v58)) := by
  after_results_simp
  rfl

theorem afterC_v58 (V : Valuation τ sig (Elt F)) :
    after opsC V (Proc.devRef .tc main_v58) = V (Proc.devRef .tc main_v58) := by
  after_results_simp

theorem afterC_arg0 (V : Valuation τ sig (Elt F)) :
    after opsC V (Proc.devRef .tc main_arg0) = V (Proc.devRef .tc main_arg0) := by
  after_results_simp

theorem afterC_arg1 (V : Valuation τ sig (Elt F)) :
    after opsC V (Proc.devRef .tc main_arg1) = V (Proc.devRef .tc main_arg1) := by
  after_results_simp

theorem afterC_arg2 (V : Valuation τ sig (Elt F)) :
    after opsC V (Proc.devRef .tc main_arg2) = V (Proc.devRef .tc main_arg2) := by
  after_results_simp

theorem afterC_arg3 (V : Valuation τ sig (Elt F)) :
    after opsC V (Proc.devRef .tc main_arg3) = V (Proc.devRef .tc main_arg3) := by
  after_results_simp

theorem afterC_arg4 (V : Valuation τ sig (Elt F)) :
    after opsC V (Proc.devRef .tc main_arg4) = V (Proc.devRef .tc main_arg4) := by
  after_results_simp

theorem afterC_arg5 (V : Valuation τ sig (Elt F)) :
    after opsC V (Proc.devRef .tc main_arg5) = V (Proc.devRef .tc main_arg5) := by
  after_results_simp

set_option maxRecDepth 8192 in
set_option maxHeartbeats 4000000 in
theorem afterD_v62 (V : Valuation τ sig (Elt F)) :
    after opsD V (Proc.devRef .tc main_v62) = var64 (V (Proc.devRef .tc main_v58)) := by
  after_results_simp
  rfl

theorem afterD_v58 (V : Valuation τ sig (Elt F)) :
    after opsD V (Proc.devRef .tc main_v58) = V (Proc.devRef .tc main_v58) := by
  after_results_simp

theorem afterD_v61 (V : Valuation τ sig (Elt F)) :
    after opsD V (Proc.devRef .tc main_v61) = V (Proc.devRef .tc main_v61) := by
  after_results_simp

theorem afterD_arg0 (V : Valuation τ sig (Elt F)) :
    after opsD V (Proc.devRef .tc main_arg0) = V (Proc.devRef .tc main_arg0) := by
  after_results_simp

theorem afterD_arg1 (V : Valuation τ sig (Elt F)) :
    after opsD V (Proc.devRef .tc main_arg1) = V (Proc.devRef .tc main_arg1) := by
  after_results_simp

theorem afterD_arg2 (V : Valuation τ sig (Elt F)) :
    after opsD V (Proc.devRef .tc main_arg2) = V (Proc.devRef .tc main_arg2) := by
  after_results_simp

theorem afterD_arg3 (V : Valuation τ sig (Elt F)) :
    after opsD V (Proc.devRef .tc main_arg3) = V (Proc.devRef .tc main_arg3) := by
  after_results_simp

theorem afterD_arg4 (V : Valuation τ sig (Elt F)) :
    after opsD V (Proc.devRef .tc main_arg4) = V (Proc.devRef .tc main_arg4) := by
  after_results_simp

theorem afterD_arg5 (V : Valuation τ sig (Elt F)) :
    after opsD V (Proc.devRef .tc main_arg5) = V (Proc.devRef .tc main_arg5) := by
  after_results_simp

set_option maxRecDepth 8192 in
set_option maxHeartbeats 4000000 in
theorem afterE_v79 (V : Valuation τ sig (Elt F)) :
    after opsE V (Proc.devRef .tc main_v79) = outMax (V (Proc.devRef .tc main_v58)) (V (Proc.devRef .tc main_v61)) (V (Proc.devRef .tc main_v62)) (V (Proc.devRef .tc main_arg4)) (V (Proc.devRef .tc main_arg5)) := by
  after_results_simp
  rfl

theorem afterE_arg0 (V : Valuation τ sig (Elt F)) :
    after opsE V (Proc.devRef .tc main_arg0) = V (Proc.devRef .tc main_arg0) := by
  after_results_simp

theorem afterE_arg1 (V : Valuation τ sig (Elt F)) :
    after opsE V (Proc.devRef .tc main_arg1) = V (Proc.devRef .tc main_arg1) := by
  after_results_simp

theorem afterE_arg2 (V : Valuation τ sig (Elt F)) :
    after opsE V (Proc.devRef .tc main_arg2) = V (Proc.devRef .tc main_arg2) := by
  after_results_simp

theorem afterE_arg3 (V : Valuation τ sig (Elt F)) :
    after opsE V (Proc.devRef .tc main_arg3) = V (Proc.devRef .tc main_arg3) := by
  after_results_simp

theorem afterE_arg4 (V : Valuation τ sig (Elt F)) :
    after opsE V (Proc.devRef .tc main_arg4) = V (Proc.devRef .tc main_arg4) := by
  after_results_simp

theorem afterE_arg5 (V : Valuation τ sig (Elt F)) :
    after opsE V (Proc.devRef .tc main_arg5) = V (Proc.devRef .tc main_arg5) := by
  after_results_simp

end Cert.ReferenceIdeal.RefValue

end
-- ==== Proof.RefRun.lean ====
/-
  The reference program's run, assembled: every weakly fair execution of @main terminates with the result buffer at the
  named stage functions composed over the six argument arrays, and the arguments unchanged.
-/
import proofs.«173196_j49855980372233_2_alg».proof.Proof.RefAfterA
import proofs.«173196_j49855980372233_2_alg».proof.Proof.RefAfterB

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- What the five groups in a row leave at the result buffer. -/
theorem after_all_v79 (V : Valuation τ sig (Elt F)) :
    after opsE (after opsD (after opsC (after opsB (after opsA V)))) (Proc.devRef .tc main_v79)
      = refOut (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [afterE_v79, afterD_v62, afterD_v61, afterD_v58, afterD_arg4, afterD_arg5, afterC_v61, afterC_v58, afterC_arg4, afterC_arg5,
    afterB_v58, afterB_arg4, afterB_arg5, afterA_v47, afterA_v53, afterA_arg3, afterA_arg4, afterA_arg5]
  rfl

/-- … and at argument 0. -/
theorem after_all_arg0 (V : Valuation τ sig (Elt F)) :
    after opsE (after opsD (after opsC (after opsB (after opsA V)))) (Proc.devRef .tc main_arg0) = V (Proc.devRef .tc main_arg0) := by
  rw [afterE_arg0, afterD_arg0, afterC_arg0, afterB_arg0, afterA_arg0]

/-- … and at argument 1. -/
theorem after_all_arg1 (V : Valuation τ sig (Elt F)) :
    after opsE (after opsD (after opsC (after opsB (after opsA V)))) (Proc.devRef .tc main_arg1) = V (Proc.devRef .tc main_arg1) := by
  rw [afterE_arg1, afterD_arg1, afterC_arg1, afterB_arg1, afterA_arg1]

/-- … and at argument 2. -/
theorem after_all_arg2 (V : Valuation τ sig (Elt F)) :
    after opsE (after opsD (after opsC (after opsB (after opsA V)))) (Proc.devRef .tc main_arg2) = V (Proc.devRef .tc main_arg2) := by
  rw [afterE_arg2, afterD_arg2, afterC_arg2, afterB_arg2, afterA_arg2]

/-- … and at argument 3. -/
theorem after_all_arg3 (V : Valuation τ sig (Elt F)) :
    after opsE (after opsD (after opsC (after opsB (after opsA V)))) (Proc.devRef .tc main_arg3) = V (Proc.devRef .tc main_arg3) := by
  rw [afterE_arg3, afterD_arg3, afterC_arg3, afterB_arg3, afterA_arg3]

/-- … and at argument 4. -/
theorem after_all_arg4 (V : Valuation τ sig (Elt F)) :
    after opsE (after opsD (after opsC (after opsB (after opsA V)))) (Proc.devRef .tc main_arg4) = V (Proc.devRef .tc main_arg4) := by
  rw [afterE_arg4, afterD_arg4, afterC_arg4, afterB_arg4, afterA_arg4]

/-- … and at argument 5. -/
theorem after_all_arg5 (V : Valuation τ sig (Elt F)) :
    after opsE (after opsD (after opsC (after opsB (after opsA V)))) (Proc.devRef .tc main_arg5) = V (Proc.devRef .tc main_arg5) := by
  rw [afterE_arg5, afterD_arg5, afterC_arg5, afterB_arg5, afterA_arg5]

/-- On every device, for any float values, from any memory with zero counters: every weakly fair execution of @main
    terminates with the result at the stage functions' composition over the arguments and the arguments unchanged. -/
theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v79)
          = refOut (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(h c main_v79).trans (after_all_v79 (launchContents m c)),
      (h c main_arg0).trans (after_all_arg0 (launchContents m c)),
      (h c main_arg1).trans (after_all_arg1 (launchContents m c)),
      (h c main_arg2).trans (after_all_arg2 (launchContents m c)),
      (h c main_arg3).trans (after_all_arg3 (launchContents m c)),
      (h c main_arg4).trans (after_all_arg4 (launchContents m c)),
      (h c main_arg5).trans (after_all_arg5 (launchContents m c))⟩)
    (run_after m ρ)

end Cert.ReferenceIdeal.RefValue

end
-- ==== Proof.RefFeat.lean ====
/-
  The reference's per-pillar pieces read at an index, at the exact extended reals: the point count as a divisor, the channel means over a pillar's 32 points, the offsets from them, the cell centre and the offsets from it, and the seven leading channels.
-/
import proofs.«173196_j49855980372233_2_alg».proof.Proof.RefStages
import proofs.«173196_j49855980372233_2_alg».proof.Proof.Spec
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-- A sum over the 32 points of a pillar, read at a pillar and a channel. -/
theorem reduce1_apply {K : Nat} (x : (⟨3, ![40000, 32, K]⟩ : Shape).Idx → EReal)
    (h' : (⟨3, ![40000, 32, K]⟩ : Shape).ReducesTo [1] ⟨2, ![40000, K]⟩)
    (h : (⟨3, ![40000, 32, K]⟩ : Shape).Reduces [1] ⟨2, ![40000, K]⟩) (hu : 0 < S_.numel)
    (n : Fin 40000) (c : Fin K) :
    Host.reduceAdd (F := Ideal) (φ := .f32) x (constant S_ .f32 0x00000000#32) h' hu (ix2 n c) = ∑ q : Fin 32, x (ix3 n q c) := by
  show Ideal.hostReduceAdd h' x (Ideal.ofBits .f32 0x00000000#32) (ix2 n c) = _
  rw [Ideal.hostReduceAdd_single h' h, Ideal.ofBits_zero_f32, zero_add]
  refine Finset.sum_congr rfl fun q _ => congrArg x ?_
  funext a
  match a with
  | ⟨0, _⟩ => rfl
  | ⟨1, _⟩ => rfl
  | ⟨2, _⟩ => rfl

/-- The point count as a float, at a pillar. -/
theorem npf_apply (np : (⟨S40000, .i32⟩ : BufTy).Contents (Elt Ideal)) (n : Fin 40000) :
    npf (F := Ideal) np (ix3 n (0 : Fin 1) (0 : Fin 1)) = Cert.Pfn.dRaw (np (ix1 n)) := by
  unfold npf
  exact broadcastInDim_apply _ _ _ (ix3 n (0 : Fin 1) (0 : Fin 1)) (ix1 n) (fun a => match a with | ⟨0, _⟩ => rfl)

/-- The mean of the first three channels over a pillar's points, against the point count. -/
theorem mean3_apply (X : (⟨S40000x32x7, .f32⟩ : BufTy).Contents (Elt Ideal)) (np : (⟨S40000, .i32⟩ : BufTy).Contents (Elt Ideal))
    (n : Fin 40000) (c : Fin 3) :
    mean3 (F := Ideal) X np (ix3 n (0 : Fin 1) c)
      = Cert.Pfn.colMean (fun q' c' => X (ix3 n q' c')) (Cert.Pfn.dRaw (np (ix1 n))) ⟨c.val, by omega⟩ := by
  unfold mean3 Cert.Pfn.colMean
  refine (congrArg₂ Ideal.div
    ((broadcastInDim_apply _ _ _ (ix3 n (0 : Fin 1) c) (ix2 n c)
        (fun a => match a with | ⟨0, _⟩ => rfl | ⟨1, _⟩ => rfl)).trans
      (reduce1_apply _ _ (by decide) _ n c))
    ((broadcastInDim_apply _ _ _ (ix3 n (0 : Fin 1) c) (ix3 n (0 : Fin 1) (0 : Fin 1))
        (fun a => match a with | ⟨0, _⟩ => rfl | ⟨1, _⟩ => rfl | ⟨2, _⟩ => rfl)).trans (npf_apply np n))).trans ?_
  congr 1
  refine Finset.sum_congr rfl fun q _ => ?_
  exact extractStridedSlice_apply _ _ _ (ix3 n q c) (ix3 n q ⟨c.val, by omega⟩)
    (fun a => match a with
      | ⟨0, _⟩ => by show n.val = 0 + n.val; omega
      | ⟨1, _⟩ => by show q.val = 0 + q.val; omega
      | ⟨2, _⟩ => by show c.val = 0 + c.val; omega)

/-- The mean of the last four channels over a pillar's points, against the point count. -/
theorem mean4_apply (X : (⟨S40000x32x7, .f32⟩ : BufTy).Contents (Elt Ideal)) (np : (⟨S40000, .i32⟩ : BufTy).Contents (Elt Ideal))
    (n : Fin 40000) (c : Fin 4) :
    mean4 (F := Ideal) X np (ix3 n (0 : Fin 1) c)
      = Cert.Pfn.colMean (fun q' c' => X (ix3 n q' c')) (Cert.Pfn.dRaw (np (ix1 n))) ⟨c.val + 3, by omega⟩ := by
  unfold mean4 Cert.Pfn.colMean
  refine (congrArg₂ Ideal.div
    ((broadcastInDim_apply _ _ _ (ix3 n (0 : Fin 1) c) (ix2 n c)
        (fun a => match a with | ⟨0, _⟩ => rfl | ⟨1, _⟩ => rfl)).trans
      (reduce1_apply _ _ (by decide) _ n c))
    ((broadcastInDim_apply _ _ _ (ix3 n (0 : Fin 1) c) (ix3 n (0 : Fin 1) (0 : Fin 1))
        (fun a => match a with | ⟨0, _⟩ => rfl | ⟨1, _⟩ => rfl | ⟨2, _⟩ => rfl)).trans (npf_apply np n))).trans ?_
  congr 1
  refine Finset.sum_congr rfl fun q _ => ?_
  exact extractStridedSlice_apply _ _ _ (ix3 n q c) (ix3 n q ⟨c.val + 3, by omega⟩)
    (fun a => match a with
      | ⟨0, _⟩ => by show n.val = 0 + n.val; omega
      | ⟨1, _⟩ => by show q.val = 0 + q.val; omega
      | ⟨2, _⟩ => by show c.val + 3 = 3 + c.val; omega)

/-- The offsets of the first three channels from their mean. -/
theorem clus_apply (X : (⟨S40000x32x7, .f32⟩ : BufTy).Contents (Elt Ideal)) (np : (⟨S40000, .i32⟩ : BufTy).Contents (Elt Ideal))
    (n : Fin 40000) (q : Fin 32) (c : Fin 3) :
    clus (F := Ideal) X np (ix3 n q c)
      = X (ix3 n q ⟨c.val, by omega⟩)
        - Cert.Pfn.colMean (fun q' c' => X (ix3 n q' c')) (Cert.Pfn.dRaw (np (ix1 n))) ⟨c.val, by omega⟩ := by
  unfold clus
  refine congrArg₂ (· - ·)
    (extractStridedSlice_apply _ _ _ (ix3 n q c) (ix3 n q ⟨c.val, by omega⟩)
      (fun a => match a with
        | ⟨0, _⟩ => by show n.val = 0 + n.val; omega
        | ⟨1, _⟩ => by show q.val = 0 + q.val; omega
        | ⟨2, _⟩ => by show c.val = 0 + c.val; omega))
    ((broadcastInDim_apply _ _ _ (ix3 n q c) (ix3 n (0 : Fin 1) c)
        (fun a => match a with | ⟨0, _⟩ => rfl | ⟨1, _⟩ => rfl | ⟨2, _⟩ => rfl)).trans (mean3_apply X np n c))

/-- The offsets of the last four channels from their mean. -/
theorem vel_apply (X : (⟨S40000x32x7, .f32⟩ : BufTy).Contents (Elt Ideal)) (np : (⟨S40000, .i32⟩ : BufTy).Contents (Elt Ideal))
    (n : Fin 40000) (q : Fin 32) (c : Fin 4) :
    vel (F := Ideal) X np (ix3 n q c)
      = X (ix3 n q ⟨c.val + 3, by omega⟩)
        - Cert.Pfn.colMean (fun q' c' => X (ix3 n q' c')) (Cert.Pfn.dRaw (np (ix1 n))) ⟨c.val + 3, by omega⟩ := by
  unfold vel
  refine congrArg₂ (· - ·)
    (extractStridedSlice_apply _ _ _ (ix3 n q c) (ix3 n q ⟨c.val + 3, by omega⟩)
      (fun a => match a with
        | ⟨0, _⟩ => by show n.val = 0 + n.val; omega
        | ⟨1, _⟩ => by show q.val = 0 + q.val; omega
        | ⟨2, _⟩ => by show c.val + 3 = 3 + c.val; omega))
    ((broadcastInDim_apply _ _ _ (ix3 n q c) (ix3 n (0 : Fin 1) c)
        (fun a => match a with | ⟨0, _⟩ => rfl | ⟨1, _⟩ => rfl | ⟨2, _⟩ => rfl)).trans (mean4_apply X np n c))

/-- A cell's centre along x, at a pillar. -/
theorem cxArr_apply (co : (⟨S40000x4, .i32⟩ : BufTy).Contents (Elt Ideal)) (n : Fin 40000) :
    cxArr (F := Ideal) co (ix2 n (0 : Fin 1)) = Cert.Pfn.cxOf (co (ix2 n 3)) := by
  unfold cxArr Cert.Pfn.cxOf
  refine congrArg₂ (· + ·) (congrArg₂ (· * ·) ?_ ?_) ?_
  · refine (broadcastInDim_apply _ _ _ (ix2 n (0 : Fin 1)) (ix1 n) (fun a => match a with | ⟨0, _⟩ => rfl)).trans ?_
    have e : shapeCast S40000 (extractStridedSlice S40000x1 ![0, 3] co slices_S40000x4_S40000x1_0_3) shapeCasts_S40000x1_S40000 (ix1 n)
        = co (ix2 n (3 : Fin 4)) := by
      rw [shapeCast_apply _ _ (ix1 n) (ix2 n (0 : Fin 1)) (by rw [Shape.rowMajor_val_two, Shape.rowMajor_val_one]; show n.val * 1 + 0 = n.val; omega)]
      exact extractStridedSlice_apply _ _ _ (ix2 n (0 : Fin 1)) (ix2 n (3 : Fin 4))
        (fun a => match a with
          | ⟨0, _⟩ => by show n.val = 0 + n.val; omega
          | ⟨1, _⟩ => by show 3 = 3 + 0; rfl)
    exact congrArg (fun w : BitVec 32 => ((w.toInt : ℝ) : EReal)) e
  · exact broadcastInDim_apply _ _ _ (ix2 n (0 : Fin 1)) ix0 (fun a => a.elim0)
  · exact broadcastInDim_apply _ _ _ (ix2 n (0 : Fin 1)) ix0 (fun a => a.elim0)

/-- A cell's centre along y, at a pillar. -/
theorem cyArr_apply (co : (⟨S40000x4, .i32⟩ : BufTy).Contents (Elt Ideal)) (n : Fin 40000) :
    cyArr (F := Ideal) co (ix2 n (0 : Fin 1)) = Cert.Pfn.cyOf (co (ix2 n 2)) := by
  unfold cyArr Cert.Pfn.cyOf
  refine congrArg₂ (· + ·) (congrArg₂ (· * ·) ?_ ?_) ?_
  · refine (broadcastInDim_apply _ _ _ (ix2 n (0 : Fin 1)) (ix1 n) (fun a => match a with | ⟨0, _⟩ => rfl)).trans ?_
    have e : shapeCast S40000 (extractStridedSlice S40000x1 ![0, 2] co slices_S40000x4_S40000x1_0_2) shapeCasts_S40000x1_S40000 (ix1 n)
        = co (ix2 n (2 : Fin 4)) := by
      rw [shapeCast_apply _ _ (ix1 n) (ix2 n (0 : Fin 1)) (by rw [Shape.rowMajor_val_two, Shape.rowMajor_val_one]; show n.val * 1 + 0 = n.val; omega)]
      exact extractStridedSlice_apply _ _ _ (ix2 n (0 : Fin 1)) (ix2 n (2 : Fin 4))
        (fun a => match a with
          | ⟨0, _⟩ => by show n.val = 0 + n.val; omega
          | ⟨1, _⟩ => by show 2 = 2 + 0; rfl)
    exact congrArg (fun w : BitVec 32 => ((w.toInt : ℝ) : EReal)) e
  · exact broadcastInDim_apply _ _ _ (ix2 n (0 : Fin 1)) ix0 (fun a => a.elim0)
  · exact broadcastInDim_apply _ _ _ (ix2 n (0 : Fin 1)) ix0 (fun a => a.elim0)

/-- One channel of a point less a per-pillar value, through the reshape and the two broadcasts around the subtraction. -/
theorem offs_apply (X : (⟨S40000x32x7, .f32⟩ : BufTy).Contents (Elt Ideal)) (z : (⟨S40000x1, .f32⟩ : BufTy).Contents (Elt Ideal))
    (k : Fin 7) (off : Fin 3 → Nat) (hoff : off = ![0, 0, k.val]) (hs : S40000x32x7.Slices off S40000x32x1)
    (n : Fin 40000) (q : Fin 32) :
    broadcastInDim S40000x32x1 ![0, 1] bcast_S40000x32_S40000x32x1_0_1
        (subf (F := Ideal) (φ := .f32) (shapeCast S40000x32 (extractStridedSlice S40000x32x1 off X hs) shapeCasts_S40000x32x1_S40000x32)
          (broadcastInDim S40000x32 ![0, 1] bcast_S40000x1_S40000x32_0_1 z)) (ix3 n q (0 : Fin 1))
      = X (ix3 n q k) - z (ix2 n (0 : Fin 1)) := by
  subst hoff
  refine (broadcastInDim_apply _ _ _ (ix3 n q (0 : Fin 1)) (ix2 n q) (fun a => match a with | ⟨0, _⟩ => rfl | ⟨1, _⟩ => rfl)).trans ?_
  refine congrArg₂ (· - ·) ?_ ?_
  · rw [shapeCast_apply _ _ (ix2 n q) (ix3 n q (0 : Fin 1)) (by rw [Shape.rowMajor_val_three, Shape.rowMajor_val_two]; show (n.val * 32 + q.val) * 1 + 0 = n.val * 32 + q.val; omega)]
    exact extractStridedSlice_apply _ _ _ (ix3 n q (0 : Fin 1)) (ix3 n q k)
        (fun a => match a with
          | ⟨0, _⟩ => by show n.val = 0 + n.val; omega
          | ⟨1, _⟩ => by show q.val = 0 + q.val; omega
          | ⟨2, _⟩ => by show k.val = k.val + 0; omega)
  · exact broadcastInDim_apply _ _ _ (ix2 n q) (ix2 n (0 : Fin 1)) (fun a => match a with | ⟨0, _⟩ => rfl | ⟨1, _⟩ => rfl)

/-- The centre offsets: the x one. -/
theorem ctr_apply0 (X : (⟨S40000x32x7, .f32⟩ : BufTy).Contents (Elt Ideal)) (co : (⟨S40000x4, .i32⟩ : BufTy).Contents (Elt Ideal))
    (n : Fin 40000) (q : Fin 32) :
    ctr (F := Ideal) X co (ix3 n q (0 : Fin 2)) = X (ix3 n q 0) - Cert.Pfn.cxOf (co (ix2 n 3)) := by
  unfold ctr
  refine (concatenate_pair_apply_left (t := S40000x32x2) (s₁ := S40000x32x1) (s₂ := S40000x32x1) (2 : Fin 3) _ _ _ (ix3 n q (0 : Fin 2)) rfl (ix3 n q (0 : Fin 1))
    (fun b => match b with | ⟨0, _⟩ => rfl | ⟨1, _⟩ => rfl | ⟨2, _⟩ => rfl)).trans ?_
  refine (offs_apply X (cxArr co) 0 ![0, 0, 0] rfl slices_S40000x32x7_S40000x32x1_0_0_0 n q).trans ?_
  rw [cxArr_apply]

/-- The centre offsets: the y one. -/
theorem ctr_apply1 (X : (⟨S40000x32x7, .f32⟩ : BufTy).Contents (Elt Ideal)) (co : (⟨S40000x4, .i32⟩ : BufTy).Contents (Elt Ideal))
    (n : Fin 40000) (q : Fin 32) :
    ctr (F := Ideal) X co (ix3 n q (1 : Fin 2)) = X (ix3 n q 1) - Cert.Pfn.cyOf (co (ix2 n 2)) := by
  unfold ctr
  refine (concatenate_pair_apply_right (t := S40000x32x2) (s₁ := S40000x32x1) (s₂ := S40000x32x1) (2 : Fin 3) _ _ _ (ix3 n q (1 : Fin 2)) rfl rfl (ix3 n q (0 : Fin 1))
    (fun b => match b with | ⟨0, _⟩ => fun _ => rfl | ⟨1, _⟩ => fun _ => rfl | ⟨2, _⟩ => fun h => absurd rfl h) rfl).trans ?_
  refine (offs_apply X (cyArr co) 1 ![0, 0, 1] rfl slices_S40000x32x7_S40000x32x1_0_0_1 n q).trans ?_
  rw [cyArr_apply]

/-- The seven leading channels: the two centre offsets … -/
theorem raw7_lo (X : (⟨S40000x32x7, .f32⟩ : BufTy).Contents (Elt Ideal)) (co : (⟨S40000x4, .i32⟩ : BufTy).Contents (Elt Ideal))
    (n : Fin 40000) (q : Fin 32) (c : Fin 2) :
    raw7 (F := Ideal) X co (ix3 n q ⟨c.val, by omega⟩) = ctr (F := Ideal) X co (ix3 n q c) := by
  unfold raw7
  exact concatenate_pair_apply_left (t := S40000x32x7) (s₁ := S40000x32x2) (s₂ := S40000x32x5) (2 : Fin 3) _ _ _
    (ix3 n q (⟨c.val, by omega⟩ : Fin 7)) rfl (ix3 n q c)
    (fun b => match b with | ⟨0, _⟩ => rfl | ⟨1, _⟩ => rfl | ⟨2, _⟩ => rfl)

/-- … and the five raw channels after them. -/
theorem raw7_hi (X : (⟨S40000x32x7, .f32⟩ : BufTy).Contents (Elt Ideal)) (co : (⟨S40000x4, .i32⟩ : BufTy).Contents (Elt Ideal))
    (n : Fin 40000) (q : Fin 32) (c : Fin 5) :
    raw7 (F := Ideal) X co (ix3 n q ⟨c.val + 2, by omega⟩) = X (ix3 n q ⟨c.val + 2, by omega⟩) := by
  unfold raw7
  refine (concatenate_pair_apply_right (t := S40000x32x7) (s₁ := S40000x32x2) (s₂ := S40000x32x5) (2 : Fin 3) _ _ _
    (ix3 n q (⟨c.val + 2, by omega⟩ : Fin 7)) rfl rfl (ix3 n q c)
    (fun b => match b with | ⟨0, _⟩ => fun _ => rfl | ⟨1, _⟩ => fun _ => rfl | ⟨2, _⟩ => fun h => absurd rfl h) rfl).trans ?_
  exact extractStridedSlice_apply _ _ _ (ix3 n q c) (ix3 n q ⟨c.val + 2, by omega⟩)
    (fun a => match a with
      | ⟨0, _⟩ => by show n.val = 0 + n.val; omega
      | ⟨1, _⟩ => by show q.val = 0 + q.val; omega
      | ⟨2, _⟩ => by show c.val + 2 = 2 + c.val; omega)

end Cert.ReferenceIdeal.RefValue

end
-- ==== Proof.RefLin.lean ====
/-
  The reference's sixteen augmented channels, its mask and its linear map read at an index: they are the specification's, with the point count itself as the means' divisor.
-/
import proofs.«173196_j49855980372233_2_alg».proof.Proof.RefStages
import proofs.«173196_j49855980372233_2_alg».proof.Proof.Spec
import proofs.«173196_j49855980372233_2_alg».proof.Proof.RefFeat
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-- The sixteen augmented channels of a point. -/
theorem aug16_apply (X : (⟨S40000x32x7, .f32⟩ : BufTy).Contents (Elt Ideal)) (np : (⟨S40000, .i32⟩ : BufTy).Contents (Elt Ideal))
    (co : (⟨S40000x4, .i32⟩ : BufTy).Contents (Elt Ideal)) (n : Fin 40000) (q : Fin 32) (c : Fin 16) :
    aug16 (F := Ideal) X np co (ix3 n q c)
      = Cert.Pfn.aug (fun q' c' => X (ix3 n q' c')) (Cert.Pfn.dRaw (np (ix1 n))) (Cert.Pfn.cxOf (co (ix2 n 3)))
          (Cert.Pfn.cyOf (co (ix2 n 2))) q c := by
  unfold aug16
  match c with
  | ⟨0, _⟩ =>
    exact (concatenate_apply_piece (t := S40000x32x16) (2 : Fin 3) _ _ (ix3 n q (⟨0, by omega⟩ : Fin 16)) 0 (by show (0 : Nat) < 4; omega) S40000x32x7 _ rfl rfl 0 rfl
      (ix3 n q (0 : Fin 7)) (fun b => match b with | ⟨0, _⟩ => fun _ => rfl | ⟨1, _⟩ => fun _ => rfl | ⟨2, _⟩ => fun h => absurd rfl h) rfl).trans ((raw7_lo X co n q 0).trans (ctr_apply0 X co n q))
  | ⟨1, _⟩ =>
    exact (concatenate_apply_piece (t := S40000x32x16) (2 : Fin 3) _ _ (ix3 n q (⟨1, by omega⟩ : Fin 16)) 0 (by show (0 : Nat) < 4; omega) S40000x32x7 _ rfl rfl 0 rfl
      (ix3 n q (1 : Fin 7)) (fun b => match b with | ⟨0, _⟩ => fun _ => rfl | ⟨1, _⟩ => fun _ => rfl | ⟨2, _⟩ => fun h => absurd rfl h) rfl).trans ((raw7_lo X co n q 1).trans (ctr_apply1 X co n q))
  | ⟨2, _⟩ =>
    exact (concatenate_apply_piece (t := S40000x32x16) (2 : Fin 3) _ _ (ix3 n q (⟨2, by omega⟩ : Fin 16)) 0 (by show (0 : Nat) < 4; omega) S40000x32x7 _ rfl rfl 0 rfl
      (ix3 n q (2 : Fin 7)) (fun b => match b with | ⟨0, _⟩ => fun _ => rfl | ⟨1, _⟩ => fun _ => rfl | ⟨2, _⟩ => fun h => absurd rfl h) rfl).trans (raw7_hi X co n q (0 : Fin 5))
  | ⟨3, _⟩ =>
    exact (concatenate_apply_piece (t := S40000x32x16) (2 : Fin 3) _ _ (ix3 n q (⟨3, by omega⟩ : Fin 16)) 0 (by show (0 : Nat) < 4; omega) S40000x32x7 _ rfl rfl 0 rfl
      (ix3 n q (3 : Fin 7)) (fun b => match b with | ⟨0, _⟩ => fun _ => rfl | ⟨1, _⟩ => fun _ => rfl | ⟨2, _⟩ => fun h => absurd rfl h) rfl).trans (raw7_hi X co n q (1 : Fin 5))
  | ⟨4, _⟩ =>
    exact (concatenate_apply_piece (t := S40000x32x16) (2 : Fin 3) _ _ (ix3 n q (⟨4, by omega⟩ : Fin 16)) 0 (by show (0 : Nat) < 4; omega) S40000x32x7 _ rfl rfl 0 rfl
      (ix3 n q (4 : Fin 7)) (fun b => match b with | ⟨0, _⟩ => fun _ => rfl | ⟨1, _⟩ => fun _ => rfl | ⟨2, _⟩ => fun h => absurd rfl h) rfl).trans (raw7_hi X co n q (2 : Fin 5))
  | ⟨5, _⟩ =>
    exact (concatenate_apply_piece (t := S40000x32x16) (2 : Fin 3) _ _ (ix3 n q (⟨5, by omega⟩ : Fin 16)) 0 (by show (0 : Nat) < 4; omega) S40000x32x7 _ rfl rfl 0 rfl
      (ix3 n q (5 : Fin 7)) (fun b => match b with | ⟨0, _⟩ => fun _ => rfl | ⟨1, _⟩ => fun _ => rfl | ⟨2, _⟩ => fun h => absurd rfl h) rfl).trans (raw7_hi X co n q (3 : Fin 5))
  | ⟨6, _⟩ =>
    exact (concatenate_apply_piece (t := S40000x32x16) (2 : Fin 3) _ _ (ix3 n q (⟨6, by omega⟩ : Fin 16)) 0 (by show (0 : Nat) < 4; omega) S40000x32x7 _ rfl rfl 0 rfl
      (ix3 n q (6 : Fin 7)) (fun b => match b with | ⟨0, _⟩ => fun _ => rfl | ⟨1, _⟩ => fun _ => rfl | ⟨2, _⟩ => fun h => absurd rfl h) rfl).trans (raw7_hi X co n q (4 : Fin 5))
  | ⟨7, _⟩ =>
    exact (concatenate_apply_piece (t := S40000x32x16) (2 : Fin 3) _ _ (ix3 n q (⟨7, by omega⟩ : Fin 16)) 1 (by show (1 : Nat) < 4; omega) S40000x32x3 _ rfl rfl 7 rfl
      (ix3 n q (0 : Fin 3)) (fun b => match b with | ⟨0, _⟩ => fun _ => rfl | ⟨1, _⟩ => fun _ => rfl | ⟨2, _⟩ => fun h => absurd rfl h) rfl).trans (clus_apply X np n q (0 : Fin 3))
  | ⟨8, _⟩ =>
    exact (concatenate_apply_piece (t := S40000x32x16) (2 : Fin 3) _ _ (ix3 n q (⟨8, by omega⟩ : Fin 16)) 1 (by show (1 : Nat) < 4; omega) S40000x32x3 _ rfl rfl 7 rfl
      (ix3 n q (1 : Fin 3)) (fun b => match b with | ⟨0, _⟩ => fun _ => rfl | ⟨1, _⟩ => fun _ => rfl | ⟨2, _⟩ => fun h => absurd rfl h) rfl).trans (clus_apply X np n q (1 : Fin 3))
  | ⟨9, _⟩ =>
    exact (concatenate_apply_piece (t := S40000x32x16) (2 : Fin 3) _ _ (ix3 n q (⟨9, by omega⟩ : Fin 16)) 1 (by show (1 : Nat) < 4; omega) S40000x32x3 _ rfl rfl 7 rfl
      (ix3 n q (2 : Fin 3)) (fun b => match b with | ⟨0, _⟩ => fun _ => rfl | ⟨1, _⟩ => fun _ => rfl | ⟨2, _⟩ => fun h => absurd rfl h) rfl).trans (clus_apply X np n q (2 : Fin 3))
  | ⟨10, _⟩ =>
    exact (concatenate_apply_piece (t := S40000x32x16) (2 : Fin 3) _ _ (ix3 n q (⟨10, by omega⟩ : Fin 16)) 2 (by show (2 : Nat) < 4; omega) S40000x32x2 _ rfl rfl 10 rfl
      (ix3 n q (0 : Fin 2)) (fun b => match b with | ⟨0, _⟩ => fun _ => rfl | ⟨1, _⟩ => fun _ => rfl | ⟨2, _⟩ => fun h => absurd rfl h) rfl).trans (ctr_apply0 X co n q)
  | ⟨11, _⟩ =>
    exact (concatenate_apply_piece (t := S40000x32x16) (2 : Fin 3) _ _ (ix3 n q (⟨11, by omega⟩ : Fin 16)) 2 (by show (2 : Nat) < 4; omega) S40000x32x2 _ rfl rfl 10 rfl
      (ix3 n q (1 : Fin 2)) (fun b => match b with | ⟨0, _⟩ => fun _ => rfl | ⟨1, _⟩ => fun _ => rfl | ⟨2, _⟩ => fun h => absurd rfl h) rfl).trans (ctr_apply1 X co n q)
  | ⟨12, _⟩ =>
    exact (concatenate_apply_piece (t := S40000x32x16) (2 : Fin 3) _ _ (ix3 n q (⟨12, by omega⟩ : Fin 16)) 3 (by show (3 : Nat) < 4; omega) S40000x32x4 _ rfl rfl 12 rfl
      (ix3 n q (0 : Fin 4)) (fun b => match b with | ⟨0, _⟩ => fun _ => rfl | ⟨1, _⟩ => fun _ => rfl | ⟨2, _⟩ => fun h => absurd rfl h) rfl).trans (vel_apply X np n q (0 : Fin 4))
  | ⟨13, _⟩ =>
    exact (concatenate_apply_piece (t := S40000x32x16) (2 : Fin 3) _ _ (ix3 n q (⟨13, by omega⟩ : Fin 16)) 3 (by show (3 : Nat) < 4; omega) S40000x32x4 _ rfl rfl 12 rfl
      (ix3 n q (1 : Fin 4)) (fun b => match b with | ⟨0, _⟩ => fun _ => rfl | ⟨1, _⟩ => fun _ => rfl | ⟨2, _⟩ => fun h => absurd rfl h) rfl).trans (vel_apply X np n q (1 : Fin 4))
  | ⟨14, _⟩ =>
    exact (concatenate_apply_piece (t := S40000x32x16) (2 : Fin 3) _ _ (ix3 n q (⟨14, by omega⟩ : Fin 16)) 3 (by show (3 : Nat) < 4; omega) S40000x32x4 _ rfl rfl 12 rfl
      (ix3 n q (2 : Fin 4)) (fun b => match b with | ⟨0, _⟩ => fun _ => rfl | ⟨1, _⟩ => fun _ => rfl | ⟨2, _⟩ => fun h => absurd rfl h) rfl).trans (vel_apply X np n q (2 : Fin 4))
  | ⟨15, _⟩ =>
    exact (concatenate_apply_piece (t := S40000x32x16) (2 : Fin 3) _ _ (ix3 n q (⟨15, by omega⟩ : Fin 16)) 3 (by show (3 : Nat) < 4; omega) S40000x32x4 _ rfl rfl 12 rfl
      (ix3 n q (3 : Fin 4)) (fun b => match b with | ⟨0, _⟩ => fun _ => rfl | ⟨1, _⟩ => fun _ => rfl | ⟨2, _⟩ => fun h => absurd rfl h) rfl).trans (vel_apply X np n q (3 : Fin 4))
  | ⟨k + 16, h⟩ => exact absurd h (by omega)

/-- The word of a small natural number read as a signed integer is the number. -/
theorem ofNat_toInt (q : Fin 32) : (BitVec.ofNat 32 q.val).toInt = (q.val : ℤ) := by
  have := q.isLt
  rw [BitVec.toInt_eq_toNat_cond, BitVec.toNat_ofNat]
  have h : q.val % 2 ^ 32 = q.val := Nat.mod_eq_of_lt (by omega)
  rw [h]; split <;> omega

/-- The comparison "point index below the count", as a float, is the mask. -/
theorem mask_val (w : BitVec 32) (q : Fin 32) :
    (FloatOps.uitofp (F := Ideal) .f32 (IntOp.cmpi .slt (BitVec.ofNat 32 q.val) w) : EReal) = Cert.Pfn.maskVal w q := by
  unfold Cert.Pfn.maskVal
  show (((IntOp.cmpi .slt (BitVec.ofNat 32 q.val) w).toNat : ℝ) : EReal) = _
  unfold IntOp.cmpi
  simp only [BitVec.slt, ofNat_toInt]
  by_cases h : (q.val : ℤ) < w.toInt
  · simp [h]
  · simp [h]

/-- The mask's comparison at a pillar and a point. -/
theorem maskB_apply (np : (⟨S40000, .i32⟩ : BufTy).Contents (Elt Ideal)) (n : Fin 40000) (q : Fin 32) :
    maskB (F := Ideal) np (ix2 n q) = IntOp.cmpi .slt (BitVec.ofNat 32 q.val) (np (ix1 n)) := by
  unfold maskB
  refine congrArg₂ (IntOp.cmpi .slt) ?_ ?_
  · refine (broadcastInDim_apply _ _ _ (ix2 n q) (ix2 (0 : Fin 1) q) (fun a => match a with | ⟨0, _⟩ => rfl | ⟨1, _⟩ => rfl)).trans ?_
    exact broadcastInDim_apply _ _ _ (ix2 (0 : Fin 1) q) (ix1 q) (fun a => match a with | ⟨0, _⟩ => rfl)
  · refine (broadcastInDim_apply _ _ _ (ix2 n q) (ix2 n (0 : Fin 1)) (fun a => match a with | ⟨0, _⟩ => rfl | ⟨1, _⟩ => rfl)).trans ?_
    exact broadcastInDim_apply _ _ _ (ix2 n (0 : Fin 1)) (ix1 n) (fun a => match a with | ⟨0, _⟩ => rfl)

/-- The masked channels at a point: the channel times the mask's float. -/
theorem feat16_apply (a : (⟨S40000x32x16, .f32⟩ : BufTy).Contents (Elt Ideal)) (mk : (⟨S40000x32, .i1⟩ : BufTy).Contents (Elt Ideal))
    (n : Fin 40000) (q : Fin 32) (c : Fin 16) :
    feat16 (F := Ideal) a mk (ix3 n q c) = a (ix3 n q c) * (FloatOps.uitofp (F := Ideal) .f32 (mk (ix2 n q)) : EReal) := by
  unfold feat16 maskF
  refine congrArg₂ (· * ·) rfl ?_
  refine (broadcastInDim_apply _ _ _ (ix3 n q c) (ix3 n q (0 : Fin 1)) (fun a => match a with | ⟨0, _⟩ => rfl | ⟨1, _⟩ => rfl | ⟨2, _⟩ => rfl)).trans ?_
  exact broadcastInDim_apply _ _ _ (ix3 n q (0 : Fin 1)) (ix2 n q) (fun a => match a with | ⟨0, _⟩ => rfl | ⟨1, _⟩ => rfl)

/-- The masked augmented channels of the arguments are the specification's. -/
theorem feat_apply (X : (⟨S40000x32x7, .f32⟩ : BufTy).Contents (Elt Ideal)) (np : (⟨S40000, .i32⟩ : BufTy).Contents (Elt Ideal))
    (co : (⟨S40000x4, .i32⟩ : BufTy).Contents (Elt Ideal)) (n : Fin 40000) (q : Fin 32) (c : Fin 16) :
    feat16 (F := Ideal) (aug16 X np co) (maskB np) (ix3 n q c)
      = Cert.Pfn.feat (fun q' c' => X (ix3 n q' c')) (Cert.Pfn.dRaw (np (ix1 n))) (Cert.Pfn.cxOf (co (ix2 n 3)))
          (Cert.Pfn.cyOf (co (ix2 n 2))) (Cert.Pfn.maskVal (np (ix1 n))) q c := by
  rw [feat16_apply, aug16_apply, maskB_apply, mask_val]
  rfl

/-- The linear map at a point and an output channel: the sum over the sixteen channels. -/
theorem lin64_apply (f : (⟨S40000x32x16, .f32⟩ : BufTy).Contents (Elt Ideal)) (W : (⟨S16x64, .f32⟩ : BufTy).Contents (Elt Ideal))
    (n : Fin 40000) (q : Fin 32) (j : Fin 64) :
    lin64 (F := Ideal) f W (ix3 n q j) = ∑ c : Fin 16, f (ix3 n q c) * W (ix2 c j) := by
  unfold lin64
  show FloatOps.dotGeneral (F := Ideal) (φ₁ := .f32) (φ₂ := .f32) dot_S40000x32x16_S16x64_S40000x32x64_2_0_01_1_n_n none .single f W (ix3 n q j) = _
  rw [Ideal.dotGeneral_apply,
    ← Equiv.sum_comp (contrEquiv1 dot_S40000x32x16_S16x64_S40000x32x64_2_0_01_1_n_n 16 (by decide) (by decide)).symm]
  refine Finset.sum_congr rfl fun c _ => congrArg₂ (· * ·) (congrArg f ?_) (congrArg W ?_)
  · funext a
    match a with
    | ⟨0, _⟩ => rfl
    | ⟨1, _⟩ => rfl
    | ⟨2, _⟩ =>
      exact Fin.ext ((DotDims.lhsIdx_val_of_single _ (cl := (2 : Fin 3)) rfl _ _).trans
        (contrEquiv1_symm_val dot_S40000x32x16_S16x64_S40000x32x64_2_0_01_1_n_n 16 _ _ c))
  · funext a
    match a with
    | ⟨0, _⟩ =>
      exact Fin.ext ((DotDims.rhsIdx_val_of_single _ (cr := (0 : Fin 2)) rfl _ _).trans
        (contrEquiv1_symm_val dot_S40000x32x16_S16x64_S40000x32x64_2_0_01_1_n_n 16 _ _ c))
    | ⟨1, _⟩ => rfl

/-- The linear map's output of the arguments is the specification's, with the point count as the divisor. -/
theorem linOut_apply (X : (⟨S40000x32x7, .f32⟩ : BufTy).Contents (Elt Ideal)) (np : (⟨S40000, .i32⟩ : BufTy).Contents (Elt Ideal))
    (co : (⟨S40000x4, .i32⟩ : BufTy).Contents (Elt Ideal)) (W : (⟨S16x64, .f32⟩ : BufTy).Contents (Elt Ideal))
    (n : Fin 40000) (q : Fin 32) (j : Fin 64) :
    linOut (F := Ideal) X np co W (ix3 n q j) = Cert.Pfn.Y Cert.Pfn.dRaw X np co W n q j := by
  unfold linOut Cert.Pfn.Y Cert.Pfn.lin
  rw [lin64_apply]
  exact Finset.sum_congr rfl fun c _ => by rw [feat_apply]

end Cert.ReferenceIdeal.RefValue

end
-- ==== Proof.Algebra.lean ====
/-
  The two arrangements of the normalisation agree on real inputs.

  Four steps. (a) The two divisors give the same linear output: where a point is masked out its features are
  multiplied by zero whatever the divisor, and where it is kept the point count is at least one, so the clamped
  divisor is the count itself. (b) Every linear output is a real number: a kept point's pillar has a nonzero real
  divisor, and sums, differences and products of reals are real. (c) Over reals the mean of squared deviations is
  the mean of squares minus the squared mean, and it is not negative, so the clamp at zero does nothing and the
  two variances coincide. (d) With one variance, y·(γ·r) + (β − μ·γ·r) = (y − μ)·r·γ + β, so the two activations
  and hence the two row maxima coincide.
-/
import proofs.«173196_j49855980372233_2_alg».proof.Proof.Spec

noncomputable section

open scoped BigOperators

namespace Cert.Pfn

open Idealize.ShloMosaic Idealize.ShloMosaic.ValueIdx

/-! ## Reals among the extended reals -/

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sum {ι : Type} (s : Finset ι) (f : ι → EReal) (h : ∀ i ∈ s, IsReal (f i)) : IsReal (∑ i ∈ s, f i) :=
  Finset.sum_induction f IsReal (fun _ _ => IsReal.add) IsReal.zero h

/-- The coercion of reals commutes with finite sums. -/
theorem coe_sum {ι : Type} (s : Finset ι) (f : ι → ℝ) : ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

/-- The coercion of reals commutes with the maximum. -/
theorem coe_max (a b : ℝ) : max (a : EReal) (b : EReal) = ((max a b : ℝ) : EReal) :=
  (EReal.coe_strictMono.monotone.map_max).symm

/-! ## The literals -/

/-- A word whose exponent field is not all ones denotes a real. -/
theorem ieee_isReal (e m : Nat) {w : Nat} (b : BitVec w) (h : (b.extractLsb' m e).toNat ≠ 2 ^ e - 1) :
    IsReal (Ideal.ieee e m b) := by
  dsimp only [Ideal.ieee]
  rw [if_neg h]
  split_ifs <;> exact ⟨_, rfl⟩

/-- A word with sign bit clear and an exponent field neither zero nor all ones denotes a positive real. -/
theorem ieee_pos (e m : Nat) {w : Nat} (b : BitVec w) (hs : (b.extractLsb' (e + m) 1 == 1#1) = false)
    (h1 : (b.extractLsb' m e).toNat ≠ 2 ^ e - 1) (h0 : (b.extractLsb' m e).toNat ≠ 0) :
    ∃ r : ℝ, Ideal.ieee e m b = (r : EReal) ∧ 0 < r := by
  dsimp only [Ideal.ieee]
  rw [if_neg h1, if_neg h0, hs]
  refine ⟨_, rfl, ?_⟩
  simp only [Bool.false_eq_true, if_false]
  positivity

theorem cVox_isReal : IsReal cVox := ieee_isReal 8 23 (0x3E4CCCCD#32 : BitVec 32) (by decide)
theorem cXoff_isReal : IsReal cXoff := ieee_isReal 8 23 (0x3DCCCCCD#32 : BitVec 32) (by decide)
theorem cYoff_isReal : IsReal cYoff := ieee_isReal 8 23 (0xC21F999A#32 : BitVec 32) (by decide)
theorem cEps_pos : ∃ e : ℝ, cEps = (e : EReal) ∧ 0 < e :=
  ieee_pos 8 23 (0x3A83126F#32 : BitVec 32) (by decide) (by decide) (by decide)
theorem cN_eq : cN = ((1280000 : ℝ) : EReal) := by
  simp [cN, Ideal.ofBits, Ideal.ieee]
  rw [← EReal.coe_mul, EReal.coe_eq_coe_iff]
  norm_num
theorem cZero_eq : cZero = 0 := Ideal.ofBits_zero_f32

/-! ## (a) The two divisors give one linear output -/

theorem Y_dClamp_eq_dRaw (X : SX.Idx → EReal) (np : SNp.Idx → BitVec 32) (co : SCo.Idx → BitVec 32) (W : SW.Idx → EReal) :
    Y dClamp X np co W = Y dRaw X np co W := by
  funext n q j
  unfold Y
  by_cases hm : (q.val : ℤ) < (np (ix1 n)).toInt
  · have hd : dClamp (np (ix1 n)) = dRaw (np (ix1 n)) := by
      unfold dClamp dRaw
      rw [if_pos (by omega)]
    rw [hd]
  · have hz : maskVal (np (ix1 n)) q = 0 := by
      unfold maskVal
      rw [if_neg hm]
      rfl
    unfold lin feat
    simp only [hz, mul_zero, zero_mul]

/-! ## (b) Every linear output is a real -/

theorem colMean_isReal (x : Fin 32 → Fin 7 → EReal) (hx : ∀ q c, IsReal (x q c)) (d : ℝ) (hd : d ≠ 0) (c : Fin 7) :
    IsReal (colMean x (d : EReal) c) := by
  unfold colMean
  rw [Ideal.div_coe hd]
  exact (IsReal.sum _ _ fun q _ => hx q c).mul (IsReal.coe _)

theorem aug_isReal (x : Fin 32 → Fin 7 → EReal) (hx : ∀ q c, IsReal (x q c)) (d : ℝ) (hd : d ≠ 0) (cx cy : EReal)
    (hcx : IsReal cx) (hcy : IsReal cy) (q : Fin 32) : ∀ c : Fin 16, IsReal (aug x (d : EReal) cx cy q c)
  | 0 => (hx _ _).sub hcx
  | 1 => (hx _ _).sub hcy
  | 2 => hx _ _
  | 3 => hx _ _
  | 4 => hx _ _
  | 5 => hx _ _
  | 6 => hx _ _
  | 7 => (hx _ _).sub (colMean_isReal x hx d hd _)
  | 8 => (hx _ _).sub (colMean_isReal x hx d hd _)
  | 9 => (hx _ _).sub (colMean_isReal x hx d hd _)
  | 10 => (hx _ _).sub hcx
  | 11 => (hx _ _).sub hcy
  | 12 => (hx _ _).sub (colMean_isReal x hx d hd _)
  | 13 => (hx _ _).sub (colMean_isReal x hx d hd _)
  | 14 => (hx _ _).sub (colMean_isReal x hx d hd _)
  | 15 => (hx _ _).sub (colMean_isReal x hx d hd _)
  | ⟨_ + 16, h⟩ => absurd h (Nat.not_lt.2 (Nat.le_add_left _ _))

theorem maskVal_isReal (w : BitVec 32) (q : Fin 32) : IsReal (maskVal w q) := by
  unfold maskVal
  split_ifs <;> exact ⟨_, rfl⟩

theorem lin_isReal (x : Fin 32 → Fin 7 → EReal) (hx : ∀ q c, IsReal (x q c)) (w : BitVec 32) (cx cy : EReal)
    (hcx : IsReal cx) (hcy : IsReal cy) (wt : Fin 16 → EReal) (hw : ∀ c, IsReal (wt c)) (q : Fin 32) :
    IsReal (lin x (dRaw w) cx cy (maskVal w) wt q) := by
  unfold lin feat
  by_cases hm : (q.val : ℤ) < w.toInt
  · have hd : ((w.toInt : ℤ) : ℝ) ≠ 0 := by
      have h1 : w.toInt ≠ 0 := by omega
      exact_mod_cast h1
    unfold dRaw
    exact IsReal.sum _ _ fun c _ => ((aug_isReal x hx _ hd cx cy hcx hcy q c).mul (maskVal_isReal w q)).mul (hw c)
  · have hz : maskVal w q = 0 := by
      unfold maskVal
      rw [if_neg hm]
      rfl
    simp only [hz, mul_zero, zero_mul, Finset.sum_const_zero]
    exact IsReal.zero

theorem cxOf_isReal (w : BitVec 32) : IsReal (cxOf w) := ((IsReal.coe _).mul cVox_isReal).add cXoff_isReal
theorem cyOf_isReal (w : BitVec 32) : IsReal (cyOf w) := ((IsReal.coe _).mul cVox_isReal).add cYoff_isReal

theorem Y_isReal (X : SX.Idx → EReal) (np : SNp.Idx → BitVec 32) (co : SCo.Idx → BitVec 32) (W : SW.Idx → EReal)
    (hX : ∀ i, IsReal (X i)) (hW : ∀ i, IsReal (W i)) (n : Fin 40000) (q : Fin 32) (j : Fin 64) :
    IsReal (Y dRaw X np co W n q j) := by
  unfold Y
  exact lin_isReal _ (fun _ _ => hX _) _ _ _ (cxOf_isReal _) (cyOf_isReal _) _ (fun _ => hW _) q

/-! ## (c) The statistics over reals -/

/-- Over reals, with the mean taken against the number of terms, the mean of squared deviations is the mean of
    squares minus the squared mean. -/
theorem real_var_identity {α β : Type} [Fintype α] [Fintype β] (f : α → β → ℝ) (N μ : ℝ)
    (hN : (Fintype.card α : ℝ) * (Fintype.card β : ℝ) = N) (hpos : 0 < N) (hμ : μ = (∑ a, ∑ b, f a b) * (1 / N)) :
    (∑ a, ∑ b, (f a b - μ) * (f a b - μ)) * (1 / N) = (∑ a, ∑ b, f a b * f a b) * (1 / N) - μ * μ := by
  have h1 : ∀ a b, (f a b - μ) * (f a b - μ) = f a b * f a b - 2 * μ * f a b + μ * μ := fun a b => by ring
  have hS : (∑ a, ∑ b, f a b) = μ * N := by
    rw [hμ]
    field_simp
  have hc : (∑ _a : α, ∑ _b : β, μ) = N * μ := by
    simp only [Finset.sum_const, Finset.card_univ, nsmul_eq_mul]
    rw [← mul_assoc, hN]
  simp only [h1, Finset.sum_add_distrib, Finset.sum_sub_distrib, ← Finset.mul_sum]
  rw [hc, hS]
  field_simp
  ring

theorem real_var_nonneg {α β : Type} [Fintype α] [Fintype β] (f : α → β → ℝ) (N μ : ℝ) (hpos : 0 < N) :
    0 ≤ (∑ a, ∑ b, (f a b - μ) * (f a b - μ)) * (1 / N) :=
  mul_nonneg (Finset.sum_nonneg fun _ _ => Finset.sum_nonneg fun _ _ => mul_self_nonneg _) (by positivity)

/-- A real-valued array read among the extended reals. -/
def lift (yv : Fin 40000 → Fin 32 → Fin 64 → ℝ) : Fin 40000 → Fin 32 → Fin 64 → EReal := fun n q j => ((yv n q j : ℝ) : EReal)

/-- On a real-valued array the mean is a real, and the two variances are one real that is not negative. -/
theorem stats_real (yv : Fin 40000 → Fin 32 → Fin 64 → ℝ) (j : Fin 64) :
    ∃ μ v : ℝ, 0 ≤ v ∧ meanOf (lift yv) j = (μ : EReal) ∧ varFold (lift yv) j = (v : EReal)
      ∧ varCentred (lift yv) j = (v : EReal) := by
  have hN0 : (1280000 : ℝ) ≠ 0 := by norm_num
  have hNpos : (0 : ℝ) < 1280000 := by norm_num
  have hcard : ((Fintype.card (Fin 40000) : ℕ) : ℝ) * ((Fintype.card (Fin 32) : ℕ) : ℝ) = 1280000 := by
    rw [Fintype.card_fin, Fintype.card_fin]
    norm_num
  have hmean : meanOf (lift yv) j = (((∑ n, ∑ q, yv n q j) * (1 / 1280000) : ℝ) : EReal) := by
    unfold meanOf S1 lift
    rw [cN_eq, Ideal.div_coe hN0]
    simp only [coe_sum, ← EReal.coe_mul]
  have hid := real_var_identity (fun n q => yv n q j) 1280000 _ hcard hNpos rfl
  have hnn := real_var_nonneg (fun n q => yv n q j) 1280000 ((∑ n, ∑ q, yv n q j) * (1 / 1280000)) hNpos
  refine ⟨_, _, hnn, hmean, ?_, ?_⟩
  · unfold varFold
    rw [hmean]
    unfold S2 lift
    rw [cN_eq, Ideal.div_coe hN0, cZero_eq]
    simp only [coe_sum, ← EReal.coe_mul, ← EReal.coe_sub]
    rw [← hid, ← EReal.coe_zero, coe_max, max_eq_left hnn]
  · unfold varCentred
    rw [hmean]
    unfold lift
    rw [cN_eq, Ideal.div_coe hN0]
    simp only [coe_sum, ← EReal.coe_mul, ← EReal.coe_sub]

/-! ## (d) The two activations coincide -/

theorem actFold_eq_actCentred (yv : Fin 40000 → Fin 32 → Fin 64 → ℝ) (γ β : SC.Idx → EReal)
    (hγ : ∀ i, IsReal (γ i)) (hβ : ∀ i, IsReal (β i)) (n : Fin 40000) (q : Fin 32) (j : Fin 64) :
    actFold (lift yv) γ β n q j = actCentred (lift yv) γ β n q j := by
  obtain ⟨μ, v, hv0, hμ, hvF, hvC⟩ := stats_real yv j
  obtain ⟨e, he, hepos⟩ := cEps_pos
  obtain ⟨g, hg⟩ := hγ (ix1 j)
  obtain ⟨b, hb⟩ := hβ (ix1 j)
  have hpos : 0 < v + e := by linarith
  have hr : Ideal.rsqrt (((v + e : ℝ)) : EReal) = (((Real.sqrt (v + e))⁻¹ : ℝ) : EReal) := by
    rw [Ideal.rsqrt_coe, if_neg (not_lt.2 hpos.le), if_neg hpos.ne']
  unfold actFold actCentred scaleFold shiftFold
  rw [hμ, hvF, hvC, hg, hb, he, ← EReal.coe_add, hr]
  simp only [lift, ← EReal.coe_mul, ← EReal.coe_sub, ← EReal.coe_add]
  congr 2
  ring

/-! ## The two results coincide -/

theorem outFold_eq_outCentred (X : SX.Idx → EReal) (np : SNp.Idx → BitVec 32) (co : SCo.Idx → BitVec 32) (W : SW.Idx → EReal)
    (γ β : SC.Idx → EReal)
    (hX : ∀ i, ∃ r : ℝ, X i = (r : EReal)) (hW : ∀ i, ∃ r : ℝ, W i = (r : EReal))
    (hγ : ∀ i, ∃ r : ℝ, γ i = (r : EReal)) (hβ : ∀ i, ∃ r : ℝ, β i = (r : EReal)) :
    outFold X np co W γ β = outCentred X np co W γ β := by
  have hY : ∀ n q j, ∃ r : ℝ, Y dRaw X np co W n q j = (r : EReal) := Y_isReal X np co W hX hW
  choose yv hyv using hY
  have hY' : Y dRaw X np co W = lift yv := by
    funext n q j
    exact hyv n q j
  funext i
  unfold outFold outCentred
  rw [Y_dClamp_eq_dRaw, hY']
  congr 1
  funext q
  exact actFold_eq_actCentred yv γ β hγ hβ (i 0) q (i 1)

end Cert.Pfn

end
-- ==== Proof.RefStats.lean ====
/-
  The reference's per-channel statistics, read at a channel.

  The sum over the first two axes of the [40000, 32, 64] array at channel j is the double sum over pillars and points;
  the mean is that sum divided by the count word; the deviation of an entry is the entry minus its channel's mean; and
  the variance is the sum of squared deviations divided by the count — the count being the count word minus the
  integer zero, which is positive, so the guard against an empty population takes its first branch.
-/
import proofs.«173196_j49855980372233_2_alg».proof.Proof.RefStages
import proofs.«173196_j49855980372233_2_alg».proof.Proof.Spec
import proofs.«173196_j49855980372233_2_alg».proof.Proof.SumIdx
import proofs.«173196_j49855980372233_2_alg».proof.Proof.Algebra
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

namespace Tail

/-! ## Broadcasts read at an index -/

/-- A scalar broadcast to any shape reads the scalar. -/
theorem b0_apply {α : Type} {T : Shape} (h : S_.BroadcastsInDim T (![] : Fin 0 → Fin T.rank)) (c : S_.Idx → α) (i : T.Idx) :
    broadcastInDim T ![] h c i = c ix0 :=
  broadcastInDim_apply _ h c i ix0 (fun a => a.elim0)

/-- A per-channel row broadcast to [1, 1, 64] reads the row at the channel. -/
theorem b1_apply {α : Type} (z : S64.Idx → α) (j : Fin 64) :
    broadcastInDim S1x1x64 ![2] bcast_S64_S1x1x64_2 z (ix3 (0 : Fin 1) (0 : Fin 1) j) = z (ix1 j) :=
  broadcastInDim_apply _ _ z _ (ix1 j) (fun a => match a with | ⟨0, _⟩ => rfl)

/-- A [1, 1, 64] array broadcast to [40000, 32, 64] reads the array at the channel. -/
theorem b3_apply {α : Type} (Z : S1x1x64.Idx → α) (n : Fin 40000) (q : Fin 32) (j : Fin 64) :
    broadcastInDim S40000x32x64 ![0, 1, 2] bcast_S1x1x64_S40000x32x64_0_1_2 Z (ix3 n q j) = Z (ix3 (0 : Fin 1) (0 : Fin 1) j) :=
  broadcastInDim_apply _ _ Z _ (ix3 (0 : Fin 1) (0 : Fin 1) j)
    (fun a => match a with | ⟨0, _⟩ => rfl | ⟨1, _⟩ => rfl | ⟨2, _⟩ => rfl)

/-- The two together: a per-channel row broadcast over pillars and points reads the row at the channel. -/
theorem bb_apply {α : Type} (z : S64.Idx → α) (n : Fin 40000) (q : Fin 32) (j : Fin 64) :
    broadcastInDim S40000x32x64 ![0, 1, 2] bcast_S1x1x64_S40000x32x64_0_1_2
      (broadcastInDim S1x1x64 ![2] bcast_S64_S1x1x64_2 z) (ix3 n q j) = z (ix1 j) :=
  (b3_apply _ n q j).trans (b1_apply z j)

/-! ## The sum and the mean -/

theorem sum64_apply (y : (⟨S40000x32x64, .f32⟩ : BufTy).Contents (Elt Ideal)) (j : Fin 64) :
    sum64 (F := Ideal) y (ix1 j) = ∑ n : Fin 40000, ∑ q : Fin 32, y (ix3 n q j) := by
  unfold sum64
  refine (Cert.Pfn.hostReduceAdd_rows reducesTo_S40000x32x64_S64_d0_1 y _ j).trans ?_
  show Ideal.ofBits .f32 0x00000000#32 + _ = _
  rw [Ideal.ofBits_zero_f32, zero_add]

/-! ## The deviations and the variance -/

theorem dev64_apply (y : (⟨S40000x32x64, .f32⟩ : BufTy).Contents (Elt Ideal)) (n : Fin 40000) (q : Fin 32) (j : Fin 64) :
    dev64 (F := Ideal) y (ix3 n q j) = y (ix3 n q j) - Cert.Pfn.meanOf (fun n q j' => y (ix3 n q j')) j := by
  unfold dev64
  refine (subf_apply _ _ _).trans (congrArg (fun z => y (ix3 n q j) - z) ?_)
  refine (b3_apply _ n q j).trans ?_
  show Ideal.div (broadcastInDim S1x1x64 ![2] bcast_S64_S1x1x64_2 (sum64 (F := Ideal) y) (ix3 (0 : Fin 1) (0 : Fin 1) j))
    (Ideal.ofBits .f32 0x499C4000#32) = _
  rw [b1_apply, sum64_apply]
  rfl

/-- The population count: the count word minus the integer zero. -/
theorem cnt_eq (k : S_.Idx) : cnt (F := Ideal) k = Cert.Pfn.cN := by
  show Ideal.ofBits .f32 0x499C4000#32 - (((0#32 : BitVec 32).toInt : ℝ) : EReal) = Cert.Pfn.cN
  rw [show ((0#32 : BitVec 32).toInt : ℝ) = 0 by simp, EReal.coe_zero, sub_zero]
  rfl

end Tail

open Tail

theorem mean64_apply (y : (⟨S40000x32x64, .f32⟩ : BufTy).Contents (Elt Ideal)) (j : Fin 64) :
    mean64 (F := Ideal) y (ix1 j) = Cert.Pfn.meanOf (fun n q j' => y (ix3 n q j')) j := by
  unfold mean64
  show Ideal.div (sum64 (F := Ideal) y (ix1 j)) (Ideal.ofBits .f32 0x499C4000#32) = _
  rw [sum64_apply]
  rfl

theorem var64_apply (y : (⟨S40000x32x64, .f32⟩ : BufTy).Contents (Elt Ideal)) (j : Fin 64) :
    var64 (F := Ideal) y (ix1 j) = Cert.Pfn.varCentred (fun n q j' => y (ix3 n q j')) j := by
  have hbit : broadcastInDim S64 ![] bcast_S_S64 (cmpf (F := Ideal) .ogt (cnt (F := Ideal)) (constant (F := Ideal) S_ .f32 0x00000000#32)) (ix1 j) = 1#1 := by
    rw [b0_apply]
    show Ideal.cmp .ogt (cnt (F := Ideal) ix0) (Ideal.ofBits .f32 0x00000000#32) = 1#1
    rw [cnt_eq, Ideal.ofBits_zero_f32, Cert.Pfn.cN_eq]
    have h0 : (0 : EReal) < ((1280000 : ℝ) : EReal) := by
      rw [← EReal.coe_zero, EReal.coe_lt_coe_iff]; norm_num
    simp [Ideal.cmp, h0]
  have hcnt : broadcastInDim S64 ![] bcast_S_S64 (cnt (F := Ideal)) (ix1 j) = Cert.Pfn.cN := by
    rw [b0_apply, cnt_eq]
  have hsum : sum64 (F := Ideal) (mulf (F := Ideal) (φ := .f32) (dev64 y) (dev64 y)) (ix1 j)
      = ∑ n : Fin 40000, ∑ q : Fin 32,
          (y (ix3 n q j) - Cert.Pfn.meanOf (fun n q j' => y (ix3 n q j')) j)
            * (y (ix3 n q j) - Cert.Pfn.meanOf (fun n q j' => y (ix3 n q j')) j) := by
    rw [sum64_apply]
    refine Finset.sum_congr rfl fun n _ => Finset.sum_congr rfl fun q _ => ?_
    refine (mulf_apply _ _ _).trans ?_
    rw [dev64_apply]
  unfold var64
  refine (select_apply _ _ _ _).trans ?_
  rw [hbit, select_one]
  show Ideal.div (sum64 (F := Ideal) (mulf (F := Ideal) (φ := .f32) (dev64 y) (dev64 y)) (ix1 j))
    (broadcastInDim S64 ![] bcast_S_S64 (cnt (F := Ideal)) (ix1 j)) = _
  rw [hsum, hcnt]
  rfl

end Cert.ReferenceIdeal.RefValue

end
-- ==== Proof.RefOut.lean ====
/-
  The reference's result, read at a pillar and a channel.

  The result is the maximum, over a pillar's 32 points and from -∞, of the normalised, scaled, shifted and clamped
  linear output. Read at (n, j): the reduction over the point axis is the fold of `max` over the 32 points of the
  activation at (n, q, j), and the activation there is, operation by operation, the expression in the entry of `y`,
  the channel's mean `μ`, variance `v`, scale `γ` and shift `β`.
-/
import proofs.«173196_j49855980372233_2_alg».proof.Proof.RefStats

noncomputable section

open scoped BigOperators

namespace Cert.ReferenceIdeal.RefValue

open Cert.ReferenceIdeal Cert.ReferenceIdeal.Gen Idealize.ShloMosaic Idealize.ShloMosaic.ValueIdx

namespace Tail

/-- The activation array: what the maximum over the point axis is taken of. -/
def actArr (y : FVec Ideal S40000x32x64 .f32) (μ v γ β : FVec Ideal S64 .f32) : FVec Ideal S40000x32x64 .f32 :=
  (maximumf (addf (mulf (mulf (subf y (broadcastInDim S40000x32x64 ![0, 1, 2] bcast_S1x1x64_S40000x32x64_0_1_2 (broadcastInDim S1x1x64 ![2] bcast_S64_S1x1x64_2 μ))) (broadcastInDim S40000x32x64 ![0, 1, 2] bcast_S1x1x64_S40000x32x64_0_1_2 (broadcastInDim S1x1x64 ![2] bcast_S64_S1x1x64_2 (Host.rsqrt (addf v (broadcastInDim S64 ![] bcast_S_S64 (constant S_ .f32 0x3A83126F#32))))))) (broadcastInDim S40000x32x64 ![0, 1, 2] bcast_S1x1x64_S40000x32x64_0_1_2 (broadcastInDim S1x1x64 ![2] bcast_S64_S1x1x64_2 γ))) (broadcastInDim S40000x32x64 ![0, 1, 2] bcast_S1x1x64_S40000x32x64_0_1_2 (broadcastInDim S1x1x64 ![2] bcast_S64_S1x1x64_2 β))) (broadcastInDim S40000x32x64 ![] bcast_S_S40000x32x64 (constant S_ .f32 0x00000000#32)))

theorem outMax_eq (y : (⟨S40000x32x64, .f32⟩ : BufTy).Contents (Elt Ideal)) (μ v γ β : (⟨S64, .f32⟩ : BufTy).Contents (Elt Ideal)) :
    outMax (F := Ideal) y μ v γ β
      = Host.reduce FloatOps.maximumf (actArr y μ v γ β) (constant (F := Ideal) S_ .f32 0xFF800000#32)
          reducesTo_S40000x32x64_S40000x64_d1 h_S_ := rfl

/-- The activation at (n, q, j), operation by operation. -/
theorem actArr_apply (y : (⟨S40000x32x64, .f32⟩ : BufTy).Contents (Elt Ideal)) (μ v γ β : (⟨S64, .f32⟩ : BufTy).Contents (Elt Ideal))
    (n : Fin 40000) (q : Fin 32) (j : Fin 64) :
    actArr y μ v γ β (ix3 n q j)
      = max ((y (ix3 n q j) - μ (ix1 j)) * Ideal.rsqrt (v (ix1 j) + Cert.Pfn.cEps) * γ (ix1 j) + β (ix1 j)) Cert.Pfn.cZero := by
  unfold actArr
  refine (maximumf_apply _ _ _).trans (congrArg₂ max ?_ ((b0_apply _ _ _).trans rfl))
  refine (addf_apply _ _ _).trans (congrArg₂ (· + ·) ?_ (bb_apply β n q j))
  refine (mulf_apply _ _ _).trans (congrArg₂ (· * ·) ?_ (bb_apply γ n q j))
  refine (mulf_apply _ _ _).trans (congrArg₂ (· * ·) ?_ ?_)
  · exact (subf_apply _ _ _).trans (congrArg (fun z => y (ix3 n q j) - z) (bb_apply μ n q j))
  · refine (bb_apply _ n q j).trans ?_
    show Ideal.rsqrt (v (ix1 j) + broadcastInDim S64 ![] bcast_S_S64 (constant (F := Ideal) S_ .f32 0x3A83126F#32) (ix1 j)) = _
    rw [b0_apply]
    rfl

end Tail

open Tail

theorem outMax_apply (y : (⟨S40000x32x64, .f32⟩ : BufTy).Contents (Elt Ideal)) (μ v γ β : (⟨S64, .f32⟩ : BufTy).Contents (Elt Ideal))
    (n : Fin 40000) (j : Fin 64) :
    outMax (F := Ideal) y μ v γ β (ix2 n j)
      = Cert.Pfn.rowMax fun q => max ((y (ix3 n q j) - μ (ix1 j)) * Ideal.rsqrt (v (ix1 j) + Cert.Pfn.cEps) * γ (ix1 j) + β (ix1 j)) Cert.Pfn.cZero := by
  have hred : S40000x32x64.Reduces [1] S40000x64 := by decide
  have hlift : ∀ q : Fin 32, hred.lift (ix2 n j) q = ix3 n q j := fun q => funext fun a =>
    match a with | ⟨0, _⟩ => Fin.ext rfl | ⟨1, _⟩ => Fin.ext rfl | ⟨2, _⟩ => Fin.ext rfl
  rw [outMax_eq]
  refine (Host.reduce_eq_fold_single FloatOps.maximumf _ _ reducesTo_S40000x32x64_S40000x64_d1 hred h_S_ (ix2 n j)).trans ?_
  unfold Cert.Pfn.rowMax
  refine congrArg (fun f : Fin 32 → EReal => (Finset.univ : Finset (Fin 32)).fold max Cert.Pfn.cNegInf f) (funext fun q => ?_)
  exact (congrArg (actArr y μ v γ β) (hlift q)).trans (actArr_apply y μ v γ β n q j)

end Cert.ReferenceIdeal.RefValue

end
-- ==== Proof.RefValue.lean ====
/-
  The reference program's run with its result read: every weakly fair execution of @main terminates with the result
  buffer holding the specification's centred arrangement of the six argument arrays — the means against the point
  count itself, the statistics centred first — and the arguments unchanged.
-/
import proofs.«173196_j49855980372233_2_alg».proof.Proof.RefRun
import proofs.«173196_j49855980372233_2_alg».proof.Proof.RefLin
import proofs.«173196_j49855980372233_2_alg».proof.Proof.RefStats
import proofs.«173196_j49855980372233_2_alg».proof.Proof.RefOut

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- The reference's result, as its stage functions compose it, is the specification's centred arrangement with the
    point count as the divisor. -/
theorem refOut_eq (X : (⟨S40000x32x7, .f32⟩ : BufTy).Contents (Elt Ideal)) (np : (⟨S40000, .i32⟩ : BufTy).Contents (Elt Ideal))
    (co : (⟨S40000x4, .i32⟩ : BufTy).Contents (Elt Ideal)) (W : (⟨S16x64, .f32⟩ : BufTy).Contents (Elt Ideal))
    (γ β : (⟨S64, .f32⟩ : BufTy).Contents (Elt Ideal)) :
    refOut (F := Ideal) X np co W γ β = Cert.Pfn.outCentred X np co W γ β := by
  funext i
  obtain ⟨n, j, rfl⟩ : ∃ (n : Fin 40000) (j : Fin 64), i = ix2 n j := ⟨i 0, i 1, eq_ix2 i⟩
  have hy : (fun n q j' => linOut (F := Ideal) X np co W (ix3 n q j')) = Cert.Pfn.Y Cert.Pfn.dRaw X np co W := by
    funext n q j'; exact linOut_apply X np co W n q j'
  unfold refOut
  rw [outMax_apply, mean64_apply, var64_apply, hy]
  unfold Cert.Pfn.outCentred Cert.Pfn.actCentred
  refine congrArg Cert.Pfn.rowMax (funext fun q => ?_)
  rw [linOut_apply]

/-- On every device, from any memory with zero counters: every weakly fair execution of the reference's @main
    terminates with the result at the specification's centred arrangement of the arguments and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩
      (fun r => ∀ c : Dev Cert.ReferenceIdeal.nD,
        r.2.mem ((c.tc : Thread nD τ).loc main_v79)
            = Cert.Pfn.outCentred (m ((c.tc : Thread nD τ).loc main_arg0)) (m ((c.tc : Thread nD τ).loc main_arg1)) (m ((c.tc : Thread nD τ).loc main_arg2))
                (m ((c.tc : Thread nD τ).loc main_arg3)) (m ((c.tc : Thread nD τ).loc main_arg4)) (m ((c.tc : Thread nD τ).loc main_arg5))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) :=
  (θ_run (Cert.ReferenceIdeal.defs (F := Ideal)) _ _).mono
    (fun _ h c => ⟨(h c).1.trans (refOut_eq _ _ _ _ _ _), (h c).2⟩) (run_stages (F := Ideal) m ρ)

end Cert.ReferenceIdeal.RefValue

end
-- ==== Proof.Finite.lean ====
/-
  From the finiteness precondition to its content: every entry of the four floating-point inputs is a real number.

  The precondition is the conjunction, over the four inputs, of "every entry's absolute value is below +∞", each
  conjunct a reduction by `and` over all axes of the entrywise comparison. A conjunction that is 1 has both
  conjuncts 1; a total reduction by `and` that is 1 met only 1s; and an extended real whose absolute value
  `max x (-x)` is strictly below ⊤ is neither ⊤ nor ⊥, hence a real.
-/
import proofs.«173196_j49855980372233_2_alg».proof.Pre_finite_inputs
import proofs.«173196_j49855980372233_2_alg».proof.Proof.Gen.Pre_finite_inputs
import Idealize.ShloMosaic.Lib.ReduceAll
import Idealize.ShloMosaic.PureOps.Ideal
import Idealize.ShloMosaic.PureOps.Ideal.Laws
import Idealize.ShloMosaic.Lib.ValueIdx

noncomputable section

namespace Cert.Pfn

open Idealize.ShloMosaic

/-- The word of +∞ denotes ⊤. -/
theorem ofBits_inf_f32 : Ideal.ofBits .f32 0x7F800000#32 = (⊤ : EReal) := by
  simp [Ideal.ofBits, Ideal.ieee]

/-- An extended real whose absolute value compares strictly below the word of +∞ is a real. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  change Ideal.cmp .olt (max x (-x)) (Ideal.ofBits .f32 0x7F800000#32) = 1#1 at h
  rw [ofBits_inf_f32] at h
  induction x using EReal.rec with
  | bot => simp [Ideal.cmp] at h
  | coe r => exact ⟨r, rfl⟩
  | top => simp [Ideal.cmp] at h

instance : Subsingleton Cert.Pre_finite_inputs.S_.Idx := ⟨fun a b => funext fun d => d.elim0⟩

theorem finite_of_pre (a0 : FVec Ideal Cert.Pre_finite_inputs.S40000x32x7 .f32) (a1 : IVec Cert.Pre_finite_inputs.S40000 32)
    (a2 : IVec Cert.Pre_finite_inputs.S40000x4 32) (a3 : FVec Ideal Cert.Pre_finite_inputs.S16x64 .f32)
    (a4 a5 : FVec Ideal Cert.Pre_finite_inputs.S64 .f32)
    (h : Cert.Pre_finite_inputs.fn (F := Ideal) a0 a1 a2 a3 a4 a5 = fun _ => 1#1) :
    (∀ i, ∃ r : ℝ, a0 i = (r : EReal)) ∧ (∀ i, ∃ r : ℝ, a3 i = (r : EReal)) ∧ (∀ i, ∃ r : ℝ, a4 i = (r : EReal))
      ∧ (∀ i, ∃ r : ℝ, a5 i = (r : EReal)) := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨fun i => real_of_abs_lt_inf (a0 i) (Host.reduce_andi_all _ _ _ _ _ h0' i),
    fun i => real_of_abs_lt_inf (a3 i) (Host.reduce_andi_all _ _ _ _ _ h1 i),
    fun i => real_of_abs_lt_inf (a4 i) (Host.reduce_andi_all _ _ _ _ _ h2 i),
    fun i => real_of_abs_lt_inf (a5 i) (Host.reduce_andi_all _ _ _ _ _ h3 i)⟩

end Cert.Pfn

end
-- ==== Proof.lean ====
/-
  The certificate's five claims.

  Frames: the two kernel programs' frames are the generated ones; the reference's is its run with the result dropped.
  The ideal pass rewrote nothing, so the kernel's idealization is its own text read over the extended reals.
  Equivalence over the extended reals: the idealized kernel's result array is the FOLDED arrangement of the
  specification (divisor max(count, 1); statistics accumulated block by block into a scale and a shift; variance as
  mean of squares minus square of mean, clamped at zero) and the reference's is the CENTRED arrangement (divisor the
  count itself; variance as the mean of squared deviations). The two agree on finite inputs: a point is multiplied
  by zero exactly where the two divisors could differ, so the linear map's outputs coincide and are real numbers;
  over the reals the two variances are one non-negative number, and y·(γ·r) + (β − μ·γ·r) = (y − μ)·r·γ + β.
  Finiteness of the float inputs is what the precondition states.
-/
import proofs.«173196_j49855980372233_2_alg».proof.Defs
import proofs.«173196_j49855980372233_2_alg».proof.Proof.Gen.Kernel
import proofs.«173196_j49855980372233_2_alg».proof.Proof.Gen.Kernel.Frame
import proofs.«173196_j49855980372233_2_alg».proof.Proof.Gen.KernelIdeal
import proofs.«173196_j49855980372233_2_alg».proof.Proof.Gen.KernelIdeal.Frame
import proofs.«173196_j49855980372233_2_alg».proof.Proof.Gen.ReferenceIdeal
import proofs.«173196_j49855980372233_2_alg».proof.Proof.Gen.Pre_finite_inputs
import proofs.«173196_j49855980372233_2_alg».proof.Proof.KerValue
import proofs.«173196_j49855980372233_2_alg».proof.Proof.RefValue
import proofs.«173196_j49855980372233_2_alg».proof.Proof.Algebra
import proofs.«173196_j49855980372233_2_alg».proof.Proof.Finite
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ
theorem frame_ki : Cert.frame_KernelIdeal (hKernelIdeal := Cert.KernelIdeal.Gen.facts) (hPre_finite_inputs := Cert.Pre_finite_inputs.Gen.facts) :=
  fun m ρ _ => Cert.KernelIdeal.Gen.frame m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run m ρ)

/-- From memories that agree on the arguments, under the precondition, both idealized programs end with the same
    result array: the kernel's folded arrangement is the reference's centred one on finite inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.KerValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2]
  have hf := Cert.Pfn.finite_of_pre _ _ _ _ _ _ (hpre c)
  exact (Cert.Pfn.outFold_eq_outCentred _ _ _ _ _ _ hf.1 hf.2.1 hf.2.2.1 hf.2.2.2).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
